-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S8192x1024 : Shape := ⟨2, ![8192, 1024]⟩
abbrev S512x1024 : Shape := ⟨2, ![512, 1024]⟩
abbrev S512x3072 : Shape := ⟨2, ![512, 3072]⟩
abbrev S1x3072 : Shape := ⟨2, ![1, 3072]⟩
abbrev S4x256x1024 : Shape := ⟨3, ![4, 256, 1024]⟩
abbrev S4x256x1 : Shape := ⟨3, ![4, 256, 1]⟩
abbrev S4x256x256 : Shape := ⟨3, ![4, 256, 256]⟩
abbrev S4x256 : Shape := ⟨2, ![4, 256]⟩

abbrev nBuf : Space → Nat
  | .hbm => 18
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4x256x1024, .bf16⟩
  | .local _ .vmem, ⟨11, _⟩ => ⟨S4x256x1024, .bf16⟩
  | .local _ .vmem, ⟨12, _⟩ => ⟨S4x256x1024, .bf16⟩
  | .local _ .vmem, ⟨13, _⟩ => ⟨S4x256x1024, .bf16⟩
  | .local _ .vmem, ⟨14, _⟩ => ⟨S4x256x1024, .bf16⟩
  | .local _ .vmem, ⟨15, _⟩ => ⟨S4x256x1024, .bf16⟩
  | .local _ .vmem, ⟨16, _⟩ => ⟨S4x256x1024, .f32⟩
  | .local _ .vmem, ⟨17, _⟩ => ⟨S4x256x1024, .f32⟩
  | .local _ .vmem, ⟨18, _⟩ => ⟨S4x256x1, .f32⟩
  | .local _ .vmem, ⟨19, _⟩ => ⟨S4x256x1, .f32⟩
  | .local _ .vmem, ⟨20, _⟩ => ⟨S4x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  reduces_S4x256x256_S4x256 : S4x256x256.Reduces [2] S4x256
  shapeCasts_S4x256_S4x256x1 : S4x256.ShapeCasts S4x256x1
  broadcasts_S4x256x1_S4x256x256 : S4x256x1.Broadcasts S4x256x256
  broadcasts_S4x256x1_S4x256x1024 : S4x256x1.Broadcasts S4x256x1024
  dot_S512x1024_S1024x3072_S512x3072_1_0_0_1_n_n_wf : DotDims.WF S512x1024 S1024x3072 S512x3072 [1] [0] [0] [1] [] []
  dot_S4x256x1024_S4x256x1024_S4x256x256_2_2_1_1_0_0_wf : DotDims.WF S4x256x1024 S4x256x1024 S4x256x256 [2] [2] [1] [1] [0] [0]
  dot_S4x256x256_S4x256x1024_S4x256x1024_2_1_1_2_0_0_wf : DotDims.WF S4x256x256 S4x256x1024 S4x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x1024.size a ≤ S4x2048x1024.size a
  hwx1_0 : ∀ i : grid1.Coords, EltTy.bits .bf16 = 32 ∨ (Rect.block (s := S4x2048x1024) S4x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x256x1024.size a ≤ S4x2048x1024.size a
  hwx1_1 : ∀ i : grid1.Coords, EltTy.bits .bf16 = 32 ∨ (Rect.block (s := S4x2048x1024) S4x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x256x1024.size a ≤ S4x2048x1024.size a
  hwx1_2 : ∀ i : grid1.Coords, EltTy.bits .bf16 = 32 ∨ (Rect.block (s := S4x2048x1024) S4x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x256x1024.size a ≤ S4x2048x1024.size a
  hwx1_3 : ∀ i : grid1.Coords, EltTy.bits .f32 = 32 ∨ (Rect.block (s := S4x2048x1024) S4x256x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S4x256x1024_S4x256x1024_S4x256x256_2_2_1_1_0_0 : DotDims S4x256x1024 S4x256x1024 S4x256x256 where
  lhsContracting := [2]
  rhsContracting := [2]
  lhsNonContracting := [1]
  rhsNonContracting := [1]
  lhsBatch := [0]
  rhsBatch := [0]
  wf := dot_S4x256x1024_S4x256x1024_S4x256x256_2_2_1_1_0_0_wf
def dot_S4x256x256_S4x256x1024_S4x256x1024_2_1_1_2_0_0 : DotDims S4x256x256 S4x256x1024 S4x256x1024 where
  lhsContracting := [2]
  rhsContracting := [1]
  lhsNonContracting := [1]
  rhsNonContracting := [2]
  lhsBatch := [0]
  rhsBatch := [0]
  wf := dot_S4x256x256_S4x256x1024_S4x256x1024_2_1_1_2_0_0_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S4x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S4x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S4x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KReg0.lean ====
/-
  The projection region, point by point.

  The region walks the 8192 input rows in sixteen blocks of 512. At a point the body reads the point's
  block of rows, the whole concatenated weight matrix and the whole concatenated bias, forms the block of
  rows times the weights plus the bias, and stores its three column thirds into the point's blocks of the
  three results. Nothing is kept between points: what each result's staging buffer holds after the body
  is one store over the three input blocks, and the region's invariant is the untouched rest.
-/
import proofs.«165952_j73890617361023_2_alg».proof.Proof.Gen.Kernel.Launch
import proofs.«165952_j73890617361023_2_alg».proof.Proof.Gen.Kernel.Skeleton
import proofs.«165952_j73890617361023_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds the whole matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias' window holds the whole vector at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through a whole buffer -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S3072 := Rect.unit (s := S3072) ![0] S3072.size inb_S3072_S3072_0

/-! ## What the body leaves in each result's staging buffer -/

def out0_3 (x0 : Vec F S512x1024 .f32) (x1 : Vec F S1024x3072 .bf16) (x2 : Vec F S3072 .f32) : Vec F S512x1024 .bf16 :=
  View.canon [⟨rX, k0_pay2 (View.ld x0 rX) (View.ld x1 rW) (View.ld x2 rB)⟩]
def out0_4 (x0 : Vec F S512x1024 .f32) (x1 : Vec F S1024x3072 .bf16) (x2 : Vec F S3072 .f32) : Vec F S512x1024 .bf16 :=
  View.canon [⟨rX, k0_pay3 (View.ld x0 rX) (View.ld x1 rW) (View.ld x2 rB)⟩]
def out0_5 (x0 : Vec F S512x1024 .f32) (x1 : Vec F S1024x3072 .bf16) (x2 : Vec F S3072 .f32) : Vec F S512x1024 .bf16 :=
  View.canon [⟨rX, k0_pay4 (View.ld x0 rX) (View.ld x1 rW) (View.ld x2 rB)⟩]

/-- One whole-buffer store covers the buffer. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 2000000 in
/-- The body on whole staging buffers, the inputs' at known contents and the results' at anything, runs to the
    continuation holding the inputs' as they were and each result's at its one store. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The region's proof data -/

/-- The arrays as the region finds them; after the body at point `t` each input's buffer at its block and each
    result's at its one store over the input blocks; the invariant the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1a.lean ====
/-
  The attention region: what its runs share, and the body's run in each of its three cases.

  The region walks an 8 × 8 grid: the query tile (256 rows of every batch entry) on the slow axis, the key
  and value tile on the fast one. Three scratch buffers live across the eight key tiles of one query tile:
  the running maximum, the running normaliser, and the running weighted sum. The body resets them at the
  first key tile, updates them at every key tile, and at the last key tile divides the weighted sum by the
  normaliser into the result's block. So the body has three cases over the grid — first key tile, a middle
  one, the last — decided by the fast coordinate alone.
-/
import proofs.«165952_j73890617361023_2_alg».proof.Proof.Gen.Kernel.Launch
import proofs.«165952_j73890617361023_2_alg».proof.Proof.Gen.Kernel.Skeleton
import proofs.«165952_j73890617361023_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- "This is the first key tile": the fast coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile": the fast coordinate is seven. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the body stores nothing into the result's block and the block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging and scratch buffers the body is called with -/

abbrev ms1_0 (t : Fin cfg1.N) : Memref sig .tc .vmem S4x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256x1024 .f32 := win1_3.stage (cfg1.slots t 3)
abbrev hs1_3 (t : Fin cfg1.N) : (ms1_3 t).IsWhole := hstage1_3 ((cfg1.slots t 3).cast nbuf1_3)
/-- The running maximum, the running normaliser and the running weighted sum. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x1024 .f32 := Memref.whole cc1_scratch2
abbrev VS1_0 : View sig .tc .vmem S4x256x1 .f32 := scM1_0.view
abbrev VS1_1 : View sig .tc .vmem S4x256x1 .f32 := scM1_1.view
abbrev VS1_2 : View sig .tc .vmem S4x256x1024 .f32 := scM1_2.view
abbrev VO1_3 : View sig .tc .vmem S4x256x1024 .f32 := (Memref.whole cc1_stg3_0 : Memref sig .tc .vmem S4x256x1024 .f32).view

/-- The class invariant with the three scratch buffers singled out, each under an assertion of the caller's: the
    other region's staging buffers at some contents each, then the three scratch assertions, and the generator register. -/
def PhiFlat (c : Dev nD) (S0 S1 S2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S0 ∗ S1 ∗ S2) ∗ (∃ r, prngReg c r))

/-- What rides along untouched: the other region's staging buffers and the generator register. -/
def PhiRest (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)) ∗ (∃ r, prngReg c r))

theorem PhiA1_eq (c : Dev nD) :
    (Pipeline.ΦA spec1 c : sProp 𝕄)
      = PhiFlat c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA PhiFlat; rw [scopedRest1_eq]; simp only [scM1_0, scM1_1, scM1_2, owns_whole]; try rfl

theorem PhiFlat_split (c : Dev nD) (S0 S1 S2 : sProp 𝕄) : PhiFlat c S0 S1 S2 ⊢ iprop(PhiRest c ∗ S0 ∗ S1 ∗ S2) := by
  unfold PhiFlat PhiRest
  iintro ⟨⟨O0, O1, O2, O3, O4, O5, O6, O7, O8, O9, H0, H1, H2⟩, Hg⟩
  isplitl [O0 O1 O2 O3 O4 O5 O6 O7 O8 O9 Hg]
  · isplitr [Hg]
    · isplitl [O0]; · iexact O0
      isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      iexact O9
    · iexact Hg
  isplitl [H0]; · iexact H0
  isplitl [H1]; · iexact H1
  iexact H2

theorem PhiFlat_join (c : Dev nD) (S0 S1 S2 : sProp 𝕄) : iprop(PhiRest c ∗ S0 ∗ S1 ∗ S2) ⊢ PhiFlat c S0 S1 S2 := by
  unfold PhiFlat PhiRest
  iintro ⟨⟨⟨O0, O1, O2, O3, O4, O5, O6, O7, O8, O9⟩, Hg⟩, H0, H1, H2⟩
  isplitr [Hg]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [H0]; · iexact H0
    isplitl [H1]; · iexact H1
    iexact H2
  · iexact Hg

/-! ## The body's run, case by case: the stores each buffer ends with are what the run finds -/

set_option maxHeartbeats 4000000 in
/-- FIRST KEY TILE. The scratch buffers are entered at anything (the body resets them before it reads them); the result's block is handed back untouched. -/
noncomputable def kernelRun1_A (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d6, %fs0, -, HS0⟩, ⟨%d7, %fs1, -, HS1⟩, ⟨%d8, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- A MIDDLE KEY TILE. The scratch buffers are entered at what the tile before left; the result's block is handed back untouched. -/
noncomputable def kernelRun1_B (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- THE LAST KEY TILE. The scratch buffers are entered at what the tile before left; the result's block is stored. -/
noncomputable def kernelRun1_C (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    Σ' (L3 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%d5, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.KReg1b.lean ====
/-
  The attention region's proof data and body obligation.

  After each point the three scratch buffers hold what the point's case left in them, a function of the
  point's blocks of queries, keys and values and of what the point before left; at the first key tile of a
  query tile nothing earlier is read. The result's block is stored at the last key tile only. The region's
  invariant names the scratch contents after each point; the obligation is by cases on the fast coordinate.
-/
import proofs.«165952_j73890617361023_2_alg».proof.Proof.KReg1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The result's block and the three scratch buffers. -/
abbrev St : Type := Vec F S4x256x1024 .f32 × Vec F S4x256x1 .f32 × Vec F S4x256x1 .f32 × Vec F S4x256x1024 .f32

/-! ### Case A -/

theorem scover1_A_0 (c : Dev nD) (t : Fin cfg1.N) (hc0 : cond1_0 (grid1.coords t)) (hc1 : ¬cond1_1 (grid1.coords t)) (x0 : Vec F S4x256x1024 .bf16) (x1 : Vec F S4x256x1024 .bf16) (x2 : Vec F S4x256x1024 .bf16) (y : S4x256x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).1 S4x256x1.size (by sl_kernel_rfl) y
theorem scover1_A_1 (c : Dev nD) (t : Fin cfg1.N) (hc0 : cond1_0 (grid1.coords t)) (hc1 : ¬cond1_1 (grid1.coords t)) (x0 : Vec F S4x256x1024 .bf16) (x1 : Vec F S4x256x1024 .bf16) (x2 : Vec F S4x256x1024 .bf16) (y : S4x256x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.1 S4x256x1.size (by sl_kernel_rfl) y
theorem scover1_A_2 (c : Dev nD) (t : Fin cfg1.N) (hc0 : cond1_0 (grid1.coords t)) (hc1 : ¬cond1_1 (grid1.coords t)) (x0 : Vec F S4x256x1024 .bf16) (x1 : Vec F S4x256x1024 .bf16) (x2 : Vec F S4x256x1024 .bf16) (y : S4x256x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.2.1 S4x256x1024.size (by sl_kernel_rfl) y

/-- What case A leaves: the result's block (a placeholder: nothing is stored and nothing consults it), then the three scratch buffers, each its stores read back. -/
def stepA (c : Dev nD) (t : Fin cfg1.N) (hc0 : cond1_0 (grid1.coords t)) (hc1 : ¬cond1_1 (grid1.coords t)) (x0 : Vec F S4x256x1024 .bf16) (x1 : Vec F S4x256x1024 .bf16) (x2 : Vec F S4x256x1024 .bf16) : St (F := F) :=
  (VO1_3.read (Elt F) (VO1_3.writes (Elt F) VO1_3.junk []),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.2.1))

/-! ### Case B -/

theorem scover1_B_0 (c : Dev nD) (t : Fin cfg1.N) (hc0 : ¬cond1_0 (grid1.coords t)) (hc1 : ¬cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1 S4x256x1.size (by sl_kernel_rfl) y
theorem scover1_B_1 (c : Dev nD) (t : Fin cfg1.N) (hc0 : ¬cond1_0 (grid1.coords t)) (hc1 : ¬cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1 S4x256x1.size (by sl_kernel_rfl) y
theorem scover1_B_2 (c : Dev nD) (t : Fin cfg1.N) (hc0 : ¬cond1_0 (grid1.coords t)) (hc1 : ¬cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1 S4x256x1024.size (by sl_kernel_rfl) y

/-- What case B leaves: the result's block (a placeholder: nothing is stored and nothing consults it), then the three scratch buffers, each its stores read back. -/
def stepB (c : Dev nD) (t : Fin cfg1.N) (hc0 : ¬cond1_0 (grid1.coords t)) (hc1 : ¬cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : St (F := F) :=
  (VO1_3.read (Elt F) (VO1_3.writes (Elt F) VO1_3.junk []),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1))

/-! ### Case C -/

theorem scover1_C_0 (c : Dev nD) (t : Fin cfg1.N) (hc0 : ¬cond1_0 (grid1.coords t)) (hc1 : cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1 S4x256x1.size (by sl_kernel_rfl) y
theorem scover1_C_1 (c : Dev nD) (t : Fin cfg1.N) (hc0 : ¬cond1_0 (grid1.coords t)) (hc1 : cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1 S4x256x1.size (by sl_kernel_rfl) y
theorem scover1_C_2 (c : Dev nD) (t : Fin cfg1.N) (hc0 : ¬cond1_0 (grid1.coords t)) (hc1 : cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.2.1 S4x256x1024.size (by sl_kernel_rfl) y
theorem cover1_C_3 (c : Dev nD) (t : Fin cfg1.N) (hc0 : ¬cond1_0 (grid1.coords t)) (hc1 : cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1 S4x256x1024.size (by sl_kernel_rfl) y

/-- What case C leaves: the result's block, then the three scratch buffers, each its stores read back. -/
def stepC (c : Dev nD) (t : Fin cfg1.N) (hc0 : ¬cond1_0 (grid1.coords t)) (hc1 : cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : St (F := F) :=
  (VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.2.1))

/-! ## What the buffers hold after each point -/

/-- After the body at position `n`: the case the fast coordinate selects, over the point's blocks and, away from the
    first key tile, over what position `n - 1` left in the scratch buffers. -/
def outsAt1 (c : Dev nD) : (n : ℕ) → n < cfg1.N → St (F := F)
  | 0, hn => stepA c ⟨0, hn⟩ ((hcond1_0 ⟨0, hn⟩).mpr (Nat.zero_mod _)) (fun h => by have h' : (0 : ℕ) % 8 = 7 := (hcond1_1 ⟨0, hn⟩).mp h; omega)
      (iblk1 V c 0 ⟨0, hn⟩) (iblk1 V c 1 ⟨0, hn⟩) (iblk1 V c 2 ⟨0, hn⟩)
  | n + 1, hn =>
    if h0 : (n + 1) % 8 = 0 then
      if h1 : (n + 1) % 8 = 7 then False.elim (by omega)
      else stepA c ⟨n + 1, hn⟩ ((hcond1_0 ⟨n + 1, hn⟩).mpr h0) (fun h => h1 ((hcond1_1 ⟨n + 1, hn⟩).mp h))
        (iblk1 V c 0 ⟨n + 1, hn⟩) (iblk1 V c 1 ⟨n + 1, hn⟩) (iblk1 V c 2 ⟨n + 1, hn⟩)
    else
      if h1 : (n + 1) % 8 = 7 then
        stepC c ⟨n + 1, hn⟩ (fun h => h0 ((hcond1_0 ⟨n + 1, hn⟩).mp h)) ((hcond1_1 ⟨n + 1, hn⟩).mpr h1)
          (iblk1 V c 0 ⟨n + 1, hn⟩) (iblk1 V c 1 ⟨n + 1, hn⟩) (iblk1 V c 2 ⟨n + 1, hn⟩)
          (outsAt1 c n (Nat.lt_of_succ_lt hn)).2.1 (outsAt1 c n (Nat.lt_of_succ_lt hn)).2.2.1 (outsAt1 c n (Nat.lt_of_succ_lt hn)).2.2.2
      else
        stepB c ⟨n + 1, hn⟩ (fun h => h0 ((hcond1_0 ⟨n + 1, hn⟩).mp h)) (fun h => h1 ((hcond1_1 ⟨n + 1, hn⟩).mp h))
          (iblk1 V c 0 ⟨n + 1, hn⟩) (iblk1 V c 1 ⟨n + 1, hn⟩) (iblk1 V c 2 ⟨n + 1, hn⟩)
          (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 8 = 0) (h1 : ¬t.val % 8 = 7) :
    outsAt1 V c t.val t.isLt = stepA c t ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = stepB c t (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC c t (fun h => h0 ((hcond1_0 t).mp h)) ((hcond1_1 t).mpr h1) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant: the scratch buffers at what the point before left -/

def PhiS (c : Dev nD) : (n : ℕ) → n ≤ cfg1.N → sProp 𝕄
  | 0, _ => Pipeline.ΦA spec1 c
  | n + 1, hn => PhiFlat c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiFlat c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2) := rfl

theorem PhiS_pos (c : Dev nD) (n : ℕ) (h : n ≤ cfg1.N) (hz : n ≠ 0) :
    PhiS V c n h = PhiFlat c (owns (c : Thread nD τ) scM1_0 fullShare (outsAt1 V c (n - 1) (by omega)).2.1) (owns (c : Thread nD τ) scM1_1 fullShare (outsAt1 V c (n - 1) (by omega)).2.2.1)
      (owns (c : Thread nD τ) scM1_2 fullShare (outsAt1 V c (n - 1) (by omega)).2.2.2) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [outsAt1_A V c t h0 h1]
    unfold stepA; (try dsimp only)
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩⟩
      ihave HΦ' := (PhiFlat_split c _ _ _) $$ HΦ
      icases HΦ' with ⟨HR, HS0, HS1, HS2⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2]
      · iapply (PhiFlat_join c _ _ _)
        isplitl [HR]; · iexact HR
        isplitl [HS0]
        · unfold owns; iexists _; isplitr
          swap; · iexact HS0
          ipureintro; exact View.read_writes_of_cover _ _ _ _ _ (scover1_A_0 c t hc0 hc1 _ _ _)
        isplitl [HS1]
        · unfold owns; iexists _; isplitr
          swap; · iexact HS1
          ipureintro; exact View.read_writes_of_cover _ _ _ _ _ (scover1_A_1 c t hc0 hc1 _ _ _)
        unfold owns; iexists _; isplitr
        swap; · iexact HS2
        ipureintro; exact View.read_writes_of_cover _ _ _ _ _ (scover1_A_2 c t hc0 hc1 _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      ihave HΦ' := (PhiFlat_split c _ _ _) $$ HΦ
      icases HΦ' with ⟨HR, HS0, HS1, HS2⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR HS0 HS1 HS2]
      · iapply (PhiFlat_join c _ _ _)
        isplitl [HR]; · iexact HR
        isplitl [HS0]
        · unfold owns; iexists _; isplitr
          swap; · iexact HS0
          ipureintro; exact View.read_writes_of_cover _ _ _ _ _ (scover1_A_0 c t hc0 hc1 _ _ _)
        isplitl [HS1]
        · unfold owns; iexists _; isplitr
          swap; · iexact HS1
          ipureintro; exact View.read_writes_of_cover _ _ _ _ _ (scover1_A_1 c t hc0 hc1 _ _ _)
        unfold owns; iexists _; isplitr
        swap; · iexact HS2
        ipureintro; exact View.read_writes_of_cover _ _ _ _ _ (scover1_A_2 c t hc0 hc1 _ _ _)
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold stepC; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ' := (PhiFlat_split c _ _ _) $$ HΦ
      icases HΦ' with ⟨HR, HS0, HS1, HS2⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR HS0 HS1 HS2]
      · iapply (PhiFlat_join c _ _ _)
        isplitl [HR]; · iexact HR
        isplitl [HS0]
        · unfold owns; iexists _; isplitr
          swap; · iexact HS0
          ipureintro; exact View.read_writes_of_cover _ _ _ _ _ (scover1_C_0 c t hc0 hc1 _ _ _ _ _ _)
        isplitl [HS1]
        · unfold owns; iexists _; isplitr
          swap; · iexact HS1
          ipureintro; exact View.read_writes_of_cover _ _ _ _ _ (scover1_C_1 c t hc0 hc1 _ _ _ _ _ _)
        unfold owns; iexists _; isplitr
        swap; · iexact HS2
        ipureintro; exact View.read_writes_of_cover _ _ _ _ _ (scover1_C_2 c t hc0 hc1 _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c t hc0 hc1 _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold stepB; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ' := (PhiFlat_split c _ _ _) $$ HΦ
      icases HΦ' with ⟨HR, HS0, HS1, HS2⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2]
      · iapply (PhiFlat_join c _ _ _)
        isplitl [HR]; · iexact HR
        isplitl [HS0]
        · unfold owns; iexists _; isplitr
          swap; · iexact HS0
          ipureintro; exact View.read_writes_of_cover _ _ _ _ _ (scover1_B_0 c t hc0 hc1 _ _ _ _ _ _)
        isplitl [HS1]
        · unfold owns; iexists _; isplitr
          swap; · iexact HS1
          ipureintro; exact View.read_writes_of_cover _ _ _ _ _ (scover1_B_1 c t hc0 hc1 _ _ _ _ _ _)
        unfold owns; iexists _; isplitr
        swap; · iexact HS2
        ipureintro; exact View.read_writes_of_cover _ _ _ _ _ (scover1_B_2 c t hc0 hc1 _ _ _ _ _ _)
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro H
  ihave H' := (PhiFlat_split c _ _ _) $$ H
  icases H' with ⟨HR, HS0, HS1, HS2⟩
  iapply (PhiFlat_join c _ _ _)
  isplitl [HR]; · iexact HR
  isplitl [HS0]; · iexists _; iexact HS0
  isplitl [HS1]; · iexists _; iexact HS1
  iexists _; iexact HS2

end Cert.Kernel.Hand

end
-- ==== Proof.KRun.lean ====
/-
  The whole run: @main as two host stretches and two regions.

  Core by core the unscoped buffers are followed through @main: the launch memory, then the first host
  stretch (the concatenated weights and bias, the flattened input), then the projection region, which
  replaces its three result arrays by what its write-backs leave, then the second host stretch (the three
  results reshaped), then the attention region, which replaces the final result. Every argument array is
  written by none of them, so it ends as launched; the final result ends at what the attention region's
  write-backs leave.
-/
import proofs.«165952_j73890617361023_2_alg».proof.Proof.KReg0
import proofs.«165952_j73890617361023_2_alg».proof.Proof.KReg1b
import proofs.«165952_j73890617361023_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer that neither host stretch writes and that is no array of either region ends as launched. -/
theorem W4_untouched (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 m ρ c (Proc.devRef .tc r) = m ((c : Thread nD τ).loc r) :=
  (W4_of_ne m ρ c r h4).trans <| (StableHlo.after_of_writes_sub hostOps1 _ hostOps1_writes h3).trans <|
    (W2_of_ne m ρ c r h2).trans <| (StableHlo.after_of_writes_sub hostOps0 _ hostOps0_writes h1).trans rfl

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs' : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs' m ρ) := (main_chain c).trans (by chain_rfl)

set_option backward.isDefEq.respectTransparency.types false in
/-- From any memory with zero counters every weakly fair execution of @main terminates, and in every final state
    each unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide))⟩)
    (run_all m ρ)

end Cert.Kernel.Hand

end
-- ==== Proof.KIReg0.lean ====
/-
  The projection region, point by point.

  The region walks the 8192 input rows in sixteen blocks of 512. At a point the body reads the point's
  block of rows, the whole concatenated weight matrix and the whole concatenated bias, forms the block of
  rows times the weights plus the bias, and stores its three column thirds into the point's blocks of the
  three results. Nothing is kept between points: what each result's staging buffer holds after the body
  is one store over the three input blocks, and the region's invariant is the untouched rest.
-/
import proofs.«165952_j73890617361023_2_alg».proof.Proof.Gen.KernelIdeal.Launch
import proofs.«165952_j73890617361023_2_alg».proof.Proof.Gen.KernelIdeal.Skeleton
import proofs.«165952_j73890617361023_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds the whole matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias' window holds the whole vector at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through a whole buffer -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S3072 := Rect.unit (s := S3072) ![0] S3072.size inb_S3072_S3072_0

/-! ## What the body leaves in each result's staging buffer -/

def out0_3 (x0 : Vec F S512x1024 .f32) (x1 : Vec F S1024x3072 .bf16) (x2 : Vec F S3072 .f32) : Vec F S512x1024 .bf16 :=
  View.canon [⟨rX, k0_pay2 (View.ld x0 rX) (View.ld x1 rW) (View.ld x2 rB)⟩]
def out0_4 (x0 : Vec F S512x1024 .f32) (x1 : Vec F S1024x3072 .bf16) (x2 : Vec F S3072 .f32) : Vec F S512x1024 .bf16 :=
  View.canon [⟨rX, k0_pay3 (View.ld x0 rX) (View.ld x1 rW) (View.ld x2 rB)⟩]
def out0_5 (x0 : Vec F S512x1024 .f32) (x1 : Vec F S1024x3072 .bf16) (x2 : Vec F S3072 .f32) : Vec F S512x1024 .bf16 :=
  View.canon [⟨rX, k0_pay4 (View.ld x0 rX) (View.ld x1 rW) (View.ld x2 rB)⟩]

/-- One whole-buffer store covers the buffer. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 2000000 in
/-- The body on whole staging buffers, the inputs' at known contents and the results' at anything, runs to the
    continuation holding the inputs' as they were and each result's at its one store. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The region's proof data -/

/-- The arrays as the region finds them; after the body at point `t` each input's buffer at its block and each
    result's at its one store over the input blocks; the invariant the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1a.lean ====
/-
  The attention region: what its runs share, and the body's run in each of its three cases.

  The region walks an 8 × 8 grid: the query tile (256 rows of every batch entry) on the slow axis, the key
  and value tile on the fast one. Three scratch buffers live across the eight key tiles of one query tile:
  the running maximum, the running normaliser, and the running weighted sum. The body resets them at the
  first key tile, updates them at every key tile, and at the last key tile divides the weighted sum by the
  normaliser into the result's block. So the body has three cases over the grid — first key tile, a middle
  one, the last — decided by the fast coordinate alone.
-/
import proofs.«165952_j73890617361023_2_alg».proof.Proof.Gen.KernelIdeal.Launch
import proofs.«165952_j73890617361023_2_alg».proof.Proof.Gen.KernelIdeal.Skeleton
import proofs.«165952_j73890617361023_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- "This is the first key tile": the fast coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile": the fast coordinate is seven. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the body stores nothing into the result's block and the block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The staging and scratch buffers the body is called with -/

abbrev ms1_0 (t : Fin cfg1.N) : Memref sig .tc .vmem S4x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256x1024 .f32 := win1_3.stage (cfg1.slots t 3)
abbrev hs1_3 (t : Fin cfg1.N) : (ms1_3 t).IsWhole := hstage1_3 ((cfg1.slots t 3).cast nbuf1_3)
/-- The running maximum, the running normaliser and the running weighted sum. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x1024 .f32 := Memref.whole cc1_scratch2
abbrev VS1_0 : View sig .tc .vmem S4x256x1 .f32 := scM1_0.view
abbrev VS1_1 : View sig .tc .vmem S4x256x1 .f32 := scM1_1.view
abbrev VS1_2 : View sig .tc .vmem S4x256x1024 .f32 := scM1_2.view
abbrev VO1_3 : View sig .tc .vmem S4x256x1024 .f32 := (Memref.whole cc1_stg3_0 : Memref sig .tc .vmem S4x256x1024 .f32).view

/-- The class invariant with the three scratch buffers singled out, each under an assertion of the caller's: the
    other region's staging buffers at some contents each, then the three scratch assertions, and the generator register. -/
def PhiFlat (c : Dev nD) (S0 S1 S2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S0 ∗ S1 ∗ S2) ∗ (∃ r, prngReg c r))

/-- What rides along untouched: the other region's staging buffers and the generator register. -/
def PhiRest (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)) ∗ (∃ r, prngReg c r))

theorem PhiA1_eq (c : Dev nD) :
    (Pipeline.ΦA spec1 c : sProp 𝕄)
      = PhiFlat c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA PhiFlat; rw [scopedRest1_eq]; simp only [scM1_0, scM1_1, scM1_2, owns_whole]; try rfl

theorem PhiFlat_split (c : Dev nD) (S0 S1 S2 : sProp 𝕄) : PhiFlat c S0 S1 S2 ⊢ iprop(PhiRest c ∗ S0 ∗ S1 ∗ S2) := by
  unfold PhiFlat PhiRest
  iintro ⟨⟨O0, O1, O2, O3, O4, O5, O6, O7, O8, O9, H0, H1, H2⟩, Hg⟩
  isplitl [O0 O1 O2 O3 O4 O5 O6 O7 O8 O9 Hg]
  · isplitr [Hg]
    · isplitl [O0]; · iexact O0
      isplitl [O1]; · iexact O1
      isplitl [O2]; · iexact O2
      isplitl [O3]; · iexact O3
      isplitl [O4]; · iexact O4
      isplitl [O5]; · iexact O5
      isplitl [O6]; · iexact O6
      isplitl [O7]; · iexact O7
      isplitl [O8]; · iexact O8
      iexact O9
    · iexact Hg
  isplitl [H0]; · iexact H0
  isplitl [H1]; · iexact H1
  iexact H2

theorem PhiFlat_join (c : Dev nD) (S0 S1 S2 : sProp 𝕄) : iprop(PhiRest c ∗ S0 ∗ S1 ∗ S2) ⊢ PhiFlat c S0 S1 S2 := by
  unfold PhiFlat PhiRest
  iintro ⟨⟨⟨O0, O1, O2, O3, O4, O5, O6, O7, O8, O9⟩, Hg⟩, H0, H1, H2⟩
  isplitr [Hg]
  · isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [H0]; · iexact H0
    isplitl [H1]; · iexact H1
    iexact H2
  · iexact Hg

/-! ## The body's run, case by case: the stores each buffer ends with are what the run finds -/

set_option maxHeartbeats 4000000 in
/-- FIRST KEY TILE. The scratch buffers are entered at anything (the body resets them before it reads them); the result's block is handed back untouched. -/
noncomputable def kernelRun1_A (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : ¬cond1_1 i)
    (x0 : Vec F S4x256x1024 .bf16) (x1 : Vec F S4x256x1024 .bf16) (x2 : Vec F S4x256x1024 .bf16) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d6, %fs0, -, HS0⟩, ⟨%d7, %fs1, -, HS1⟩, ⟨%d8, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- A MIDDLE KEY TILE. The scratch buffers are entered at what the tile before left; the result's block is handed back untouched. -/
noncomputable def kernelRun1_B (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : ¬cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- THE LAST KEY TILE. The scratch buffers are entered at what the tile before left; the result's block is stored. -/
noncomputable def kernelRun1_C (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i)
    (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) :
    Σ' (L3 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%d5, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KIReg1b.lean ====
/-
  The attention region's proof data and body obligation.

  After each point the three scratch buffers hold what the point's case left in them, a function of the
  point's blocks of queries, keys and values and of what the point before left; at the first key tile of a
  query tile nothing earlier is read. The result's block is stored at the last key tile only. The region's
  invariant names the scratch contents after each point; the obligation is by cases on the fast coordinate.
-/
import proofs.«165952_j73890617361023_2_alg».proof.Proof.KIReg1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The result's block and the three scratch buffers. -/
abbrev St : Type := Vec F S4x256x1024 .f32 × Vec F S4x256x1 .f32 × Vec F S4x256x1 .f32 × Vec F S4x256x1024 .f32

/-! ### Case A -/

theorem scover1_A_0 (c : Dev nD) (t : Fin cfg1.N) (hc0 : cond1_0 (grid1.coords t)) (hc1 : ¬cond1_1 (grid1.coords t)) (x0 : Vec F S4x256x1024 .bf16) (x1 : Vec F S4x256x1024 .bf16) (x2 : Vec F S4x256x1024 .bf16) (y : S4x256x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).1 S4x256x1.size (by sl_kernel_rfl) y
theorem scover1_A_1 (c : Dev nD) (t : Fin cfg1.N) (hc0 : cond1_0 (grid1.coords t)) (hc1 : ¬cond1_1 (grid1.coords t)) (x0 : Vec F S4x256x1024 .bf16) (x1 : Vec F S4x256x1024 .bf16) (x2 : Vec F S4x256x1024 .bf16) (y : S4x256x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.1 S4x256x1.size (by sl_kernel_rfl) y
theorem scover1_A_2 (c : Dev nD) (t : Fin cfg1.N) (hc0 : cond1_0 (grid1.coords t)) (hc1 : ¬cond1_1 (grid1.coords t)) (x0 : Vec F S4x256x1024 .bf16) (x1 : Vec F S4x256x1024 .bf16) (x2 : Vec F S4x256x1024 .bf16) (y : S4x256x1024.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.2.1 S4x256x1024.size (by sl_kernel_rfl) y

/-- What case A leaves: the result's block (a placeholder: nothing is stored and nothing consults it), then the three scratch buffers, each its stores read back. -/
def stepA (c : Dev nD) (t : Fin cfg1.N) (hc0 : cond1_0 (grid1.coords t)) (hc1 : ¬cond1_1 (grid1.coords t)) (x0 : Vec F S4x256x1024 .bf16) (x1 : Vec F S4x256x1024 .bf16) (x2 : Vec F S4x256x1024 .bf16) : St (F := F) :=
  (VO1_3.read (Elt F) (VO1_3.writes (Elt F) VO1_3.junk []),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2).2.2.1))

/-! ### Case B -/

theorem scover1_B_0 (c : Dev nD) (t : Fin cfg1.N) (hc0 : ¬cond1_0 (grid1.coords t)) (hc1 : ¬cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1 S4x256x1.size (by sl_kernel_rfl) y
theorem scover1_B_1 (c : Dev nD) (t : Fin cfg1.N) (hc0 : ¬cond1_0 (grid1.coords t)) (hc1 : ¬cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1 S4x256x1.size (by sl_kernel_rfl) y
theorem scover1_B_2 (c : Dev nD) (t : Fin cfg1.N) (hc0 : ¬cond1_0 (grid1.coords t)) (hc1 : ¬cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1 S4x256x1024.size (by sl_kernel_rfl) y

/-- What case B leaves: the result's block (a placeholder: nothing is stored and nothing consults it), then the three scratch buffers, each its stores read back. -/
def stepB (c : Dev nD) (t : Fin cfg1.N) (hc0 : ¬cond1_0 (grid1.coords t)) (hc1 : ¬cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : St (F := F) :=
  (VO1_3.read (Elt F) (VO1_3.writes (Elt F) VO1_3.junk []),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1))

/-! ### Case C -/

theorem scover1_C_0 (c : Dev nD) (t : Fin cfg1.N) (hc0 : ¬cond1_0 (grid1.coords t)) (hc1 : cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1 S4x256x1.size (by sl_kernel_rfl) y
theorem scover1_C_1 (c : Dev nD) (t : Fin cfg1.N) (hc0 : ¬cond1_0 (grid1.coords t)) (hc1 : cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1 S4x256x1.size (by sl_kernel_rfl) y
theorem scover1_C_2 (c : Dev nD) (t : Fin cfg1.N) (hc0 : ¬cond1_0 (grid1.coords t)) (hc1 : cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.2.1 S4x256x1024.size (by sl_kernel_rfl) y
theorem cover1_C_3 (c : Dev nD) (t : Fin cfg1.N) (hc0 : ¬cond1_0 (grid1.coords t)) (hc1 : cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) (y : S4x256x1024.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1 S4x256x1024.size (by sl_kernel_rfl) y

/-- What case C leaves: the result's block, then the three scratch buffers, each its stores read back. -/
def stepC (c : Dev nD) (t : Fin cfg1.N) (hc0 : ¬cond1_0 (grid1.coords t)) (hc1 : cond1_1 (grid1.coords t)) (x0 : Vec F S4x256x1024 .bf16) (x1 : Vec F S4x256x1024 .bf16) (x2 : Vec F S4x256x1024 .bf16) (xs0 : Vec F S4x256x1 .f32) (xs1 : Vec F S4x256x1 .f32) (xs2 : Vec F S4x256x1024 .f32) : St (F := F) :=
  (VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 x2 xs0 xs1 xs2).2.2.2.1))

/-! ## What the buffers hold after each point -/

/-- After the body at position `n`: the case the fast coordinate selects, over the point's blocks and, away from the
    first key tile, over what position `n - 1` left in the scratch buffers. -/
def outsAt1 (c : Dev nD) : (n : ℕ) → n < cfg1.N → St (F := F)
  | 0, hn => stepA c ⟨0, hn⟩ ((hcond1_0 ⟨0, hn⟩).mpr (Nat.zero_mod _)) (fun h => by have h' : (0 : ℕ) % 8 = 7 := (hcond1_1 ⟨0, hn⟩).mp h; omega)
      (iblk1 V c 0 ⟨0, hn⟩) (iblk1 V c 1 ⟨0, hn⟩) (iblk1 V c 2 ⟨0, hn⟩)
  | n + 1, hn =>
    if h0 : (n + 1) % 8 = 0 then
      if h1 : (n + 1) % 8 = 7 then False.elim (by omega)
      else stepA c ⟨n + 1, hn⟩ ((hcond1_0 ⟨n + 1, hn⟩).mpr h0) (fun h => h1 ((hcond1_1 ⟨n + 1, hn⟩).mp h))
        (iblk1 V c 0 ⟨n + 1, hn⟩) (iblk1 V c 1 ⟨n + 1, hn⟩) (iblk1 V c 2 ⟨n + 1, hn⟩)
    else
      if h1 : (n + 1) % 8 = 7 then
        stepC c ⟨n + 1, hn⟩ (fun h => h0 ((hcond1_0 ⟨n + 1, hn⟩).mp h)) ((hcond1_1 ⟨n + 1, hn⟩).mpr h1)
          (iblk1 V c 0 ⟨n + 1, hn⟩) (iblk1 V c 1 ⟨n + 1, hn⟩) (iblk1 V c 2 ⟨n + 1, hn⟩)
          (outsAt1 c n (Nat.lt_of_succ_lt hn)).2.1 (outsAt1 c n (Nat.lt_of_succ_lt hn)).2.2.1 (outsAt1 c n (Nat.lt_of_succ_lt hn)).2.2.2
      else
        stepB c ⟨n + 1, hn⟩ (fun h => h0 ((hcond1_0 ⟨n + 1, hn⟩).mp h)) (fun h => h1 ((hcond1_1 ⟨n + 1, hn⟩).mp h))
          (iblk1 V c 0 ⟨n + 1, hn⟩) (iblk1 V c 1 ⟨n + 1, hn⟩) (iblk1 V c 2 ⟨n + 1, hn⟩)
          (outsAt1 c n (Nat.lt_of_succ_lt hn)).2.1 (outsAt1 c n (Nat.lt_of_succ_lt hn)).2.2.1 (outsAt1 c n (Nat.lt_of_succ_lt hn)).2.2.2

theorem outsAt1_A (c : Dev nD) (t : Fin cfg1.N) (h0 : t.val % 8 = 0) (h1 : ¬t.val % 8 = 7) :
    outsAt1 V c t.val t.isLt = stepA c t ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = stepB c t (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC c t (fun h => h0 ((hcond1_0 t).mp h)) ((hcond1_1 t).mpr h1) (iblk1 V c 0 t) (iblk1 V c 1 t) (iblk1 V c 2 t)
      (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant: the scratch buffers at what the point before left -/

def PhiS (c : Dev nD) : (n : ℕ) → n ≤ cfg1.N → sProp 𝕄
  | 0, _ => Pipeline.ΦA spec1 c
  | n + 1, hn => PhiFlat c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiFlat c (owns (c : Thread nD τ) scM1_0 fullShare (outsAt1 V c n hn).2.1) (owns (c : Thread nD τ) scM1_1 fullShare (outsAt1 V c n hn).2.2.1)
      (owns (c : Thread nD τ) scM1_2 fullShare (outsAt1 V c n hn).2.2.2) := rfl

theorem PhiS_pos (c : Dev nD) (n : ℕ) (h : n ≤ cfg1.N) (hz : n ≠ 0) :
    PhiS V c n h = PhiFlat c (owns (c : Thread nD τ) scM1_0 fullShare (outsAt1 V c (n - 1) (by omega)).2.1) (owns (c : Thread nD τ) scM1_1 fullShare (outsAt1 V c (n - 1) (by omega)).2.2.1)
      (owns (c : Thread nD τ) scM1_2 fullShare (outsAt1 V c (n - 1) (by omega)).2.2.2) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [outsAt1_A V c t h0 h1]
    unfold stepA; (try dsimp only)
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩⟩
      ihave HΦ' := (PhiFlat_split c _ _ _) $$ HΦ
      icases HΦ' with ⟨HR, HS0, HS1, HS2⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2]
      · iapply (PhiFlat_join c _ _ _)
        isplitl [HR]; · iexact HR
        isplitl [HS0]
        · unfold owns; iexists _; isplitr
          swap; · iexact HS0
          ipureintro; exact View.read_writes_of_cover _ _ _ _ _ (scover1_A_0 c t hc0 hc1 _ _ _)
        isplitl [HS1]
        · unfold owns; iexists _; isplitr
          swap; · iexact HS1
          ipureintro; exact View.read_writes_of_cover _ _ _ _ _ (scover1_A_1 c t hc0 hc1 _ _ _)
        unfold owns; iexists _; isplitr
        swap; · iexact HS2
        ipureintro; exact View.read_writes_of_cover _ _ _ _ _ (scover1_A_2 c t hc0 hc1 _ _ _)
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      ihave HΦ' := (PhiFlat_split c _ _ _) $$ HΦ
      icases HΦ' with ⟨HR, HS0, HS1, HS2⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HR HS0 HS1 HS2]
      · iapply (PhiFlat_join c _ _ _)
        isplitl [HR]; · iexact HR
        isplitl [HS0]
        · unfold owns; iexists _; isplitr
          swap; · iexact HS0
          ipureintro; exact View.read_writes_of_cover _ _ _ _ _ (scover1_A_0 c t hc0 hc1 _ _ _)
        isplitl [HS1]
        · unfold owns; iexists _; isplitr
          swap; · iexact HS1
          ipureintro; exact View.read_writes_of_cover _ _ _ _ _ (scover1_A_1 c t hc0 hc1 _ _ _)
        unfold owns; iexists _; isplitr
        swap; · iexact HS2
        ipureintro; exact View.read_writes_of_cover _ _ _ _ _ (scover1_A_2 c t hc0 hc1 _ _ _)
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold stepC; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ' := (PhiFlat_split c _ _ _) $$ HΦ
      icases HΦ' with ⟨HR, HS0, HS1, HS2⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HR HS0 HS1 HS2]
      · iapply (PhiFlat_join c _ _ _)
        isplitl [HR]; · iexact HR
        isplitl [HS0]
        · unfold owns; iexists _; isplitr
          swap; · iexact HS0
          ipureintro; exact View.read_writes_of_cover _ _ _ _ _ (scover1_C_0 c t hc0 hc1 _ _ _ _ _ _)
        isplitl [HS1]
        · unfold owns; iexists _; isplitr
          swap; · iexact HS1
          ipureintro; exact View.read_writes_of_cover _ _ _ _ _ (scover1_C_1 c t hc0 hc1 _ _ _ _ _ _)
        unfold owns; iexists _; isplitr
        swap; · iexact HS2
        ipureintro; exact View.read_writes_of_cover _ _ _ _ _ (scover1_C_2 c t hc0 hc1 _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c t hc0 hc1 _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold stepB; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ' := (PhiFlat_split c _ _ _) $$ HΦ
      icases HΦ' with ⟨HR, HS0, HS1, HS2⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HR HS0 HS1 HS2]
      · iapply (PhiFlat_join c _ _ _)
        isplitl [HR]; · iexact HR
        isplitl [HS0]
        · unfold owns; iexists _; isplitr
          swap; · iexact HS0
          ipureintro; exact View.read_writes_of_cover _ _ _ _ _ (scover1_B_0 c t hc0 hc1 _ _ _ _ _ _)
        isplitl [HS1]
        · unfold owns; iexists _; isplitr
          swap; · iexact HS1
          ipureintro; exact View.read_writes_of_cover _ _ _ _ _ (scover1_B_1 c t hc0 hc1 _ _ _ _ _ _)
        unfold owns; iexists _; isplitr
        swap; · iexact HS2
        ipureintro; exact View.read_writes_of_cover _ _ _ _ _ (scover1_B_2 c t hc0 hc1 _ _ _ _ _ _)
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro H
  ihave H' := (PhiFlat_split c _ _ _) $$ H
  icases H' with ⟨HR, HS0, HS1, HS2⟩
  iapply (PhiFlat_join c _ _ _)
  isplitl [HR]; · iexact HR
  isplitl [HS0]; · iexists _; iexact HS0
  isplitl [HS1]; · iexists _; iexact HS1
  iexists _; iexact HS2

end Cert.KernelIdeal.Hand

end
-- ==== Proof.KIRun.lean ====
/-
  The whole run: @main as two host stretches and two regions.

  Core by core the unscoped buffers are followed through @main: the launch memory, then the first host
  stretch (the concatenated weights and bias, the flattened input), then the projection region, which
  replaces its three result arrays by what its write-backs leave, then the second host stretch (the three
  results reshaped), then the attention region, which replaces the final result. Every argument array is
  written by none of them, so it ends as launched; the final result ends at what the attention region's
  write-backs leave.
-/
import proofs.«165952_j73890617361023_2_alg».proof.Proof.KIReg0
import proofs.«165952_j73890617361023_2_alg».proof.Proof.KIReg1b
import proofs.«165952_j73890617361023_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer that neither host stretch writes and that is no array of either region ends as launched. -/
theorem W4_untouched (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 m ρ c (Proc.devRef .tc r) = m ((c : Thread nD τ).loc r) :=
  (W4_of_ne m ρ c r h4).trans <| (StableHlo.after_of_writes_sub hostOps1 _ hostOps1_writes h3).trans <|
    (W2_of_ne m ρ c r h2).trans <| (StableHlo.after_of_writes_sub hostOps0 _ hostOps0_writes h1).trans rfl

/-! ## The proof data family and the thread state -/

abbrev adm' : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs' : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs' m ρ) := (main_chain c).trans (by chain_rfl)

set_option backward.isDefEq.respectTransparency.types false in
/-- From any memory with zero counters every weakly fair execution of @main terminates, and in every final state
    each unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L lv m ρ main (segs' m ρ)
    (fun c Q => by rw [main_run m ρ c])
    (by simp only [segs', Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide))⟩)
    (run_all m ρ)

end Cert.KernelIdeal.Hand

end
-- ==== Proof.Spec.lean ====
/-
  The mathematics both programs compute, stated per output row over plain finite index types.

  For one batch entry and one query row, write `qrow d` for the query vector, `K t d` and `V t e` for
  the 2048 key and value vectors. A score is the dot product of the query with a key. The plain
  attention row divides every score by 32 (the square root of the width 1024), subtracts the row's
  largest scaled score, exponentiates, normalises by the sum, and takes the weighted sum of the
  value vectors. The tiled attention row multiplies every score by 1/32 and walks the keys in eight
  tiles of 256, carrying a running maximum, a running normaliser and a running weighted sum, each
  rescaled by the exponential of the change of the maximum, and divides at the end.

  A projection is a contraction of the input's last axis with a weight matrix plus a bias.
-/
import Mathlib.Data.EReal.Basic
import Mathlib.Analysis.SpecialFunctions.Exp
import Idealize.ShloMosaic.PureOps.Ideal
import Idealize.ShloMosaic.Lib.ValueIdx

noncomputable section

namespace Cert.Attn

open Idealize.ShloMosaic Idealize.ShloMosaic.ValueIdx

/-- One projected entry: row `(b, s)` of the input against column `e` of the weights, plus the bias. -/
def proj (x : (⟨3, ![4, 2048, 1024]⟩ : Shape).Idx → EReal) (W : (⟨2, ![1024, 1024]⟩ : Shape).Idx → EReal)
    (bias : (⟨1, ![1024]⟩ : Shape).Idx → EReal) (b : Fin 4) (s : Fin 2048) (e : Fin 1024) : EReal :=
  (∑ d : Fin 1024, x (ix3 b s d) * W (ix2 d e)) + bias (ix1 e)

/-- The score of key `t`: the query row against that key. -/
def dotq (qrow : Fin 1024 → EReal) (K : Fin 2048 → Fin 1024 → EReal) (t : Fin 2048) : EReal :=
  ∑ d : Fin 1024, qrow d * K t d

/-! ## The plain row -/

def refScore (qrow : Fin 1024 → EReal) (K : Fin 2048 → Fin 1024 → EReal) (t : Fin 2048) : EReal :=
  Ideal.div (dotq qrow K t) ((32 : ℝ) : EReal)

def refMax (qrow : Fin 1024 → EReal) (K : Fin 2048 → Fin 1024 → EReal) : EReal :=
  Finset.univ.sup (refScore qrow K)

def refExp (qrow : Fin 1024 → EReal) (K : Fin 2048 → Fin 1024 → EReal) (t : Fin 2048) : EReal :=
  Ideal.exp (refScore qrow K t - refMax qrow K)

def refOut (qrow : Fin 1024 → EReal) (K V : Fin 2048 → Fin 1024 → EReal) (e : Fin 1024) : EReal :=
  ∑ t : Fin 2048, Ideal.div (refExp qrow K t) (∑ t' : Fin 2048, refExp qrow K t') * V t e

/-! ## The tiled row -/

/-- Key `c` of tile `n` (tiles of 256 keys; the remainder keeps the function total). -/
def tileIx (n : ℕ) (c : Fin 256) : Fin 2048 := ⟨(256 * n + c.val) % 2048, Nat.mod_lt _ (by norm_num)⟩

def kScore (qrow : Fin 1024 → EReal) (K : Fin 2048 → Fin 1024 → EReal) (t : Fin 2048) : EReal :=
  dotq qrow K t * ((1 / 32 : ℝ) : EReal)

/-- The running maximum after `n` tiles. -/
def kM (qrow : Fin 1024 → EReal) (K : Fin 2048 → Fin 1024 → EReal) : ℕ → EReal
  | 0 => ⊥
  | n + 1 => max (kM qrow K n) (Finset.univ.sup fun c : Fin 256 => kScore qrow K (tileIx n c))

/-- The rescaling factor tile `n` applies to what was carried. -/
def kA (qrow : Fin 1024 → EReal) (K : Fin 2048 → Fin 1024 → EReal) (n : ℕ) : EReal :=
  Ideal.exp (kM qrow K n - kM qrow K (n + 1))

/-- The weight tile `n` gives its key `c`. -/
def kP (qrow : Fin 1024 → EReal) (K : Fin 2048 → Fin 1024 → EReal) (n : ℕ) (c : Fin 256) : EReal :=
  Ideal.exp (kScore qrow K (tileIx n c) - kM qrow K (n + 1))

/-- The running normaliser after `n` tiles. -/
def kL (qrow : Fin 1024 → EReal) (K : Fin 2048 → Fin 1024 → EReal) : ℕ → EReal
  | 0 => 0
  | n + 1 => kA qrow K n * kL qrow K n + ∑ c : Fin 256, kP qrow K n c

/-- The running weighted sum of value vectors after `n` tiles, at output column `e`. -/
def kAcc (qrow : Fin 1024 → EReal) (K V : Fin 2048 → Fin 1024 → EReal) (e : Fin 1024) : ℕ → EReal
  | 0 => 0
  | n + 1 => kA qrow K n * kAcc qrow K V e n + ∑ c : Fin 256, kP qrow K n c * V (tileIx n c) e

def kOut (qrow : Fin 1024 → EReal) (K V : Fin 2048 → Fin 1024 → EReal) (e : Fin 1024) : EReal :=
  Ideal.div (kAcc qrow K V e 8) (kL qrow K 8)

end Cert.Attn

end
-- ==== Proof.RefRead.lean ====
/-
  The reference program, read one output entry at a time.

  The program projects the input three times (a contraction of the last axis with a weight matrix, plus a
  bias broadcast along the rows): queries, keys and values. For batch entry `b` and query row `s` it then
  contracts the query row with every key row (the scores), divides each score by the square root of the
  width 1024 (which is 32), takes the row's largest scaled score, subtracts it, exponentiates, sums the
  exponentials along the row, divides each exponential by that sum, and contracts the weights so obtained
  with the value rows. Read at entry `(b, s, e)` this is the plain attention row of the specification.

  Every stage but one is read at an index by the generated per-operation lemmas; the indices those lemmas
  compose are identified below with indices built from coordinates. The remaining stage, the row maximum,
  is a fold of `max` from `-∞` along the last axis, which is the supremum over that axis's coordinates.
-/
import proofs.«165952_j73890617361023_2_alg».proof.Proof.Gen.ReferenceIdeal.Read
import proofs.«165952_j73890617361023_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic
  Idealize.ShloMosaic.ValueIdx Cert.Attn

/-! ## The literals -/

/-- The pattern of `-∞` denotes the bottom of the extended reals. -/
theorem ofBits_neg_inf : Ideal.ofBits .f32 0xFF800000#32 = (⊥ : EReal) := by
  simp [Ideal.ofBits, Ideal.ieee]

/-- The pattern of `1024.0` denotes the real `1024`. -/
theorem ofBits_1024 : Ideal.ofBits .f32 0x44800000#32 = ((1024 : ℝ) : EReal) := by
  simp [Ideal.ofBits, Ideal.ieee, -EReal.coe_mul]; norm_num

/-- The square root of `1024` is `32`. -/
theorem sqrt_1024 : Ideal.sqrt ((1024 : ℝ) : EReal) = ((32 : ℝ) : EReal) := by
  show (if (1024 : ℝ) < 0 then (⊥ : EReal) else ((Real.sqrt 1024 : ℝ) : EReal)) = _
  rw [if_neg (by norm_num), show (1024 : ℝ) = 32 ^ 2 by norm_num, Real.sqrt_sq (by norm_num)]

/-! ## The three projections -/

theorem lidx_v0 (b : Fin 4) (s : Fin 2048) (e k : Fin 1024) : lidx_main_v0 (ix3 b s e) k = ix3 b s k :=
  funext fun a => Fin.ext (by match a with | ⟨0, _⟩ => rfl | ⟨1, _⟩ => rfl | ⟨2, _⟩ => rfl)
theorem ridx_v0 (b : Fin 4) (s : Fin 2048) (e k : Fin 1024) : ridx_main_v0 (ix3 b s e) k = ix2 k e :=
  funext fun a => Fin.ext (by match a with | ⟨0, _⟩ => rfl | ⟨1, _⟩ => rfl)
theorem idx_v2 (b : Fin 4) (s : Fin 2048) (e : Fin 1024) : idx_main_v1 (idx_main_v2 (ix3 b s e)) = ix1 e :=
  funext fun a => Fin.ext (by match a with | ⟨0, _⟩ => rfl)
/-- The query projection at `(b, s, e)`. -/
theorem v3_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal))
    (b : Fin 4) (s : Fin 2048) (e : Fin 1024) :
    val_main_v3 (F := Ideal) x0 x1 x2 (ix3 b s e) = proj x0 x1 x2 b s e := by
  rw [val_main_v3_apply, val_main_v0_apply, val_main_v2_apply, val_main_v1_apply, idx_v2, Ideal.addf_def]
  unfold proj
  exact congrArg (· + x2 (ix1 e)) (Finset.sum_congr rfl fun k _ => by rw [lidx_v0, ridx_v0])

theorem lidx_v4 (b : Fin 4) (s : Fin 2048) (e k : Fin 1024) : lidx_main_v4 (ix3 b s e) k = ix3 b s k :=
  funext fun a => Fin.ext (by match a with | ⟨0, _⟩ => rfl | ⟨1, _⟩ => rfl | ⟨2, _⟩ => rfl)
theorem ridx_v4 (b : Fin 4) (s : Fin 2048) (e k : Fin 1024) : ridx_main_v4 (ix3 b s e) k = ix2 k e :=
  funext fun a => Fin.ext (by match a with | ⟨0, _⟩ => rfl | ⟨1, _⟩ => rfl)
theorem idx_v6 (b : Fin 4) (s : Fin 2048) (e : Fin 1024) : idx_main_v5 (idx_main_v6 (ix3 b s e)) = ix1 e :=
  funext fun a => Fin.ext (by match a with | ⟨0, _⟩ => rfl)
/-- The key projection at `(b, s, e)`. -/
theorem v7_apply (x0 : (⟨S4x2048x1024, .f32⟩ : BufTy).Contents (Elt Ideal)) (x3 : (⟨S1024x1024, .f32⟩ : BufTy).Contents (Elt Ideal)) (x4 : (⟨S1024, .f32⟩ : BufTy).Contents (Elt Ideal))
    (b : Fin 4) (s : Fin 2048) (e : Fin 1024) :
    val_main_v7 (F := Ideal) x0 x3 x4 (ix3 b s e) = proj x0 x3 x4 b s e := by
  rw [val_main_v7_apply, val_main_v4_apply, val_main_v6_apply, val_main_v5_apply, idx_v6, Ideal.addf_def]
  unfold proj
  exact congrArg (· + x4 (ix1 e)) (Finset.sum_congr rfl fun k _ => by rw [lidx_v4, ridx_v4])

theorem lidx_v8 (b : Fin 4) (s : Fin 2048) (e k : Fin 1024) : lidx_main_v8 (ix3 b s e) k = ix3 b s k :=
  funext fun a => Fin.ext (by match a with | ⟨0, _⟩ => rfl | ⟨1, _⟩ => rfl | ⟨2, _⟩ => rfl)
theorem ridx_v8 (b : Fin 4) (s : Fin 2048) (e k : Fin 1024) : ridx_main_v8 (ix3 b s e) k = ix2 k e :=
  funext fun a => Fin.ext (by match a with | ⟨0, _⟩ => rfl | ⟨1, _⟩ => rfl)
theorem idx_v10 (b : Fin 4) (s : Fin 2048) (e : Fin 1024) : idx_main_v9 (idx_main_v10 (ix3 b s e)) = ix1 e :=
  funext fun a => Fin.ext (by match a with | ⟨0, _⟩ => rfl)
/-- The value projection at `(b, s, e)`. -/
theorem v11_apply (x0 : (⟨S4x2048x1024, .f32⟩ : BufTy).Contents (Elt Ideal)) (x5 : (⟨S1024x1024, .f32⟩ : BufTy).Contents (Elt Ideal)) (x6 : (⟨S1024, .f32⟩ : BufTy).Contents (Elt Ideal))
    (b : Fin 4) (s : Fin 2048) (e : Fin 1024) :
    val_main_v11 (F := Ideal) x0 x5 x6 (ix3 b s e) = proj x0 x5 x6 b s e := by
  rw [val_main_v11_apply, val_main_v8_apply, val_main_v10_apply, val_main_v9_apply, idx_v10, Ideal.addf_def]
  unfold proj
  exact congrArg (· + x6 (ix1 e)) (Finset.sum_congr rfl fun k _ => by rw [lidx_v8, ridx_v8])

/-! ## The scaled scores -/

theorem lidx_v13 (b : Fin 4) (s t : Fin 2048) (k : Fin 1024) : lidx_main_v13 (ix3 b s t) k = ix3 b s k :=
  funext fun a => Fin.ext (by match a with | ⟨0, _⟩ => rfl | ⟨1, _⟩ => rfl | ⟨2, _⟩ => rfl)
theorem ridx_v13 (b : Fin 4) (s t : Fin 2048) (k : Fin 1024) : ridx_main_v13 (ix3 b s t) k = ix3 b t k :=
  funext fun a => Fin.ext (by match a with | ⟨0, _⟩ => rfl | ⟨1, _⟩ => rfl | ⟨2, _⟩ => rfl)

/-- The score of query row `s` against key row `t`: the contraction of the two projected rows. -/
theorem v13_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (b : Fin 4) (s t : Fin 2048) :
    val_main_v13 (F := Ideal) x0 x1 x2 x3 x4 (ix3 b s t)
      = dotq (fun d => proj x0 x1 x2 b s d) (fun t d => proj x0 x3 x4 b t d) t := by
  rw [val_main_v13_apply]
  unfold dotq
  exact Finset.sum_congr rfl fun k _ => by rw [lidx_v13, ridx_v13, v3_apply, v7_apply]

/-- The divisor, at every entry: the square root of the width, `32`. -/
theorem v14_apply (i : S4x2048x2048.Idx) : val_main_v14 (F := Ideal) i = ((32 : ℝ) : EReal) := by
  rw [val_main_v14_apply, val_main_v12_apply, val_main_cst_apply, Ideal.hostUnary_sqrt_def, Ideal.ofBits_def,
    ofBits_1024, sqrt_1024]

/-- The scaled score. -/
theorem v15_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (b : Fin 4) (s t : Fin 2048) :
    val_main_v15 (F := Ideal) x0 x1 x2 x3 x4 (ix3 b s t)
      = refScore (fun d => proj x0 x1 x2 b s d) (fun t d => proj x0 x3 x4 b t d) t := by
  rw [val_main_v15_apply, Ideal.hostDivf_def, v13_apply, v14_apply]
  rfl

/-! ## The row maximum -/

/-- Row `(b, s)` with coordinate `k` put back on the reduced axis is `(b, s, k)`. -/
theorem lift_row (h : S4x2048x2048.Reduces [2] S4x2048) (b : Fin 4) (s : Fin 2048) (k : Fin (S4x2048x2048.size 2)) :
    h.lift (ix2 b s) k = ix3 b s (⟨k.val, k.isLt⟩ : Fin 2048) := by
  funext c; apply Fin.ext
  fin_cases c <;> rfl

/-- A maximum-reduction from `-∞` along the last axis is, at row `(b, s)`, the supremum of the row's entries:
    the fold of `max` from the bottom element over the axis's coordinates is that supremum by definition. -/
theorem host_max_row (y : FVec Ideal S4x2048x2048 .f32) (b : Fin 4) (s : Fin 2048) :
    Host.reduce (α := Ideal .f32) (FloatOps.maximumf (F := Ideal) (φ := .f32)) y (val_main_cst_0 (F := Ideal))
        reducesTo_S4x2048x2048_S4x2048_d2 h_S_ (ix2 b s)
      = Finset.univ.sup fun t : Fin 2048 => y (ix3 b s t) := by
  have h : S4x2048x2048.Reduces [2] S4x2048 := by decide
  rw [Host.reduce_eq_fold_single (FloatOps.maximumf (F := Ideal) (φ := .f32)) y _ reducesTo_S4x2048x2048_S4x2048_d2 h h_S_]
  have hf : (y ∘ h.lift (ix2 b s)) = fun k : Fin 2048 => y (ix3 b s k) :=
    funext fun k => congrArg y (lift_row h b s k)
  rw [hf, val_main_cst_0_apply, Ideal.ofBits_def, ofBits_neg_inf]
  rfl

/-- The reduction stage at row `(b, s)`: the largest scaled score of the row. -/
theorem v16_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (b : Fin 4) (s : Fin 2048) :
    val_main_v16 (F := Ideal) x0 x1 x2 x3 x4 (ix2 b s) = refMax (fun d => proj x0 x1 x2 b s d) (fun t d => proj x0 x3 x4 b t d) := by
  unfold val_main_v16
  refine (host_max_row _ b s).trans ?_
  unfold refMax
  exact Finset.sup_congr rfl fun t _ => v15_apply x0 x1 x2 x3 x4 b s t

/-- Taking the maximum with `-∞` once more changes nothing. -/
theorem v18_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (b : Fin 4) (s : Fin 2048) :
    val_main_v18 (F := Ideal) x0 x1 x2 x3 x4 (ix2 b s) = refMax (fun d => proj x0 x1 x2 b s d) (fun t d => proj x0 x3 x4 b t d) := by
  rw [val_main_v18_apply, val_main_v17_apply, val_main_cst_1_apply, v16_apply, Ideal.maximumf_def, Ideal.ofBits_def,
    ofBits_neg_inf]
  exact max_eq_right bot_le

theorem idx_v20 (b : Fin 4) (s t : Fin 2048) : idx_main_v19 (idx_main_v20 (ix3 b s t)) = ix2 b s :=
  funext fun a => Fin.ext (by match a with | ⟨0, _⟩ => rfl | ⟨1, _⟩ => rfl)

/-- The row maximum broadcast back along the row. -/
theorem v20_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (b : Fin 4) (s t : Fin 2048) :
    val_main_v20 (F := Ideal) x0 x1 x2 x3 x4 (ix3 b s t) = refMax (fun d => proj x0 x1 x2 b s d) (fun t d => proj x0 x3 x4 b t d) := by
  rw [val_main_v20_apply, val_main_v19_apply, idx_v20, v18_apply]

/-! ## The exponentials and their sum -/

/-- The exponential of the scaled score less the row maximum. -/
theorem v22_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (b : Fin 4) (s t : Fin 2048) :
    val_main_v22 (F := Ideal) x0 x1 x2 x3 x4 (ix3 b s t) = refExp (fun d => proj x0 x1 x2 b s d) (fun t d => proj x0 x3 x4 b t d) t := by
  rw [val_main_v22_apply, val_main_v21_apply, v15_apply, v20_apply, Ideal.hostUnary_exp_def, Ideal.subf_def]
  rfl

theorem idx_v23 (b : Fin 4) (s k : Fin 2048) : idx_main_v23 (ix2 b s) k = ix3 b s k :=
  funext fun a => Fin.ext (by match a with | ⟨0, _⟩ => rfl | ⟨1, _⟩ => rfl | ⟨2, _⟩ => rfl)

/-- The normaliser of row `(b, s)`: the sum of the row's exponentials (the sum starts from the literal zero). -/
theorem v23_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (b : Fin 4) (s : Fin 2048) :
    val_main_v23 (F := Ideal) x0 x1 x2 x3 x4 (ix2 b s) = ∑ t : Fin 2048, refExp (fun d => proj x0 x1 x2 b s d) (fun t d => proj x0 x3 x4 b t d) t := by
  rw [val_main_v23_apply, val_main_cst_2_apply, Ideal.ofBits_def, Ideal.ofBits_zero_f32, zero_add]
  exact Finset.sum_congr rfl fun k _ => by rw [idx_v23, v22_apply]

theorem idx_v25 (b : Fin 4) (s t : Fin 2048) : idx_main_v24 (idx_main_v25 (ix3 b s t)) = ix2 b s :=
  funext fun a => Fin.ext (by match a with | ⟨0, _⟩ => rfl | ⟨1, _⟩ => rfl)

/-- The weight of key `t` in row `(b, s)`: its exponential over the row's normaliser. -/
theorem v26_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (b : Fin 4) (s t : Fin 2048) :
    val_main_v26 (F := Ideal) x0 x1 x2 x3 x4 (ix3 b s t)
      = Ideal.div (refExp (fun d => proj x0 x1 x2 b s d) (fun t d => proj x0 x3 x4 b t d) t) (∑ t' : Fin 2048, refExp (fun d => proj x0 x1 x2 b s d) (fun t d => proj x0 x3 x4 b t d) t') := by
  rw [val_main_v26_apply, val_main_v25_apply, val_main_v24_apply, idx_v25, v22_apply, v23_apply, Ideal.hostDivf_def]

/-! ## The last contraction -/

theorem lidx_v27 (b : Fin 4) (s : Fin 2048) (e : Fin 1024) (k : Fin 2048) : lidx_main_v27 (ix3 b s e) k = ix3 b s k :=
  funext fun a => Fin.ext (by match a with | ⟨0, _⟩ => rfl | ⟨1, _⟩ => rfl | ⟨2, _⟩ => rfl)
theorem ridx_v27 (b : Fin 4) (s : Fin 2048) (e : Fin 1024) (k : Fin 2048) : ridx_main_v27 (ix3 b s e) k = ix3 b k e :=
  funext fun a => Fin.ext (by match a with | ⟨0, _⟩ => rfl | ⟨1, _⟩ => rfl | ⟨2, _⟩ => rfl)

/-- The reference's result at `(b, s, e)` is the plain attention row of the three projections. -/
theorem ref_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))
    (b : Fin 4) (s : Fin 2048) (e : Fin 1024) :
    Cert.ReferenceIdeal.Read.val_main_v27 x0 x1 x2 x3 x4 x5 x6 (ValueIdx.ix3 b s e)
      = Cert.Attn.refOut (fun d => Cert.Attn.proj x0 x1 x2 b s d) (fun t d => Cert.Attn.proj x0 x3 x4 b t d) (fun t e' => Cert.Attn.proj x0 x5 x6 b t e') e := by
  rw [val_main_v27_apply]
  unfold refOut
  exact Finset.sum_congr rfl fun t _ => by rw [lidx_v27, ridx_v27, v26_apply, v11_apply]

end Cert.ReferenceIdeal.RefValue

end
-- ==== Proof.BridgeRef.lean ====
/-
  The result both programs leave, as one function of the seven argument arrays, and the reference's half.

  For batch entry b, query row s and output column e, project row (b, s) of the input with the query
  weights, every row of batch entry b with the key and value weights, and take the plain attention row.
-/
import proofs.«165952_j73890617361023_2_alg».proof.Proof.Spec
import proofs.«165952_j73890617361023_2_alg».proof.Proof.RefRead

noncomputable section

namespace Cert.Proof.Bridge

open Idealize.ShloMosaic Idealize.ShloMosaic.TcCoe Idealize.SL.Sem Idealize.ShloMosaic.ValueIdx Cert.Attn

abbrev S3 : Shape := ⟨3, ![4, 2048, 1024]⟩
abbrev S2 : Shape := ⟨2, ![1024, 1024]⟩
abbrev S1 : Shape := ⟨1, ![1024]⟩

/-- The plain attention row of the projected inputs, at one index of the result. -/
def outAt (a0 : S3.Idx → EReal) (a1 : S2.Idx → EReal) (a2 : S1.Idx → EReal) (a3 : S2.Idx → EReal) (a4 : S1.Idx → EReal)
    (a5 : S2.Idx → EReal) (a6 : S1.Idx → EReal) (b : Fin 4) (s : Fin 2048) (e : Fin 1024) : EReal :=
  refOut (fun d => proj a0 a1 a2 b s d) (fun t d => proj a0 a3 a4 b t d) (fun t e' => proj a0 a5 a6 b t e') e

/-- The whole result array. -/
def out (a0 : S3.Idx → EReal) (a1 : S2.Idx → EReal) (a2 : S1.Idx → EReal) (a3 : S2.Idx → EReal) (a4 : S1.Idx → EReal)
    (a5 : S2.Idx → EReal) (a6 : S1.Idx → EReal) : S3.Idx → EReal := fun i =>
  outAt a0 a1 a2 a3 a4 a5 a6 ⟨(i 0).val, (i 0).isLt⟩ ⟨(i 1).val, (i 1).isLt⟩ ⟨(i 2).val, (i 2).isLt⟩

theorem out_apply (a0 : S3.Idx → EReal) (a1 : S2.Idx → EReal) (a2 : S1.Idx → EReal) (a3 : S2.Idx → EReal) (a4 : S1.Idx → EReal)
    (a5 : S2.Idx → EReal) (a6 : S1.Idx → EReal) (b : Fin 4) (s : Fin 2048) (e : Fin 1024) :
    out a0 a1 a2 a3 a4 a5 a6 (ix3 b s e) = outAt a0 a1 a2 a3 a4 a5 a6 b s e := rfl

/-- The reference's last stage is that array. -/
theorem ref_stage (x0 : S3.Idx → EReal) (x1 : S2.Idx → EReal) (x2 : S1.Idx → EReal) (x3 : S2.Idx → EReal) (x4 : S1.Idx → EReal)
    (x5 : S2.Idx → EReal) (x6 : S1.Idx → EReal) :
    Cert.ReferenceIdeal.Read.val_main_v27 (F := Ideal) x0 x1 x2 x3 x4 x5 x6 = out x0 x1 x2 x3 x4 x5 x6 := by
  funext i
  obtain ⟨b, s, e, rfl⟩ : ∃ (b : Fin 4) (s : Fin 2048) (e : Fin 1024), i = ix3 b s e := ⟨i 0, i 1, i 2, eq_ix3 i⟩
  rw [out_apply]
  exact Cert.ReferenceIdeal.RefValue.ref_apply x0 x1 x2 x3 x4 x5 x6 b s e

/-- The reference run's result term is that array of the launch arguments. -/
theorem ref_value (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v27 (F := Ideal) m' c
      = out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) :=
  (Cert.ReferenceIdeal.Read.val_main_v27_eq m' c).trans (ref_stage _ _ _ _ _ _ _)

end Cert.Proof.Bridge

end
-- ==== Proof.KIVal1a.lean ====
/-
  The attention region's blocks, read entry by entry, and its result array assembled from its blocks.

  The region walks an 8 × 8 grid of points; point `t` works on query tile `t / 8` and key tile `t % 8`, a
  tile being 256 consecutive rows of every batch entry. The block of queries at point `t` is rows
  `256 · (t / 8) …` of the query array, the blocks of keys and of values are rows `256 · (t % 8) …` of
  theirs: an entry of a block sits in its array, on each axis, at the block's index times the block's extent
  plus its own coordinate.

  The result's block is written back only at the last key tile of each query tile (`t % 8 = 7`), to rows
  `256 · (t / 8) …` of the result. Those eight blocks tile the result — row `s` lies in the block of point
  `8 · (s / 256) + 7` — so if each written block is its block of one whole-array function, the result ends
  holding that function.
-/
import proofs.«165952_j73890617361023_2_alg».proof.Proof.KIReg1b
import Idealize.ShloMosaic.Lib.ValueIdx
import Idealize.ShloMosaic.Lib.Pipeline.Value

noncomputable section

namespace Cert.KernelIdeal.Val1

open Cert.KernelIdeal Cert.KernelIdeal.Gen Cert.KernelIdeal.Hand Idealize.ShloMosaic Idealize.ShloMosaic.ValueIdx
open Idealize.ShloMosaic.TcCoe

variable (V : (c : Dev nD) → (b : Ref sig .tc) → Buf (Elt Ideal) ((c : Thread nD τ).loc b))

/-! ## Where the blocks sit -/

/-- The windows' block indices over the grid: every window takes all batch entries and all columns; the queries'
    and the result's row block is the slow coordinate, the keys' and the values' the fast one. -/
theorem idx_facts1 : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 3) = 0 ∧ win1_2.index t (1 : Fin 3) = t.val % 8 ∧ win1_2.index t (2 : Fin 3) = 0
    ∧ win1_3.index t (0 : Fin 3) = 0 ∧ win1_3.index t (1 : Fin 3) = t.val / 8 ∧ win1_3.index t (2 : Fin 3) = 0 :=
  (by decide +kernel : ∀ t : Fin grid1.N, _)

/-- The grid has 64 points. -/
theorem point_lt (t : Fin cfg1.N) : t.val < 64 := lt_of_lt_of_eq t.isLt N_1

/-! ## The input blocks -/

/-- The block of queries at point `t`: rows `256 · (t / 8) …` of the query array. -/
theorem iblk1_q (c : Dev nD) (t : Fin cfg1.N) (b : Fin 4) (r : Fin 256) (d : Fin 1024) :
    (iblk1 V c 0 t : S4x256x1024.Idx → EReal) (ix3 b r d)
      = (V c main_v5 : S4x2048x1024.Idx → EReal)
          (ix3 b (⟨256 * (t.val / 8) + r.val, by have := point_lt t; omega⟩ : Fin 2048) d) := by
  unfold iblk1
  rw [View.read_apply]
  show (V c main_v5 : S4x2048x1024.Idx → EReal) (((cfg1.win 0).blk t).view.emb (ix3 b r d)) = _
  obtain ⟨q0, q1, q2, k0, k1, k2, v0, v1, v2, -⟩ := idx_facts1 t
  refine congrArg (V c main_v5 : S4x2048x1024.Idx → EReal) (funext fun a => Fin.ext ?_)
  match a with
  | ⟨0, _⟩ => show win1_0.index t (0 : Fin 3) * 4 + 1 * b.val = b.val; omega
  | ⟨1, _⟩ => show win1_0.index t (1 : Fin 3) * 256 + 1 * r.val = 256 * (t.val / 8) + r.val; omega
  | ⟨2, _⟩ => show win1_0.index t (2 : Fin 3) * 1024 + 1 * d.val = d.val; omega

/-- The block of keys at point `t`: rows `256 · (t % 8) …` of the key array. -/
theorem iblk1_k (c : Dev nD) (t : Fin cfg1.N) (b : Fin 4) (cc : Fin 256) (d : Fin 1024) :
    (iblk1 V c 1 t : S4x256x1024.Idx → EReal) (ix3 b cc d)
      = (V c main_v6 : S4x2048x1024.Idx → EReal)
          (ix3 b (⟨256 * (t.val % 8) + cc.val, by have := point_lt t; omega⟩ : Fin 2048) d) := by
  unfold iblk1
  rw [View.read_apply]
  show (V c main_v6 : S4x2048x1024.Idx → EReal) (((cfg1.win 1).blk t).view.emb (ix3 b cc d)) = _
  obtain ⟨q0, q1, q2, k0, k1, k2, v0, v1, v2, -⟩ := idx_facts1 t
  refine congrArg (V c main_v6 : S4x2048x1024.Idx → EReal) (funext fun a => Fin.ext ?_)
  match a with
  | ⟨0, _⟩ => show win1_1.index t (0 : Fin 3) * 4 + 1 * b.val = b.val; omega
  | ⟨1, _⟩ => show win1_1.index t (1 : Fin 3) * 256 + 1 * cc.val = 256 * (t.val % 8) + cc.val; omega
  | ⟨2, _⟩ => show win1_1.index t (2 : Fin 3) * 1024 + 1 * d.val = d.val; omega

/-- The block of values at point `t`: rows `256 · (t % 8) …` of the value array. -/
theorem iblk1_v (c : Dev nD) (t : Fin cfg1.N) (b : Fin 4) (cc : Fin 256) (e : Fin 1024) :
    (iblk1 V c 2 t : S4x256x1024.Idx → EReal) (ix3 b cc e)
      = (V c main_v7 : S4x2048x1024.Idx → EReal)
          (ix3 b (⟨256 * (t.val % 8) + cc.val, by have := point_lt t; omega⟩ : Fin 2048) e) := by
  unfold iblk1
  rw [View.read_apply]
  show (V c main_v7 : S4x2048x1024.Idx → EReal) (((cfg1.win 2).blk t).view.emb (ix3 b cc e)) = _
  obtain ⟨q0, q1, q2, k0, k1, k2, v0, v1, v2, -⟩ := idx_facts1 t
  refine congrArg (V c main_v7 : S4x2048x1024.Idx → EReal) (funext fun a => Fin.ext ?_)
  match a with
  | ⟨0, _⟩ => show win1_2.index t (0 : Fin 3) * 4 + 1 * b.val = b.val; omega
  | ⟨1, _⟩ => show win1_2.index t (1 : Fin 3) * 256 + 1 * cc.val = 256 * (t.val % 8) + cc.val; omega
  | ⟨2, _⟩ => show win1_2.index t (2 : Fin 3) * 1024 + 1 * e.val = e.val; omega

/-! ## The result array from its blocks -/

/-- An entry of the result array is in point `t`'s block iff each coordinate is in the block's range on its axis. -/
theorem mem_blk1_3 (t : Fin cfg1.N) (i : S4x2048x1024.Idx) :
    i ∈ ((cfg1.win 3).blk t).view.set ↔ ∀ a : Fin 3, win1_3.index t a * S4x256x1024.size a ≤ (i a).val
      ∧ (i a).val < win1_3.index t a * S4x256x1024.size a + S4x256x1024.size a := by
  show i ∈ ((View.whole main_v8).slice (win1_3.rect t)).set ↔ _
  rw [View.set_slice_whole, Rect.mem_set_unit]
  exact Iff.rfl

/-- What a point at the last key tile writes back is its block of `G`, when the block the body leaves there is. -/
theorem flushed1_3 (c : Dev nD) (G : S4x2048x1024.Idx → EReal)
    (hG : ∀ t : Fin cfg1.N, t.val % 8 = 7 → ∀ (b : Fin 4) (r : Fin 256) (e : Fin 1024),
      (outsAt1 V c t.val t.isLt).1 (ix3 b r e)
        = G (ix3 b (⟨256 * (t.val / 8) + r.val, by have := point_lt t; omega⟩ : Fin 2048) e))
    (t : Fin cfg1.N) (hf : (cfg1.win 3).flush t = true) :
    (dat1 V c).flushed 3 t = ((cfg1.win 3).blk t).view.read (Elt Ideal) G := by
  have h7 : t.val % 8 = 7 := (flush1_3 t).mp hf
  show (cfg1.win 3).cut (grid1.coords t) ((dat1 V c).after 3 t) = _
  rw [after1_3]
  funext j
  obtain ⟨b, r, e, rfl⟩ : ∃ (b : Fin 4) (r : Fin 256) (e : Fin 1024), j = (ix3 b r e : S4x256x1024.Idx) :=
    ⟨j 0, j 1, j 2, eq_ix3 j⟩
  rw [View.read_apply]
  show (outsAt1 V c t.val t.isLt).1 (ix3 b r e) = G (((cfg1.win 3).blk t).view.emb (ix3 b r e))
  rw [hG t h7 b r e]
  obtain ⟨-, -, -, -, -, -, -, -, -, o0, o1, o2⟩ := idx_facts1 t
  refine congrArg G (funext fun a => Fin.ext ?_)
  match a with
  | ⟨0, _⟩ => show b.val = win1_3.index t (0 : Fin 3) * 4 + 1 * b.val; omega
  | ⟨1, _⟩ => show 256 * (t.val / 8) + r.val = win1_3.index t (1 : Fin 3) * 256 + 1 * r.val; omega
  | ⟨2, _⟩ => show e.val = win1_3.index t (2 : Fin 3) * 1024 + 1 * e.val; omega

/-- The result array after the region: the one function whose blocks the last key tiles leave. -/
theorem final1 (c : Dev nD) (G : S4x2048x1024.Idx → EReal)
    (hG : ∀ t : Fin cfg1.N, t.val % 8 = 7 → ∀ (b : Fin 4) (r : Fin 256) (e : Fin 1024),
      (outsAt1 V c t.val t.isLt).1 (ix3 b r e)
        = G (ix3 b (⟨256 * (t.val / 8) + r.val, by have := point_lt t; omega⟩ : Fin 2048) e)) :
    (dat1 V c).arrAt 3 cfg1.N = G := by
  refine (dat1 V c).arrAt_eq_of_cover 3 G (fun t hf => flushed1_3 V c G hG t hf) fun i => ?_
  have hi0 : (i 0).val < 4 := (i 0).isLt
  have hi1 : (i 1).val < 2048 := (i 1).isLt
  have hi2 : (i 2).val < 1024 := (i 2).isLt
  obtain ⟨t, ht⟩ : ∃ t : Fin cfg1.N, t.val = 8 * ((i 1).val / 256) + 7 :=
    ⟨⟨8 * ((i 1).val / 256) + 7, by show _ < grid1.N; rw [N_1]; omega⟩, rfl⟩
  refine ⟨t, (flush1_3 t).mpr (by omega), ?_⟩
  obtain ⟨-, -, -, -, -, -, -, -, -, o0, o1, o2⟩ := idx_facts1 t
  rw [mem_blk1_3]
  intro a
  match a with
  | ⟨0, _⟩ => show win1_3.index t (0 : Fin 3) * 4 ≤ (i 0).val ∧ (i 0).val < win1_3.index t (0 : Fin 3) * 4 + 4; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

end Cert.KernelIdeal.Val1

end
-- ==== Proof.KIReg1c.lean ====
/-
  What each case of the attention body leaves, as the body's arithmetic.

  A middle key tile leaves in the running maximum the maximum of what it found and the tile's row maxima; in
  the running normaliser the rescaled old normaliser plus the tile's weights; in the running weighted sum the
  rescaled old sum plus the tile's weighted values. The first key tile leaves the same over the reset
  constants (minus infinity, zero, zero) in place of what it found. The last key tile also leaves, in the
  result's block, the quotient of the new weighted sum by the new normaliser.
-/
import proofs.«165952_j73890617361023_2_alg».proof.Proof.KIReg1b
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOff3 : (![0, 0, 0] : Fin 3 → ℕ) = fun _ => 0 := by funext a; fin_cases a <;> rfl

/-- A whole buffer held at the contents that read as `X` reads `X`. -/
theorem read_unread_whole {κ : Kind} (b : Ref sig κ) (h : (Memref.whole b).IsWhole) (X : b.ty.shape.Idx → Elt F b.ty.elt) :
    View.read (Elt F) (View.whole b) (h.unread X) = X := by
  have e := h.read_unread X
  simpa only [Memref.view_whole] using e

theorem stepB_max (c : Dev nD) (t : Fin cfg1.N) (hc0 : ¬cond1_0 (grid1.coords t)) (hc1 : ¬cond1_1 (grid1.coords t)) (x0 x1 x2 : Vec F S4x256x1024 .bf16) (xs0 xs1 : Vec F S4x256x1 .f32) (xs2 : Vec F S4x256x1024 .f32) :
    (stepB c t hc0 hc1 x0 x1 x2 xs0 xs1 xs2).2.1 = k1_pay2 (k1_pay8 x0 x1 xs0) := by
  unfold stepB; dsimp only
  rw [View.read_writes_junk_eq_canon]
  unfold kernelRun1_B; dsimp only
  try sl_unfold_words
  simp only [View.canon_unit_zero (S := S4x256x1) zeroOff3, View.canon_unit_zero (S := S4x256x1024) zeroOff3,
    View.canon_cons_unit_zero (S := S4x256x1) zeroOff3, View.canon_cons_unit_zero (S := S4x256x1024) zeroOff3,
    View.readCov_unit_zero _ (S := S4x256x1) zeroOff3, View.readCov_unit_zero _ (S := S4x256x1024) zeroOff3,
    View.readAt_eq_ld, Memref.IsWhole.read_unread, read_unread_whole, View.ld_unit_zero (S := S4x256x1) zeroOff3, View.ld_unit_zero (S := S4x256x1024) zeroOff3]

theorem stepB_norm (c : Dev nD) (t : Fin cfg1.N) (hc0 : ¬cond1_0 (grid1.coords t)) (hc1 : ¬cond1_1 (grid1.coords t)) (x0 x1 x2 : Vec F S4x256x1024 .bf16) (xs0 xs1 : Vec F S4x256x1 .f32) (xs2 : Vec F S4x256x1024 .f32) :
    (stepB c t hc0 hc1 x0 x1 x2 xs0 xs1 xs2).2.2.1 = k1_pay11 x0 x1 xs0 xs0 xs1 := by
  unfold stepB; dsimp only
  rw [View.read_writes_junk_eq_canon]
  unfold kernelRun1_B; dsimp only
  try sl_unfold_words
  simp only [View.canon_unit_zero (S := S4x256x1) zeroOff3, View.canon_unit_zero (S := S4x256x1024) zeroOff3,
    View.canon_cons_unit_zero (S := S4x256x1) zeroOff3, View.canon_cons_unit_zero (S := S4x256x1024) zeroOff3,
    View.readCov_unit_zero _ (S := S4x256x1) zeroOff3, View.readCov_unit_zero _ (S := S4x256x1024) zeroOff3,
    View.readAt_eq_ld, Memref.IsWhole.read_unread, read_unread_whole, View.ld_unit_zero (S := S4x256x1) zeroOff3, View.ld_unit_zero (S := S4x256x1024) zeroOff3]

theorem stepB_acc (c : Dev nD) (t : Fin cfg1.N) (hc0 : ¬cond1_0 (grid1.coords t)) (hc1 : ¬cond1_1 (grid1.coords t)) (x0 x1 x2 : Vec F S4x256x1024 .bf16) (xs0 xs1 : Vec F S4x256x1 .f32) (xs2 : Vec F S4x256x1024 .f32) :
    (stepB c t hc0 hc1 x0 x1 x2 xs0 xs1 xs2).2.2.2 = k1_pay1 (k1_pay9 x0 x1 xs0 xs0) (k1_pay10 x0 x1 xs0) x2 xs2 := by
  unfold stepB; dsimp only
  rw [View.read_writes_junk_eq_canon]
  unfold kernelRun1_B; dsimp only
  try sl_unfold_words
  simp only [View.canon_unit_zero (S := S4x256x1) zeroOff3, View.canon_unit_zero (S := S4x256x1024) zeroOff3,
    View.canon_cons_unit_zero (S := S4x256x1) zeroOff3, View.canon_cons_unit_zero (S := S4x256x1024) zeroOff3,
    View.readCov_unit_zero _ (S := S4x256x1) zeroOff3, View.readCov_unit_zero _ (S := S4x256x1024) zeroOff3,
    View.readAt_eq_ld, Memref.IsWhole.read_unread, read_unread_whole, View.ld_unit_zero (S := S4x256x1) zeroOff3, View.ld_unit_zero (S := S4x256x1024) zeroOff3]

theorem stepA_max (c : Dev nD) (t : Fin cfg1.N) (hc0 : cond1_0 (grid1.coords t)) (hc1 : ¬cond1_1 (grid1.coords t)) (x0 x1 x2 : Vec F S4x256x1024 .bf16) :
    (stepA c t hc0 hc1 x0 x1 x2).2.1 = k1_pay2 (k1_pay8 x0 x1 (k1_pay4 (F := F))) := by
  unfold stepA; dsimp only
  rw [View.read_writes_junk_eq_canon]
  unfold kernelRun1_A; dsimp only
  try sl_unfold_words
  simp only [View.canon_unit_zero (S := S4x256x1) zeroOff3, View.canon_unit_zero (S := S4x256x1024) zeroOff3,
    View.canon_cons_unit_zero (S := S4x256x1) zeroOff3, View.canon_cons_unit_zero (S := S4x256x1024) zeroOff3,
    View.readCov_unit_zero _ (S := S4x256x1) zeroOff3, View.readCov_unit_zero _ (S := S4x256x1024) zeroOff3,
    View.readAt_eq_ld, Memref.IsWhole.read_unread, read_unread_whole, View.ld_unit_zero (S := S4x256x1) zeroOff3, View.ld_unit_zero (S := S4x256x1024) zeroOff3]

theorem stepA_norm (c : Dev nD) (t : Fin cfg1.N) (hc0 : cond1_0 (grid1.coords t)) (hc1 : ¬cond1_1 (grid1.coords t)) (x0 x1 x2 : Vec F S4x256x1024 .bf16) :
    (stepA c t hc0 hc1 x0 x1 x2).2.2.1 = k1_pay11 x0 x1 (k1_pay4 (F := F)) (k1_pay4 (F := F)) (k1_pay5 (F := F)) := by
  unfold stepA; dsimp only
  rw [View.read_writes_junk_eq_canon]
  unfold kernelRun1_A; dsimp only
  try sl_unfold_words
  simp only [View.canon_unit_zero (S := S4x256x1) zeroOff3, View.canon_unit_zero (S := S4x256x1024) zeroOff3,
    View.canon_cons_unit_zero (S := S4x256x1) zeroOff3, View.canon_cons_unit_zero (S := S4x256x1024) zeroOff3,
    View.readCov_unit_zero _ (S := S4x256x1) zeroOff3, View.readCov_unit_zero _ (S := S4x256x1024) zeroOff3,
    View.readAt_eq_ld, Memref.IsWhole.read_unread, read_unread_whole, View.ld_unit_zero (S := S4x256x1) zeroOff3, View.ld_unit_zero (S := S4x256x1024) zeroOff3]

theorem stepA_acc (c : Dev nD) (t : Fin cfg1.N) (hc0 : cond1_0 (grid1.coords t)) (hc1 : ¬cond1_1 (grid1.coords t)) (x0 x1 x2 : Vec F S4x256x1024 .bf16) :
    (stepA c t hc0 hc1 x0 x1 x2).2.2.2 = k1_pay1 (k1_pay9 x0 x1 (k1_pay4 (F := F)) (k1_pay4 (F := F))) (k1_pay10 x0 x1 (k1_pay4 (F := F))) x2 (k1_pay6 (F := F)) := by
  unfold stepA; dsimp only
  rw [View.read_writes_junk_eq_canon]
  unfold kernelRun1_A; dsimp only
  try sl_unfold_words
  simp only [View.canon_unit_zero (S := S4x256x1) zeroOff3, View.canon_unit_zero (S := S4x256x1024) zeroOff3,
    View.canon_cons_unit_zero (S := S4x256x1) zeroOff3, View.canon_cons_unit_zero (S := S4x256x1024) zeroOff3,
    View.readCov_unit_zero _ (S := S4x256x1) zeroOff3, View.readCov_unit_zero _ (S := S4x256x1024) zeroOff3,
    View.readAt_eq_ld, Memref.IsWhole.read_unread, read_unread_whole, View.ld_unit_zero (S := S4x256x1) zeroOff3, View.ld_unit_zero (S := S4x256x1024) zeroOff3]

theorem stepC_max (c : Dev nD) (t : Fin cfg1.N) (hc0 : ¬cond1_0 (grid1.coords t)) (hc1 : cond1_1 (grid1.coords t)) (x0 x1 x2 : Vec F S4x256x1024 .bf16) (xs0 xs1 : Vec F S4x256x1 .f32) (xs2 : Vec F S4x256x1024 .f32) :
    (stepC c t hc0 hc1 x0 x1 x2 xs0 xs1 xs2).2.1 = k1_pay2 (k1_pay8 x0 x1 xs0) := by
  unfold stepC; dsimp only
  rw [View.read_writes_junk_eq_canon]
  unfold kernelRun1_C; dsimp only
  try sl_unfold_words
  simp only [View.canon_unit_zero (S := S4x256x1) zeroOff3, View.canon_unit_zero (S := S4x256x1024) zeroOff3,
    View.canon_cons_unit_zero (S := S4x256x1) zeroOff3, View.canon_cons_unit_zero (S := S4x256x1024) zeroOff3,
    View.readCov_unit_zero _ (S := S4x256x1) zeroOff3, View.readCov_unit_zero _ (S := S4x256x1024) zeroOff3,
    View.readAt_eq_ld, Memref.IsWhole.read_unread, read_unread_whole, View.ld_unit_zero (S := S4x256x1) zeroOff3, View.ld_unit_zero (S := S4x256x1024) zeroOff3]

theorem stepC_norm (c : Dev nD) (t : Fin cfg1.N) (hc0 : ¬cond1_0 (grid1.coords t)) (hc1 : cond1_1 (grid1.coords t)) (x0 x1 x2 : Vec F S4x256x1024 .bf16) (xs0 xs1 : Vec F S4x256x1 .f32) (xs2 : Vec F S4x256x1024 .f32) :
    (stepC c t hc0 hc1 x0 x1 x2 xs0 xs1 xs2).2.2.1 = k1_pay11 x0 x1 xs0 xs0 xs1 := by
  unfold stepC; dsimp only
  rw [View.read_writes_junk_eq_canon]
  unfold kernelRun1_C; dsimp only
  try sl_unfold_words
  simp only [View.canon_unit_zero (S := S4x256x1) zeroOff3, View.canon_unit_zero (S := S4x256x1024) zeroOff3,
    View.canon_cons_unit_zero (S := S4x256x1) zeroOff3, View.canon_cons_unit_zero (S := S4x256x1024) zeroOff3,
    View.readCov_unit_zero _ (S := S4x256x1) zeroOff3, View.readCov_unit_zero _ (S := S4x256x1024) zeroOff3,
    View.readAt_eq_ld, Memref.IsWhole.read_unread, read_unread_whole, View.ld_unit_zero (S := S4x256x1) zeroOff3, View.ld_unit_zero (S := S4x256x1024) zeroOff3]

theorem stepC_acc (c : Dev nD) (t : Fin cfg1.N) (hc0 : ¬cond1_0 (grid1.coords t)) (hc1 : cond1_1 (grid1.coords t)) (x0 x1 x2 : Vec F S4x256x1024 .bf16) (xs0 xs1 : Vec F S4x256x1 .f32) (xs2 : Vec F S4x256x1024 .f32) :
    (stepC c t hc0 hc1 x0 x1 x2 xs0 xs1 xs2).2.2.2 = k1_pay1 (k1_pay9 x0 x1 xs0 xs0) (k1_pay10 x0 x1 xs0) x2 xs2 := by
  unfold stepC; dsimp only
  rw [View.read_writes_junk_eq_canon]
  unfold kernelRun1_C; dsimp only
  try sl_unfold_words
  simp only [View.canon_unit_zero (S := S4x256x1) zeroOff3, View.canon_unit_zero (S := S4x256x1024) zeroOff3,
    View.canon_cons_unit_zero (S := S4x256x1) zeroOff3, View.canon_cons_unit_zero (S := S4x256x1024) zeroOff3,
    View.readCov_unit_zero _ (S := S4x256x1) zeroOff3, View.readCov_unit_zero _ (S := S4x256x1024) zeroOff3,
    View.readAt_eq_ld, Memref.IsWhole.read_unread, read_unread_whole, View.ld_unit_zero (S := S4x256x1) zeroOff3, View.ld_unit_zero (S := S4x256x1024) zeroOff3]

theorem stepC_out (c : Dev nD) (t : Fin cfg1.N) (hc0 : ¬cond1_0 (grid1.coords t)) (hc1 : cond1_1 (grid1.coords t)) (x0 x1 x2 : Vec F S4x256x1024 .bf16) (xs0 xs1 : Vec F S4x256x1 .f32) (xs2 : Vec F S4x256x1024 .f32) :
    (stepC c t hc0 hc1 x0 x1 x2 xs0 xs1 xs2).1 = k1_pay3 (k1_pay1 (k1_pay9 x0 x1 xs0 xs0) (k1_pay10 x0 x1 xs0) x2 xs2) (k1_pay11 x0 x1 xs0 xs0 xs1) := by
  unfold stepC; dsimp only
  rw [View.read_writes_junk_eq_canon]
  unfold kernelRun1_C; dsimp only
  try sl_unfold_words
  simp only [View.canon_unit_zero (S := S4x256x1) zeroOff3, View.canon_unit_zero (S := S4x256x1024) zeroOff3,
    View.canon_cons_unit_zero (S := S4x256x1) zeroOff3, View.canon_cons_unit_zero (S := S4x256x1024) zeroOff3,
    View.readCov_unit_zero _ (S := S4x256x1) zeroOff3, View.readCov_unit_zero _ (S := S4x256x1024) zeroOff3,
    View.readAt_eq_ld, Memref.IsWhole.read_unread, read_unread_whole, View.ld_unit_zero (S := S4x256x1) zeroOff3, View.ld_unit_zero (S := S4x256x1024) zeroOff3]

end Cert.KernelIdeal.Hand

end
-- ==== Proof.KIPay1.lean ====
/-
  The attention kernel body's payloads read at an index, at the ideal values.

  Each payload is a short chain of vector operations over the values the body loaded. Read at one index (b, r, c)
  the pointwise operations act on the operands' entries there; a cast to the same shape reads the same entry; a
  [4,256,1] column broadcast along the last axis reads the column's entry (b, r, 0); a matmul into a zero accumulator
  is the sum over the contracted coordinate of the operands' products; a reduction over the last axis is the sum, or
  the largest, of the row's entries; the constants are the extended reals their patterns denote.
-/
import proofs.«165952_j73890617361023_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
/-! ## The constants -/

/-- The pattern 0xFF800000 is minus infinity. -/
theorem ofBits_neg_inf : Ideal.ofBits .f32 0xFF800000#32 = ⊥ := by
  simp [Ideal.ofBits, Ideal.ieee]

/-- The pattern 0x3D000000 is 2^-5 = 1/32. -/
theorem ofBits_inv32 : Ideal.ofBits .f32 0x3D000000#32 = ((1 / 32 : ℝ) : EReal) := by
  simp [Ideal.ofBits, Ideal.ieee, -EReal.coe_mul]; norm_num

/-! ## Casts to the same shape, and the initial values -/

theorem pay2_apply (mo : FVec Ideal S4x256x1 .f32) (b : Fin 4) (r : Fin 256) :
    k1_pay2 mo (ix3 b r (0 : Fin 1)) = mo (ix3 b r (0 : Fin 1)) := by
  unfold k1_pay2
  rw [shapeCast_self]

theorem pay4_apply (b : Fin 4) (r : Fin 256) : k1_pay4 (F := Ideal) (ix3 b r (0 : Fin 1)) = ⊥ := by
  unfold k1_pay4
  rw [shapeCast_self]
  exact ofBits_neg_inf

theorem pay5_apply (b : Fin 4) (r : Fin 256) : k1_pay5 (F := Ideal) (ix3 b r (0 : Fin 1)) = 0 := by
  unfold k1_pay5
  rw [shapeCast_self]
  exact Ideal.ofBits_zero_f32

theorem pay6_apply (b : Fin 4) (r : Fin 256) (e : Fin 1024) : k1_pay6 (F := Ideal) (ix3 b r e) = 0 := by
  unfold k1_pay6
  rw [shapeCast_self]
  exact Ideal.ofBits_zero_f32

/-! ## A column broadcast along the last axis -/

/-- An [a, b, 1] array broadcast to [a, b, c] reads, at (p, q, j), the operand's column entry (p, q, 0). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (j : Fin c) :
    broadcastTo ⟨3, ![a, b, c]⟩ v h (ix3 p q j) = v (ix3 p q (0 : Fin 1)) := by
  refine broadcastTo_apply v h (ix3 p q j) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The pointwise payloads -/

theorem pay9_apply (Q Kb : FVec Ideal S4x256x1024 .bf16) (mo mo' : FVec Ideal S4x256x1 .f32) (b : Fin 4) (r : Fin 256) :
    k1_pay9 (F := Ideal) Q Kb mo mo' (ix3 b r (0 : Fin 1)) =
      Ideal.exp (mo' (ix3 b r (0 : Fin 1)) - k1_pay8 (F := Ideal) Q Kb mo (ix3 b r (0 : Fin 1))) := rfl

theorem pay10_apply (Q Kb : FVec Ideal S4x256x1024 .bf16) (mo : FVec Ideal S4x256x1 .f32) (b : Fin 4) (r : Fin 256)
    (c : Fin 256) :
    k1_pay10 (F := Ideal) Q Kb mo (ix3 b r c) =
      Ideal.exp (k1_pay7 (F := Ideal) Q Kb (ix3 b r c) - k1_pay8 (F := Ideal) Q Kb mo (ix3 b r (0 : Fin 1))) := by
  unfold k1_pay10
  exact congrArg (fun x => Ideal.exp (k1_pay7 (F := Ideal) Q Kb (ix3 b r c) - x))
    (broadcastTo_ab1_abc_apply (k1_pay8 (F := Ideal) Q Kb mo) broadcasts_S4x256x1_S4x256x256 b r c)

theorem pay3_apply (acco : FVec Ideal S4x256x1024 .f32) (lo : FVec Ideal S4x256x1 .f32) (b : Fin 4) (r : Fin 256)
    (e : Fin 1024) :
    k1_pay3 (F := Ideal) acco lo (ix3 b r e) = Ideal.div (acco (ix3 b r e)) (lo (ix3 b r (0 : Fin 1))) := by
  unfold k1_pay3
  exact congrArg (fun x => Ideal.div (acco (ix3 b r e)) x)
    (broadcastTo_ab1_abc_apply lo broadcasts_S4x256x1_S4x256x1024 b r e)

/-! ## The matmuls -/

theorem lhs7_0 (i : S4x256x256.Idx) (q : dot_S4x256x1024_S4x256x1024_S4x256x256_2_2_1_1_0_0.contr.Idx) : (dot_S4x256x1024_S4x256x1024_S4x256x256_2_2_1_1_0_0.lhsIdx i q 0).val = (i 0).val := by
  unfold DotDims.lhsIdx
  rw [dif_pos (show (0 : Fin S4x256x1024.rank) ∈ dot_S4x256x1024_S4x256x1024_S4x256x256_2_2_1_1_0_0.lhsBatch by decide)]
  rfl
theorem lhs7_1 (i : S4x256x256.Idx) (q : dot_S4x256x1024_S4x256x1024_S4x256x256_2_2_1_1_0_0.contr.Idx) : (dot_S4x256x1024_S4x256x1024_S4x256x256_2_2_1_1_0_0.lhsIdx i q 1).val = (i 1).val := by
  unfold DotDims.lhsIdx
  rw [dif_neg (show ¬(1 : Fin S4x256x1024.rank) ∈ dot_S4x256x1024_S4x256x1024_S4x256x256_2_2_1_1_0_0.lhsBatch by decide),
    dif_pos (show (1 : Fin S4x256x1024.rank) ∈ dot_S4x256x1024_S4x256x1024_S4x256x256_2_2_1_1_0_0.lhsNonContracting by decide)]
  rfl
theorem lhs7_2 (i : S4x256x256.Idx) (q : dot_S4x256x1024_S4x256x1024_S4x256x256_2_2_1_1_0_0.contr.Idx) : (dot_S4x256x1024_S4x256x1024_S4x256x256_2_2_1_1_0_0.lhsIdx i q 2).val = (q ⟨0, by decide⟩).val :=
  dot_S4x256x1024_S4x256x1024_S4x256x256_2_2_1_1_0_0.lhsIdx_val_of_single rfl i q
theorem rhs7_0 (i : S4x256x256.Idx) (q : dot_S4x256x1024_S4x256x1024_S4x256x256_2_2_1_1_0_0.contr.Idx) : (dot_S4x256x1024_S4x256x1024_S4x256x256_2_2_1_1_0_0.rhsIdx i q 0).val = (i 0).val := by
  unfold DotDims.rhsIdx
  rw [dif_pos (show (0 : Fin S4x256x1024.rank) ∈ dot_S4x256x1024_S4x256x1024_S4x256x256_2_2_1_1_0_0.rhsBatch by decide)]
  rfl
theorem rhs7_1 (i : S4x256x256.Idx) (q : dot_S4x256x1024_S4x256x1024_S4x256x256_2_2_1_1_0_0.contr.Idx) : (dot_S4x256x1024_S4x256x1024_S4x256x256_2_2_1_1_0_0.rhsIdx i q 1).val = (i 2).val := by
  unfold DotDims.rhsIdx
  rw [dif_neg (show ¬(1 : Fin S4x256x1024.rank) ∈ dot_S4x256x1024_S4x256x1024_S4x256x256_2_2_1_1_0_0.rhsBatch by decide),
    dif_pos (show (1 : Fin S4x256x1024.rank) ∈ dot_S4x256x1024_S4x256x1024_S4x256x256_2_2_1_1_0_0.rhsNonContracting by decide)]
  rfl
theorem rhs7_2 (i : S4x256x256.Idx) (q : dot_S4x256x1024_S4x256x1024_S4x256x256_2_2_1_1_0_0.contr.Idx) : (dot_S4x256x1024_S4x256x1024_S4x256x256_2_2_1_1_0_0.rhsIdx i q 2).val = (q ⟨0, by decide⟩).val :=
  dot_S4x256x1024_S4x256x1024_S4x256x256_2_2_1_1_0_0.rhsIdx_val_of_single rfl i q

/-- The score contraction's left operand index: batch, row, contracted coordinate. -/
theorem lhs7 (b : Fin 4) (r c : Fin 256) (k : Fin 1024) :
    dot_S4x256x1024_S4x256x1024_S4x256x256_2_2_1_1_0_0.lhsIdx (ix3 b r c) ((contrEquiv1 dot_S4x256x1024_S4x256x1024_S4x256x256_2_2_1_1_0_0 1024 rfl rfl).symm k) = ix3 b r k :=
  funext fun a => Fin.ext (by
    have hk := contrEquiv1_symm_val dot_S4x256x1024_S4x256x1024_S4x256x256_2_2_1_1_0_0 1024 rfl rfl k
    match a with
    | ⟨0, _⟩ => exact lhs7_0 _ _
    | ⟨1, _⟩ => exact lhs7_1 _ _
    | ⟨2, _⟩ => exact (lhs7_2 _ _).trans hk)

/-- The score contraction's right operand index: batch, key, contracted coordinate. -/
theorem rhs7 (b : Fin 4) (r c : Fin 256) (k : Fin 1024) :
    dot_S4x256x1024_S4x256x1024_S4x256x256_2_2_1_1_0_0.rhsIdx (ix3 b r c) ((contrEquiv1 dot_S4x256x1024_S4x256x1024_S4x256x256_2_2_1_1_0_0 1024 rfl rfl).symm k) = ix3 b c k :=
  funext fun a => Fin.ext (by
    have hk := contrEquiv1_symm_val dot_S4x256x1024_S4x256x1024_S4x256x256_2_2_1_1_0_0 1024 rfl rfl k
    match a with
    | ⟨0, _⟩ => exact rhs7_0 _ _
    | ⟨1, _⟩ => exact rhs7_1 _ _
    | ⟨2, _⟩ => exact (rhs7_2 _ _).trans hk)

theorem pay7_apply (Q Kb : FVec Ideal S4x256x1024 .bf16) (b : Fin 4) (r c : Fin 256) :
    k1_pay7 (F := Ideal) Q Kb (ix3 b r c) =
      (∑ d : Fin 1024, Q (ix3 b r d) * Kb (ix3 b c d)) * ((1 / 32 : ℝ) : EReal) := by
  unfold k1_pay7
  rw [shapeCast_self, shapeCast_self, mulf_apply, broadcast_apply]
  refine congrArg₂ (· * ·) ?_ ofBits_inv32
  refine (Ideal.matmul_constant_zero_apply dot_S4x256x1024_S4x256x1024_S4x256x256_2_2_1_1_0_0 none Q Kb (ix3 b r c)).trans ?_
  rw [← Equiv.sum_comp (contrEquiv1 dot_S4x256x1024_S4x256x1024_S4x256x256_2_2_1_1_0_0 1024 rfl rfl).symm]
  refine Finset.sum_congr rfl fun k _ => ?_
  rw [lhs7, rhs7]

theorem lhs1_0 (i : S4x256x1024.Idx) (q : dot_S4x256x256_S4x256x1024_S4x256x1024_2_1_1_2_0_0.contr.Idx) : (dot_S4x256x256_S4x256x1024_S4x256x1024_2_1_1_2_0_0.lhsIdx i q 0).val = (i 0).val := by
  unfold DotDims.lhsIdx
  rw [dif_pos (show (0 : Fin S4x256x256.rank) ∈ dot_S4x256x256_S4x256x1024_S4x256x1024_2_1_1_2_0_0.lhsBatch by decide)]
  rfl
theorem lhs1_1 (i : S4x256x1024.Idx) (q : dot_S4x256x256_S4x256x1024_S4x256x1024_2_1_1_2_0_0.contr.Idx) : (dot_S4x256x256_S4x256x1024_S4x256x1024_2_1_1_2_0_0.lhsIdx i q 1).val = (i 1).val := by
  unfold DotDims.lhsIdx
  rw [dif_neg (show ¬(1 : Fin S4x256x256.rank) ∈ dot_S4x256x256_S4x256x1024_S4x256x1024_2_1_1_2_0_0.lhsBatch by decide),
    dif_pos (show (1 : Fin S4x256x256.rank) ∈ dot_S4x256x256_S4x256x1024_S4x256x1024_2_1_1_2_0_0.lhsNonContracting by decide)]
  rfl
theorem lhs1_2 (i : S4x256x1024.Idx) (q : dot_S4x256x256_S4x256x1024_S4x256x1024_2_1_1_2_0_0.contr.Idx) : (dot_S4x256x256_S4x256x1024_S4x256x1024_2_1_1_2_0_0.lhsIdx i q 2).val = (q ⟨0, by decide⟩).val :=
  dot_S4x256x256_S4x256x1024_S4x256x1024_2_1_1_2_0_0.lhsIdx_val_of_single rfl i q
theorem rhs1_0 (i : S4x256x1024.Idx) (q : dot_S4x256x256_S4x256x1024_S4x256x1024_2_1_1_2_0_0.contr.Idx) : (dot_S4x256x256_S4x256x1024_S4x256x1024_2_1_1_2_0_0.rhsIdx i q 0).val = (i 0).val := by
  unfold DotDims.rhsIdx
  rw [dif_pos (show (0 : Fin S4x256x1024.rank) ∈ dot_S4x256x256_S4x256x1024_S4x256x1024_2_1_1_2_0_0.rhsBatch by decide)]
  rfl
theorem rhs1_1 (i : S4x256x1024.Idx) (q : dot_S4x256x256_S4x256x1024_S4x256x1024_2_1_1_2_0_0.contr.Idx) : (dot_S4x256x256_S4x256x1024_S4x256x1024_2_1_1_2_0_0.rhsIdx i q 1).val = (q ⟨0, by decide⟩).val :=
  dot_S4x256x256_S4x256x1024_S4x256x1024_2_1_1_2_0_0.rhsIdx_val_of_single rfl i q
theorem rhs1_2 (i : S4x256x1024.Idx) (q : dot_S4x256x256_S4x256x1024_S4x256x1024_2_1_1_2_0_0.contr.Idx) : (dot_S4x256x256_S4x256x1024_S4x256x1024_2_1_1_2_0_0.rhsIdx i q 2).val = (i 2).val := by
  unfold DotDims.rhsIdx
  rw [dif_neg (show ¬(2 : Fin S4x256x1024.rank) ∈ dot_S4x256x256_S4x256x1024_S4x256x1024_2_1_1_2_0_0.rhsBatch by decide),
    dif_pos (show (2 : Fin S4x256x1024.rank) ∈ dot_S4x256x256_S4x256x1024_S4x256x1024_2_1_1_2_0_0.rhsNonContracting by decide)]
  rfl

/-- The value contraction's left operand index: batch, row, key. -/
theorem lhs1 (b : Fin 4) (r : Fin 256) (e : Fin 1024) (k : Fin 256) :
    dot_S4x256x256_S4x256x1024_S4x256x1024_2_1_1_2_0_0.lhsIdx (ix3 b r e) ((contrEquiv1 dot_S4x256x256_S4x256x1024_S4x256x1024_2_1_1_2_0_0 256 rfl rfl).symm k) = ix3 b r k :=
  funext fun a => Fin.ext (by
    have hk := contrEquiv1_symm_val dot_S4x256x256_S4x256x1024_S4x256x1024_2_1_1_2_0_0 256 rfl rfl k
    match a with
    | ⟨0, _⟩ => exact lhs1_0 _ _
    | ⟨1, _⟩ => exact lhs1_1 _ _
    | ⟨2, _⟩ => exact (lhs1_2 _ _).trans hk)

/-- The value contraction's right operand index: batch, key, column. -/
theorem rhs1 (b : Fin 4) (r : Fin 256) (e : Fin 1024) (k : Fin 256) :
    dot_S4x256x256_S4x256x1024_S4x256x1024_2_1_1_2_0_0.rhsIdx (ix3 b r e) ((contrEquiv1 dot_S4x256x256_S4x256x1024_S4x256x1024_2_1_1_2_0_0 256 rfl rfl).symm k) = ix3 b k e :=
  funext fun a => Fin.ext (by
    have hk := contrEquiv1_symm_val dot_S4x256x256_S4x256x1024_S4x256x1024_2_1_1_2_0_0 256 rfl rfl k
    match a with
    | ⟨0, _⟩ => exact rhs1_0 _ _
    | ⟨1, _⟩ => exact (rhs1_1 _ _).trans hk
    | ⟨2, _⟩ => exact rhs1_2 _ _)

theorem pay1_apply (a : FVec Ideal S4x256x1 .f32) (p : FVec Ideal S4x256x256 .f32) (Vb : FVec Ideal S4x256x1024 .bf16)
    (acco : FVec Ideal S4x256x1024 .f32) (b : Fin 4) (r : Fin 256) (e : Fin 1024) :
    k1_pay1 (F := Ideal) a p Vb acco (ix3 b r e) =
      a (ix3 b r (0 : Fin 1)) * acco (ix3 b r e) + ∑ c : Fin 256, p (ix3 b r c) * Vb (ix3 b c e) := by
  unfold k1_pay1
  rw [shapeCast_self, shapeCast_self, addf_apply, mulf_apply]
  refine congrArg₂ (· + ·)
    (congrArg (· * acco (ix3 b r e)) (broadcastTo_ab1_abc_apply a broadcasts_S4x256x1_S4x256x1024 b r e)) ?_
  refine (Ideal.matmul_constant_zero_apply dot_S4x256x256_S4x256x1024_S4x256x1024_2_1_1_2_0_0 none _ Vb (ix3 b r e)).trans ?_
  rw [← Equiv.sum_comp (contrEquiv1 dot_S4x256x256_S4x256x1024_S4x256x1024_2_1_1_2_0_0 256 rfl rfl).symm]
  refine Finset.sum_congr rfl fun k _ => ?_
  rw [lhs1, rhs1]
  rfl

/-! ## The reductions over the last axis -/

/-- An [a, b] array cast to [a, b, 1] reads, at (p, q, u), the operand at (p, q), whatever the unit coordinate u. -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- The source index over the row (b, r) with last coordinate k. -/
theorem lift_last (b : Fin 4) (r : Fin 256) (k : Fin 256) :
    Shape.Reduces.lift (a := 2) reduces_S4x256x256_S4x256 (ix2 b r) k = ix3 b r k :=
  funext fun c => Fin.ext (by
    match c with
    | ⟨0, _⟩ => rfl
    | ⟨1, _⟩ => rfl
    | ⟨2, _⟩ => rfl)

/-- Folding the larger-of-two from minus infinity over a finite set is the set's supremum. -/
theorem fold_max_bot_eq_sup {ι : Type*} (S : Finset ι) (f : ι → EReal) : S.fold max ⊥ f = S.sup f := by
  apply le_antisymm
  · rw [Finset.fold_max_le]
    exact ⟨bot_le, fun x hx => Finset.le_sup hx⟩
  · refine Finset.sup_le fun x hx => ?_
    rw [Finset.le_fold_max]
    exact Or.inr ⟨x, hx, le_rfl⟩

/-- The largest entry of a row. -/
theorem rowMax (src : FVec Ideal S4x256x256 .f32) (b : Fin 4) (r : Fin 256) :
    multiReduction (F := Ideal) .maximumf [2] S4x256 src 0xFF800000#32 reduces_S4x256x256_S4x256 (.inl rfl) rfl (ix2 b r)
      = Finset.univ.sup fun c : Fin 256 => src (ix3 b r c) := by
  refine (Ideal.multiReduction_maximumf_single src 0xFF800000#32 reduces_S4x256x256_S4x256 (.inl rfl) rfl
    (ix2 b r)).trans ?_
  have hf : (src ∘ Shape.Reduces.lift (a := 2) reduces_S4x256x256_S4x256 (ix2 b r)) =
      fun c : Fin 256 => src (ix3 b r c) := funext fun c => congrArg src (lift_last b r c)
  rw [hf]
  show (Finset.univ : Finset (Fin 256)).fold max (Ideal.ofBits .f32 0xFF800000#32) _ = _
  rw [ofBits_neg_inf, fold_max_bot_eq_sup]

/-- The sum of a row. -/
theorem rowSum (src : FVec Ideal S4x256x256 .f32) (b : Fin 4) (r : Fin 256) :
    multiReduction (F := Ideal) .add [2] S4x256 src 0x00000000#32 reduces_S4x256x256_S4x256 (.inl rfl) rfl (ix2 b r)
      = ∑ c : Fin 256, src (ix3 b r c) := by
  refine (Ideal.multiReduction_add_single src 0x00000000#32 reduces_S4x256x256_S4x256 (.inl rfl) rfl
    (ix2 b r)).trans ?_
  exact Finset.sum_congr rfl fun k _ => congrArg src (lift_last b r k)

theorem pay8_apply (Q Kb : FVec Ideal S4x256x1024 .bf16) (mo : FVec Ideal S4x256x1 .f32) (b : Fin 4) (r : Fin 256) :
    k1_pay8 (F := Ideal) Q Kb mo (ix3 b r (0 : Fin 1)) =
      max (mo (ix3 b r (0 : Fin 1))) (Finset.univ.sup fun c : Fin 256 => k1_pay7 (F := Ideal) Q Kb (ix3 b r c)) := by
  unfold k1_pay8
  rw [maximumf_apply]
  refine congrArg (max (mo (ix3 b r (0 : Fin 1)))) ?_
  refine (shapeCast_ab_ab1_apply _ shapeCasts_S4x256_S4x256x1 b r 0).trans ?_
  exact rowMax (k1_pay7 (F := Ideal) Q Kb) b r

theorem pay11_apply (Q Kb : FVec Ideal S4x256x1024 .bf16) (mo mo' lo : FVec Ideal S4x256x1 .f32) (b : Fin 4)
    (r : Fin 256) :
    k1_pay11 (F := Ideal) Q Kb mo mo' lo (ix3 b r (0 : Fin 1)) =
      k1_pay9 (F := Ideal) Q Kb mo mo' (ix3 b r (0 : Fin 1)) * lo (ix3 b r (0 : Fin 1)) +
        ∑ c : Fin 256, k1_pay10 (F := Ideal) Q Kb mo (ix3 b r c) := by
  unfold k1_pay11
  rw [shapeCast_self, addf_apply, mulf_apply]
  refine congrArg (k1_pay9 (F := Ideal) Q Kb mo mo' (ix3 b r (0 : Fin 1)) * lo (ix3 b r (0 : Fin 1)) + ·) ?_
  refine (shapeCast_ab_ab1_apply _ shapeCasts_S4x256_S4x256x1 b r 0).trans ?_
  exact rowSum (k1_pay10 (F := Ideal) Q Kb mo) b r

end Cert.KernelIdeal.Pay

end
-- ==== Proof.KIFlash.lean ====
/-
  The eight key tiles of one query tile, as pure functions at the ideal values.

  The body's step maps the carried maximum, normaliser and weighted sum of a query tile, with the key and value
  blocks of key tile n, to the carried values after that tile. Read at a query row (b, r), the block of scores is
  the row's scaled scores against the keys of tile n, the new maximum is the larger of the carried one and the
  tile's largest score, the rescaling factor and the weights are the exponentials of the differences to the new
  maximum, and the normaliser and weighted sum are rescaled and extended by the tile's weights. Started from
  minus infinity, zero and zero, these are the row's running-maximum recurrences, and the final division is
  the row's output.
-/
import proofs.«165952_j73890617361023_2_alg».proof.Proof.KIPay1
import proofs.«165952_j73890617361023_2_alg».proof.Proof.Spec
import Idealize.ShloMosaic.Lib.ValueIdx

noncomputable section

namespace Cert.KernelIdeal.Flash

open Idealize.ShloMosaic Idealize.ShloMosaic.ValueIdx Cert.KernelIdeal Cert.KernelIdeal.Gen Cert.KernelIdeal.Pay
open Cert.Attn

/-- Query row r of query tile qi, batch b. -/
def qrow (qA : FVec Ideal S4x2048x1024 .bf16) (qi : Fin 8) (b : Fin 4) (r : Fin 256) : Fin 1024 → EReal :=
  fun d : Fin 1024 => qA (ix3 b ⟨256 * qi.val + r.val, by omega⟩ d)

/-- The keys of batch b. -/
def Kmat (kA : FVec Ideal S4x2048x1024 .bf16) (b : Fin 4) : Fin 2048 → Fin 1024 → EReal :=
  fun (t : Fin 2048) (d : Fin 1024) => kA (ix3 b t d)

/-- The values of batch b. -/
def Vmat (vA : FVec Ideal S4x2048x1024 .bf16) (b : Fin 4) : Fin 2048 → Fin 1024 → EReal :=
  fun (t : Fin 2048) (e : Fin 1024) => vA (ix3 b t e)

/-- The block of scores of key tile n, at row (b, r) and key c, is the row's scaled score against that key. -/
theorem score_eq (qA kA : FVec Ideal S4x2048x1024 .bf16) (qi : Fin 8) (Q Kn : FVec Ideal S4x256x1024 .bf16) (n : ℕ)
    (hQ : ∀ (b : Fin 4) (r : Fin 256) (d : Fin 1024),
      Q (ix3 b r d) = qA (ix3 b ⟨256 * qi.val + r.val, by omega⟩ d))
    (hKn : ∀ (b : Fin 4) (c : Fin 256) (d : Fin 1024), Kn (ix3 b c d) = kA (ix3 b (tileIx n c) d))
    (b : Fin 4) (r c : Fin 256) :
    k1_pay7 (F := Ideal) Q Kn (ix3 b r c) = kScore (qrow qA qi b r) (Kmat kA b) (tileIx n c) := by
  rw [pay7_apply]
  unfold kScore dotq qrow Kmat
  refine congrArg (· * ((1 / 32 : ℝ) : EReal)) (Finset.sum_congr rfl fun d _ => ?_)
  rw [hQ, hKn]

/-- After n key tiles the scratch holds, row by row, the running maximum, normaliser and weighted sum. -/
theorem flash_state (qA kA vA : FVec Ideal S4x2048x1024 .bf16) (qi : Fin 8) (Q : FVec Ideal S4x256x1024 .bf16)
    (hQ : ∀ (b : Fin 4) (r : Fin 256) (d : Fin 1024),
      Q (ix3 b r d) = qA (ix3 b ⟨256 * qi.val + r.val, by omega⟩ d))
    (Kb Vb : ℕ → FVec Ideal S4x256x1024 .bf16)
    (hK : ∀ n, n < 8 → ∀ (b : Fin 4) (c : Fin 256) (d : Fin 1024), Kb n (ix3 b c d) = kA (ix3 b (tileIx n c) d))
    (hV : ∀ n, n < 8 → ∀ (b : Fin 4) (c : Fin 256) (e : Fin 1024), Vb n (ix3 b c e) = vA (ix3 b (tileIx n c) e))
    (Ms Ls : ℕ → FVec Ideal S4x256x1 .f32) (As : ℕ → FVec Ideal S4x256x1024 .f32)
    (hM0 : Ms 0 = k1_pay4 (F := Ideal)) (hL0 : Ls 0 = k1_pay5 (F := Ideal)) (hA0 : As 0 = k1_pay6 (F := Ideal))
    (hM : ∀ n, n < 8 → Ms (n + 1) = k1_pay2 (F := Ideal) (k1_pay8 (F := Ideal) Q (Kb n) (Ms n)))
    (hL : ∀ n, n < 8 → Ls (n + 1) = k1_pay11 (F := Ideal) Q (Kb n) (Ms n) (Ms n) (Ls n))
    (hA : ∀ n, n < 8 → As (n + 1) = k1_pay1 (F := Ideal) (k1_pay9 (F := Ideal) Q (Kb n) (Ms n) (Ms n))
      (k1_pay10 (F := Ideal) Q (Kb n) (Ms n)) (Vb n) (As n)) :
    ∀ n, n ≤ 8 → ∀ (b : Fin 4) (r : Fin 256),
      Ms n (ix3 b r (0 : Fin 1)) = kM (qrow qA qi b r) (Kmat kA b) n ∧
      Ls n (ix3 b r (0 : Fin 1)) = kL (qrow qA qi b r) (Kmat kA b) n ∧
      ∀ e : Fin 1024, As n (ix3 b r e) = kAcc (qrow qA qi b r) (Kmat kA b) (Vmat vA b) e n := by
  intro n
  induction n with
  | zero =>
    intro _ b r
    refine ⟨?_, ?_, fun e => ?_⟩
    · rw [hM0, pay4_apply]; rfl
    · rw [hL0, pay5_apply]; rfl
    · rw [hA0, pay6_apply]; rfl
  | succ n ih =>
    intro hn b r
    have hn' : n < 8 := by omega
    obtain ⟨ihM, ihL, ihA⟩ := ih (by omega) b r
    have hsc : ∀ c : Fin 256, k1_pay7 (F := Ideal) Q (Kb n) (ix3 b r c) =
        kScore (qrow qA qi b r) (Kmat kA b) (tileIx n c) :=
      fun c => score_eq qA kA qi Q (Kb n) n hQ (hK n hn') b r c
    have h8 : k1_pay8 (F := Ideal) Q (Kb n) (Ms n) (ix3 b r (0 : Fin 1)) =
        kM (qrow qA qi b r) (Kmat kA b) (n + 1) := by
      rw [pay8_apply, ihM]
      exact congrArg (max (kM (qrow qA qi b r) (Kmat kA b) n))
        (congrArg Finset.univ.sup (funext hsc))
    have h9 : k1_pay9 (F := Ideal) Q (Kb n) (Ms n) (Ms n) (ix3 b r (0 : Fin 1)) =
        Cert.Attn.kA (qrow qA qi b r) (Kmat kA b) n := by
      rw [pay9_apply, h8, ihM]
      rfl
    have h10 : ∀ c : Fin 256, k1_pay10 (F := Ideal) Q (Kb n) (Ms n) (ix3 b r c) =
        kP (qrow qA qi b r) (Kmat kA b) n c := fun c => by
      rw [pay10_apply, h8, hsc c]
      rfl
    refine ⟨?_, ?_, fun e => ?_⟩
    · rw [hM n hn', pay2_apply, h8]
    · rw [hL n hn', pay11_apply, h9, ihL]
      exact congrArg (Cert.Attn.kA (qrow qA qi b r) (Kmat kA b) n * kL (qrow qA qi b r) (Kmat kA b) n + ·)
        (Finset.sum_congr rfl fun c _ => h10 c)
    · rw [hA n hn', pay1_apply, h9, ihA e]
      refine congrArg (Cert.Attn.kA (qrow qA qi b r) (Kmat kA b) n *
        kAcc (qrow qA qi b r) (Kmat kA b) (Vmat vA b) e n + ·) (Finset.sum_congr rfl fun c _ => ?_)
      rw [h10 c, hV n hn']
      rfl

/-- The final division, row by row, is the row's output. -/
theorem flash_out (qA kA vA : FVec Ideal S4x2048x1024 .bf16) (qi : Fin 8) (Q : FVec Ideal S4x256x1024 .bf16)
    (hQ : ∀ (b : Fin 4) (r : Fin 256) (d : Fin 1024),
      Q (ix3 b r d) = qA (ix3 b ⟨256 * qi.val + r.val, by omega⟩ d))
    (Kb Vb : ℕ → FVec Ideal S4x256x1024 .bf16)
    (hK : ∀ n, n < 8 → ∀ (b : Fin 4) (c : Fin 256) (d : Fin 1024), Kb n (ix3 b c d) = kA (ix3 b (tileIx n c) d))
    (hV : ∀ n, n < 8 → ∀ (b : Fin 4) (c : Fin 256) (e : Fin 1024), Vb n (ix3 b c e) = vA (ix3 b (tileIx n c) e))
    (Ms Ls : ℕ → FVec Ideal S4x256x1 .f32) (As : ℕ → FVec Ideal S4x256x1024 .f32)
    (hM0 : Ms 0 = k1_pay4 (F := Ideal)) (hL0 : Ls 0 = k1_pay5 (F := Ideal)) (hA0 : As 0 = k1_pay6 (F := Ideal))
    (hM : ∀ n, n < 8 → Ms (n + 1) = k1_pay2 (F := Ideal) (k1_pay8 (F := Ideal) Q (Kb n) (Ms n)))
    (hL : ∀ n, n < 8 → Ls (n + 1) = k1_pay11 (F := Ideal) Q (Kb n) (Ms n) (Ms n) (Ls n))
    (hA : ∀ n, n < 8 → As (n + 1) = k1_pay1 (F := Ideal) (k1_pay9 (F := Ideal) Q (Kb n) (Ms n) (Ms n))
      (k1_pay10 (F := Ideal) Q (Kb n) (Ms n)) (Vb n) (As n))
    (b : Fin 4) (r : Fin 256) (e : Fin 1024) :
    k1_pay3 (F := Ideal) (As 8) (Ls 8) (ix3 b r e) =
      kOut (qrow qA qi b r) (Kmat kA b) (Vmat vA b) e := by
  obtain ⟨-, h8L, h8A⟩ := flash_state qA kA vA qi Q hQ Kb Vb hK hV Ms Ls As hM0 hL0 hA0 hM hL hA 8 (le_refl 8) b r
  rw [pay3_apply, h8A e, h8L]
  rfl

end Cert.KernelIdeal.Flash

end
-- ==== Proof.KIVal1b.lean ====
/-
  What the attention region's result block holds at the last key tile of each query tile, at the ideal values.

  The positions of a query tile are its eight key tiles in order. At the first the body starts from the reset
  constants, at the others from the scratch the position before left, and at the last it also stores the quotient of
  the weighted sum and the normaliser it just left. The query block is the same at all eight; the key and value blocks
  of the n-th are the keys and values of tile n. So the scratch after n key tiles is the body's step iterated n
  times, which is the row's running-maximum recurrences, and the block stored at the last key tile is, row by row,
  the tiled attention row.
-/
import proofs.«165952_j73890617361023_2_alg».proof.Proof.KIReg1c
import proofs.«165952_j73890617361023_2_alg».proof.Proof.KIVal1a
import proofs.«165952_j73890617361023_2_alg».proof.Proof.KIFlash

set_option maxRecDepth 16384

noncomputable section

namespace Cert.KernelIdeal.Val1

open Cert.KernelIdeal Cert.KernelIdeal.Gen Cert.KernelIdeal.Hand Cert.KernelIdeal.Pay Cert.KernelIdeal.Flash
open Idealize.ShloMosaic Idealize.ShloMosaic.ValueIdx Idealize.ShloMosaic.TcCoe

variable (V : (c : Dev nD) → (b : Ref sig .tc) → Buf (Elt Ideal) ((c : Thread nD τ).loc b))

/-! ## One position of the walk -/

/-- The buffers after a position depend on the position's number only. -/
theorem last_outs_congr (c : Dev nD) {n n' : ℕ} (h : n = n') (hn : n < cfg1.N) (hn' : n' < cfg1.N) :
    outsAt1 V c n hn = outsAt1 V c n' hn' := by
  subst h; rfl

/-- The scratch a position leaves, over the scratch it finds: the reset constants at the first key tile of a query
    tile, what the position before left otherwise. -/
theorem last_step (c : Dev nD) (p : Fin cfg1.N) (m0 l0 : FVec Ideal S4x256x1 .f32) (a0 : FVec Ideal S4x256x1024 .f32)
    (hprev : (p.val % 8 = 0 ∧ m0 = k1_pay4 (F := Ideal) ∧ l0 = k1_pay5 (F := Ideal) ∧ a0 = k1_pay6 (F := Ideal)) ∨
      (¬p.val % 8 = 0 ∧ ∃ hp : p.val - 1 < cfg1.N, m0 = (outsAt1 V c (p.val - 1) hp).2.1 ∧
        l0 = (outsAt1 V c (p.val - 1) hp).2.2.1 ∧ a0 = (outsAt1 V c (p.val - 1) hp).2.2.2)) :
    (outsAt1 V c p.val p.isLt).2.1 =
        k1_pay2 (F := Ideal) (k1_pay8 (F := Ideal) (iblk1 V c 0 p) (iblk1 V c 1 p) m0) ∧
      (outsAt1 V c p.val p.isLt).2.2.1 = k1_pay11 (F := Ideal) (iblk1 V c 0 p) (iblk1 V c 1 p) m0 m0 l0 ∧
      (outsAt1 V c p.val p.isLt).2.2.2 =
        k1_pay1 (F := Ideal) (k1_pay9 (F := Ideal) (iblk1 V c 0 p) (iblk1 V c 1 p) m0 m0)
          (k1_pay10 (F := Ideal) (iblk1 V c 0 p) (iblk1 V c 1 p) m0) (iblk1 V c 2 p) a0 := by
  rcases hprev with ⟨h0, rfl, rfl, rfl⟩ | ⟨h0, hp, rfl, rfl, rfl⟩
  · have h1 : ¬p.val % 8 = 7 := by omega
    rw [outsAt1_A V c p h0 h1]
    exact ⟨stepA_max .., stepA_norm .., stepA_acc ..⟩
  · by_cases h1 : p.val % 8 = 7
    · rw [outsAt1_C V c p h0 h1]
      exact ⟨stepC_max .., stepC_norm .., stepC_acc ..⟩
    · rw [outsAt1_B V c p h0 h1]
      exact ⟨stepB_max .., stepB_norm .., stepB_acc ..⟩

/-- At the last key tile the result's block is the quotient of the weighted sum and the normaliser just left. -/
theorem last_out_C (c : Dev nD) (p : Fin cfg1.N) (h1 : p.val % 8 = 7) :
    (outsAt1 V c p.val p.isLt).1 =
      k1_pay3 (F := Ideal) (outsAt1 V c p.val p.isLt).2.2.2 (outsAt1 V c p.val p.isLt).2.2.1 := by
  have h0 : ¬p.val % 8 = 0 := by omega
  rw [outsAt1_C V c p h0 h1, stepC_out, stepC_acc, stepC_norm]

/-- The query block is the same at every key tile of a query tile. -/
theorem last_q_eq (c : Dev nD) (p p' : Fin cfg1.N) (h : p.val / 8 = p'.val / 8) :
    (iblk1 V c 0 p : S4x256x1024.Idx → EReal) = (iblk1 V c 0 p' : S4x256x1024.Idx → EReal) := by
  funext j
  obtain ⟨b, r, d, rfl⟩ : ∃ (b : Fin 4) (r : Fin 256) (d : Fin 1024), j = ix3 b r d := ⟨j 0, j 1, j 2, eq_ix3 j⟩
  refine (iblk1_q V c p b r d).trans (Eq.trans ?_ (iblk1_q V c p' b r d).symm)
  exact congrArg (fun s : Fin 2048 => (V c main_v5 : S4x2048x1024.Idx → EReal) (ix3 b s d))
    (Fin.ext (by show 256 * (p.val / 8) + r.val = 256 * (p'.val / 8) + r.val; rw [h]))

/-! ## The walk over the eight key tiles of a query tile -/

/-- The scratch after n key tiles of the query tile that starts at position base. -/
def lastScr (c : Dev nD) (base : ℕ) :
    ℕ → FVec Ideal S4x256x1 .f32 × FVec Ideal S4x256x1 .f32 × FVec Ideal S4x256x1024 .f32
  | 0 => (k1_pay4 (F := Ideal), k1_pay5 (F := Ideal), k1_pay6 (F := Ideal))
  | n + 1 =>
    if h : base + n < cfg1.N then (outsAt1 V c (base + n) h).2
    else (k1_pay4 (F := Ideal), k1_pay5 (F := Ideal), k1_pay6 (F := Ideal))

/-- The key block of key tile n. -/
def lastK (c : Dev nD) (base : ℕ) (t : Fin cfg1.N) (n : ℕ) : FVec Ideal S4x256x1024 .bf16 :=
  if h : base + n < cfg1.N then iblk1 V c 1 ⟨base + n, h⟩ else iblk1 V c 1 t

/-- The value block of key tile n. -/
def lastV (c : Dev nD) (base : ℕ) (t : Fin cfg1.N) (n : ℕ) : FVec Ideal S4x256x1024 .bf16 :=
  if h : base + n < cfg1.N then iblk1 V c 2 ⟨base + n, h⟩ else iblk1 V c 2 t

theorem lastScr_succ (c : Dev nD) (base n : ℕ) (h : base + n < cfg1.N) :
    lastScr V c base (n + 1) = (outsAt1 V c (base + n) h).2 := dif_pos h

/-- One step of the walk is the body's step. -/
theorem last_walk (c : Dev nD) (t : Fin cfg1.N) (n : ℕ) (hn : n < 8) :
    (lastScr V c (8 * (t.val / 8)) (n + 1)).1 =
        k1_pay2 (F := Ideal) (k1_pay8 (F := Ideal) (iblk1 V c 0 t) (lastK V c (8 * (t.val / 8)) t n)
          (lastScr V c (8 * (t.val / 8)) n).1) ∧
      (lastScr V c (8 * (t.val / 8)) (n + 1)).2.1 =
        k1_pay11 (F := Ideal) (iblk1 V c 0 t) (lastK V c (8 * (t.val / 8)) t n)
          (lastScr V c (8 * (t.val / 8)) n).1 (lastScr V c (8 * (t.val / 8)) n).1
          (lastScr V c (8 * (t.val / 8)) n).2.1 ∧
      (lastScr V c (8 * (t.val / 8)) (n + 1)).2.2 =
        k1_pay1 (F := Ideal)
          (k1_pay9 (F := Ideal) (iblk1 V c 0 t) (lastK V c (8 * (t.val / 8)) t n)
            (lastScr V c (8 * (t.val / 8)) n).1 (lastScr V c (8 * (t.val / 8)) n).1)
          (k1_pay10 (F := Ideal) (iblk1 V c 0 t) (lastK V c (8 * (t.val / 8)) t n)
            (lastScr V c (8 * (t.val / 8)) n).1)
          (lastV V c (8 * (t.val / 8)) t n) (lastScr V c (8 * (t.val / 8)) n).2.2 := by
  have hN : cfg1.N = 64 := N_1
  have htl := point_lt t
  have hp : 8 * (t.val / 8) + n < cfg1.N := by omega
  have hq : (iblk1 V c 0 ⟨8 * (t.val / 8) + n, hp⟩ : S4x256x1024.Idx → EReal) = iblk1 V c 0 t :=
    last_q_eq V c ⟨8 * (t.val / 8) + n, hp⟩ t (by show (8 * (t.val / 8) + n) / 8 = t.val / 8; omega)
  have hk : lastK V c (8 * (t.val / 8)) t n = iblk1 V c 1 ⟨8 * (t.val / 8) + n, hp⟩ := dif_pos hp
  have hv : lastV V c (8 * (t.val / 8)) t n = iblk1 V c 2 ⟨8 * (t.val / 8) + n, hp⟩ := dif_pos hp
  have hprev : ((⟨8 * (t.val / 8) + n, hp⟩ : Fin cfg1.N).val % 8 = 0 ∧
        (lastScr V c (8 * (t.val / 8)) n).1 = k1_pay4 (F := Ideal) ∧
        (lastScr V c (8 * (t.val / 8)) n).2.1 = k1_pay5 (F := Ideal) ∧
        (lastScr V c (8 * (t.val / 8)) n).2.2 = k1_pay6 (F := Ideal)) ∨
      (¬(⟨8 * (t.val / 8) + n, hp⟩ : Fin cfg1.N).val % 8 = 0 ∧
        ∃ hp' : (⟨8 * (t.val / 8) + n, hp⟩ : Fin cfg1.N).val - 1 < cfg1.N,
          (lastScr V c (8 * (t.val / 8)) n).1 =
            (outsAt1 V c ((⟨8 * (t.val / 8) + n, hp⟩ : Fin cfg1.N).val - 1) hp').2.1 ∧
          (lastScr V c (8 * (t.val / 8)) n).2.1 =
            (outsAt1 V c ((⟨8 * (t.val / 8) + n, hp⟩ : Fin cfg1.N).val - 1) hp').2.2.1 ∧
          (lastScr V c (8 * (t.val / 8)) n).2.2 =
            (outsAt1 V c ((⟨8 * (t.val / 8) + n, hp⟩ : Fin cfg1.N).val - 1) hp').2.2.2) := by
    cases n with
    | zero => exact Or.inl ⟨by show (8 * (t.val / 8) + 0) % 8 = 0; omega, rfl, rfl, rfl⟩
    | succ m =>
      have hm : 8 * (t.val / 8) + m < cfg1.N := by omega
      have hp' : (8 * (t.val / 8) + (m + 1)) - 1 < cfg1.N := by omega
      have e := last_outs_congr V c (show 8 * (t.val / 8) + m = (8 * (t.val / 8) + (m + 1)) - 1 by omega) hm hp'
      refine Or.inr ⟨by show ¬(8 * (t.val / 8) + (m + 1)) % 8 = 0; omega, hp', ?_, ?_, ?_⟩
      · rw [lastScr_succ V c _ m hm, e]
      · rw [lastScr_succ V c _ m hm, e]
      · rw [lastScr_succ V c _ m hm, e]
  obtain ⟨s1, s2, s3⟩ := last_step V c ⟨8 * (t.val / 8) + n, hp⟩ _ _ _ hprev
  rw [lastScr_succ V c _ n hp, hk, hv, ← hq]
  exact ⟨s1, s2, s3⟩

/-- At the last key tile of a query tile the result's block holds, row by row, the tiled attention row. -/
theorem last_tile_out (c : Dev nD) (t : Fin cfg1.N) (ht : t.val % 8 = 7) (b : Fin 4) (r : Fin 256) (e : Fin 1024) :
    (outsAt1 V c t.val t.isLt).1 (ix3 b r e) =
      Cert.Attn.kOut
        (qrow (V c main_v5 : S4x2048x1024.Idx → EReal) ⟨t.val / 8, by have := point_lt t; omega⟩ b r)
        (Kmat (V c main_v6 : S4x2048x1024.Idx → EReal) b)
        (Vmat (V c main_v7 : S4x2048x1024.Idx → EReal) b) e := by
  have hN : cfg1.N = 64 := N_1
  have htl := point_lt t
  have h8 : 8 * (t.val / 8) + 7 < cfg1.N := by omega
  have e8 := last_outs_congr V c (show 8 * (t.val / 8) + 7 = t.val by omega) h8 t.isLt
  have hout : (outsAt1 V c t.val t.isLt).1 =
      k1_pay3 (F := Ideal) (lastScr V c (8 * (t.val / 8)) 8).2.2 (lastScr V c (8 * (t.val / 8)) 8).2.1 := by
    rw [lastScr_succ V c _ 7 h8, e8]
    exact last_out_C V c t ht
  rw [hout]
  refine flash_out (V c main_v5 : S4x2048x1024.Idx → EReal) (V c main_v6 : S4x2048x1024.Idx → EReal)
    (V c main_v7 : S4x2048x1024.Idx → EReal) ⟨t.val / 8, by omega⟩ (iblk1 V c 0 t)
    (fun b r d => iblk1_q V c t b r d)
    (lastK V c (8 * (t.val / 8)) t) (lastV V c (8 * (t.val / 8)) t) ?_ ?_
    (fun n => (lastScr V c (8 * (t.val / 8)) n).1) (fun n => (lastScr V c (8 * (t.val / 8)) n).2.1)
    (fun n => (lastScr V c (8 * (t.val / 8)) n).2.2) rfl rfl rfl
    (fun n hn => (last_walk V c t n hn).1) (fun n hn => (last_walk V c t n hn).2.1)
    (fun n hn => (last_walk V c t n hn).2.2) b r e
  · intro n hn b cc d
    have hp : 8 * (t.val / 8) + n < cfg1.N := by omega
    have hk : lastK V c (8 * (t.val / 8)) t n = iblk1 V c 1 ⟨8 * (t.val / 8) + n, hp⟩ := dif_pos hp
    rw [hk]
    refine (iblk1_k V c ⟨8 * (t.val / 8) + n, hp⟩ b cc d).trans ?_
    exact congrArg (fun s : Fin 2048 => (V c main_v6 : S4x2048x1024.Idx → EReal) (ix3 b s d))
      (Fin.ext (by
        show 256 * ((8 * (t.val / 8) + n) % 8) + cc.val = (256 * n + cc.val) % 2048
        have := cc.isLt
        omega))
  · intro n hn b cc e'
    have hp : 8 * (t.val / 8) + n < cfg1.N := by omega
    have hv : lastV V c (8 * (t.val / 8)) t n = iblk1 V c 2 ⟨8 * (t.val / 8) + n, hp⟩ := dif_pos hp
    rw [hv]
    refine (iblk1_v V c ⟨8 * (t.val / 8) + n, hp⟩ b cc e').trans ?_
    exact congrArg (fun s : Fin 2048 => (V c main_v7 : S4x2048x1024.Idx → EReal) (ix3 b s e'))
      (Fin.ext (by
        show 256 * ((8 * (t.val / 8) + n) % 8) + cc.val = (256 * n + cc.val) % 2048
        have := cc.isLt
        omega))

end Cert.KernelIdeal.Val1

end
-- ==== Proof.KIVal0.lean ====
/-
  What the projection region leaves in its three result arrays, entry by entry, over the extended reals.

  At a point the body forms, from a block `x` of 512 rows, the whole weight matrix `w` and the whole bias `b`, the
  512 × 3072 matrix `x · w + b` — each entry a sum of 1024 products plus the bias of its column — and stores its three
  column thirds. The contraction over one axis is re-indexed by that axis' coordinate; rounding to the narrower format
  is the identity on extended reals; a cast to the same shape is the identity; the bias, viewed as one row, is repeated
  down the rows; a column third reads the matrix at the column shifted by the third's offset.

  Point `t` reads rows `t · 512 … t · 512 + 511` of the input and writes the same rows of each result, and the sixteen
  points cover all 8192 rows. So each result array ends as ONE function of the whole arrays: entry `(R, e)` is row `R`
  of the input against column `off + e` of the weights, plus the bias at `off + e`, with `off = 0, 1024, 2048` for the
  three results.
-/
import proofs.«165952_j73890617361023_2_alg».proof.Proof.KIReg0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val0

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)
open scoped BigOperators

/-! ## The payload at an index -/

/-- The left operand's index at output entry `i` and contraction index `q` keeps the output's row … -/
theorem lhs_row (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl

/-- … and has the contraction index as its column. -/
theorem lhs_contr (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q

/-- The right operand's index has the contraction index as its row … -/
theorem rhs_contr (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q

/-- … and keeps the output's column. -/
theorem rhs_col (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- THE BODY'S MATRIX at an entry: row `r` of the block against column `j` of the weights, a sum of 1024 products, plus the
    bias at `j`. The contraction into a zero accumulator is the sum over its one contracted axis, re-indexed by that axis'
    coordinate; rounding to the narrower format is the identity; the casts to the same shape are identities; the bias as one row
    is repeated down the rows. -/
theorem pay1_apply (x : FVec Ideal S512x1024 .f32) (w : FVec Ideal S1024x3072 .bf16) (bias : FVec Ideal S3072 .f32)
    (r : Fin 512) (j : Fin 3072) :
    k0_pay1 (F := Ideal) x w bias (ix2 r j) = (∑ d : Fin 1024, x (ix2 r d) * w (ix2 d j)) + bias (ix1 j) := by
  unfold k0_pay1
  simp only [shapeCast_self]
  rw [addf_apply, broadcastTo_1b_ab_apply, shapeCast_a_1a_apply]
  refine congrArg (· + bias (ix1 j)) ?_
  refine (Ideal.matmul_constant_zero_apply dot_S512x1024_S1024x3072_S512x3072_1_0_0_1_n_n none _ _ (ix2 r j)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r j)
      ((contrEquiv1 dot_S512x1024_S1024x3072_S512x3072_1_0_0_1_n_n 1024 rfl rfl).symm k) = ix2 r k := funext fun a => Fin.ext (by
    match a with
    | ⟨0, _⟩ => exact lhs_row _ _
    | ⟨1, _⟩ => exact (lhs_contr _ _).trans hk)
  have er : dot_S512x1024_S1024x3072_S512x3072_1_0_0_1_n_n.rhsIdx (ix2 r j)
      ((contrEquiv1 dot_S512x1024_S1024x3072_S512x3072_1_0_0_1_n_n 1024 rfl rfl).symm k) = ix2 k j := funext fun a => Fin.ext (by
    match a with
    | ⟨0, _⟩ => exact (rhs_contr _ _).trans hk
    | ⟨1, _⟩ => exact rhs_col _ _)
  rw [el, er, truncf_apply]

/-- The first third reads the body's matrix at column `e`. -/
theorem pay2_apply (x : FVec Ideal S512x1024 .f32) (w : FVec Ideal S1024x3072 .bf16) (bias : FVec Ideal S3072 .f32)
    (r : Fin 512) (e : Fin 1024) :
    k0_pay2 (F := Ideal) x w bias (ix2 r e) = k0_pay1 (F := Ideal) x w bias (ix2 r ⟨e.val, by omega⟩) := by
  unfold k0_pay2
  rw [truncf_apply]
  exact slice2_axis1_apply 0 _ _ r e ⟨e.val, by omega⟩ (by simp)

/-- The second third reads the body's matrix at column `1024 + e`. -/
theorem pay3_apply (x : FVec Ideal S512x1024 .f32) (w : FVec Ideal S1024x3072 .bf16) (bias : FVec Ideal S3072 .f32)
    (r : Fin 512) (e : Fin 1024) :
    k0_pay3 (F := Ideal) x w bias (ix2 r e) = k0_pay1 (F := Ideal) x w bias (ix2 r ⟨1024 + e.val, by omega⟩) := by
  unfold k0_pay3
  rw [truncf_apply]
  exact slice2_axis1_apply 1024 _ _ r e ⟨1024 + e.val, by omega⟩ rfl

/-- The third third reads the body's matrix at column `2048 + e`. -/
theorem pay4_apply (x : FVec Ideal S512x1024 .f32) (w : FVec Ideal S1024x3072 .bf16) (bias : FVec Ideal S3072 .f32)
    (r : Fin 512) (e : Fin 1024) :
    k0_pay4 (F := Ideal) x w bias (ix2 r e) = k0_pay1 (F := Ideal) x w bias (ix2 r ⟨2048 + e.val, by omega⟩) := by
  unfold k0_pay4
  rw [truncf_apply]
  exact slice2_axis1_apply 2048 _ _ r e ⟨2048 + e.val, by omega⟩ rfl

/-! ## From blocks to the arrays -/

/-- The zero offsets of a rank-2 whole-buffer access. -/
theorem hz2 : (![0, 0] : Fin 2 → Nat) = fun _ => 0 := funext fun a => by fin_cases a <;> rfl
/-- The zero offset of a rank-1 whole-buffer access. -/
theorem hz1 : (![0] : Fin 1 → Nat) = fun _ => 0 := funext fun a => by fin_cases a; rfl

/-- The three column thirds of the concatenated weights and bias. -/
abbrev colq (e : Fin 1024) : Fin 3072 := ⟨e.val, by omega⟩
abbrev colk (e : Fin 1024) : Fin 3072 := ⟨1024 + e.val, by omega⟩
abbrev colv (e : Fin 1024) : Fin 3072 := ⟨2048 + e.val, by omega⟩

/-- One third of the projection as ONE function of the whole arrays: row `i 0` of the input against column
    `col (i 1)` of the weights, plus the bias there. -/
def proj3 (col : Fin 1024 → Fin 3072) (X : S8192x1024.Idx → EReal) (W : S1024x3072.Idx → EReal) (B : S3072.Idx → EReal) :
    S8192x1024.Idx → EReal := fun i =>
  (∑ d : Fin 1024, X (ix2 (⟨(i 0).val, (i 0).isLt⟩ : Fin 8192) d) * W (ix2 d (col ⟨(i 1).val, (i 1).isLt⟩)))
    + B (ix1 (col ⟨(i 1).val, (i 1).isLt⟩))

/-- One entry of the projection: row `R` of the input against column `j` of the weights, plus the bias at `j`. -/
def rowProj (X : S8192x1024.Idx → EReal) (W : S1024x3072.Idx → EReal) (B : S3072.Idx → EReal) (R : Fin 8192) (j : Fin 3072) : EReal :=
  (∑ d : Fin 1024, X (ix2 R d) * W (ix2 d j)) + B (ix1 j)

/-- `proj3` at an entry given by its coordinates. -/
theorem proj3_apply (col : Fin 1024 → Fin 3072) (X : S8192x1024.Idx → EReal) (W : S1024x3072.Idx → EReal) (B : S3072.Idx → EReal)
    (R : Fin 8192) (e : Fin 1024) :
    proj3 col X W B (ix2 R e) = (∑ d : Fin 1024, X (ix2 R d) * W (ix2 d (col e))) + B (ix1 (col e)) := rfl

/-- A block of 512 rows of a third, from the blocks the body reads: the rows' block is rows `n * 512 …` of `X`,
    the other two blocks are all of `W` and `B`. -/
theorem point_eq (col : Fin 1024 → Fin 3072) (X : S8192x1024.Idx → EReal) (W : S1024x3072.Idx → EReal) (B : S3072.Idx → EReal)
    (x0 : FVec Ideal S512x1024 .f32) (x1 : FVec Ideal S1024x3072 .bf16) (x2 : FVec Ideal S3072 .f32) (n : Nat)
    (h0 : ∀ (y : S512x1024.Idx) (k : S8192x1024.Idx), (k 0).val = n * 512 + (y 0).val → (k 1).val = (y 1).val → x0 y = X k)
    (h1 : ∀ y, x1 y = W y) (h2 : ∀ y, x2 y = B y)
    (p : FVec Ideal S512x1024 .bf16)
    (hp : ∀ (r : Fin 512) (e : Fin 1024), p (ix2 r e) = k0_pay1 (F := Ideal) x0 x1 x2 (ix2 r (col e)))
    (y : S512x1024.Idx) (i : S8192x1024.Idx) (hi0 : (i 0).val = n * 512 + (y 0).val) (hi1 : (i 1).val = (y 1).val) :
    p y = proj3 col X W B i := by
  obtain ⟨r, e, rfl⟩ : ∃ (r : Fin 512) (e : Fin 1024), y = ix2 r e := ⟨y 0, y 1, eq_ix2 y⟩
  obtain ⟨R, E, rfl⟩ : ∃ (R : Fin 8192) (E : Fin 1024), i = ix2 R E := ⟨i 0, i 1, eq_ix2 i⟩
  have hR : R.val = n * 512 + r.val := hi0
  have hE : E = e := Fin.ext hi1
  subst hE
  rw [hp, pay1_apply, proj3_apply, h2]
  refine congrArg (· + B (ix1 (col E))) (Finset.sum_congr rfl fun d _ => ?_)
  rw [h1, h0 (ix2 r d) (ix2 R d) hR rfl]

/-- The printed index maps, decided over the sixteen points: the rows' window and the three results' windows are at
    block `t` of the rows and block 0 of the columns; the weights' and the bias' windows are at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

-- the buffers' contents when the region is entered
variable (V : (c : Dev nD) → (b : Ref sig .tc) → Buf (Elt Ideal) ((c : Thread nD τ).loc b))

/-- The rows' block at point `t` is rows `t * 512 …` of the input. -/
theorem blkX (c : Dev nD) (t : Fin cfg0.N) (y : S512x1024.Idx) (k : S8192x1024.Idx)
    (hk0 : (k 0).val = t.val * 512 + (y 0).val) (hk1 : (k 1).val = (y 1).val) :
    (iblk0 V c 0 t : FVec Ideal S512x1024 .f32) y = (V c main_v3 : S8192x1024.Idx → EReal) k := by
  obtain ⟨a0, a1, -⟩ := idx_facts t
  show (V c main_v3 : S8192x1024.Idx → EReal) (((cfg0.win 0).blk t).view.emb y) = (V c main_v3 : S8192x1024.Idx → EReal) k
  refine congrArg (V c main_v3 : S8192x1024.Idx → EReal) (funext fun a => Fin.ext ?_)
  match a with
  | ⟨0, _⟩ => show win0_0.index t (0 : Fin 2) * 512 + 1 * (y 0).val = (k 0).val; omega
  | ⟨1, _⟩ => show win0_0.index t (1 : Fin 2) * 1024 + 1 * (y 1).val = (k 1).val; omega

/-- The weights' block at every point is the whole matrix. -/
theorem blkW (c : Dev nD) (t : Fin cfg0.N) (y : S1024x3072.Idx) :
    (iblk0 V c 1 t : FVec Ideal S1024x3072 .bf16) y = (V c main_v1 : S1024x3072.Idx → EReal) y := by
  obtain ⟨-, -, b0, b1, -⟩ := idx_facts t
  show (V c main_v1 : S1024x3072.Idx → EReal) (((cfg0.win 1).blk t).view.emb y) = (V c main_v1 : S1024x3072.Idx → EReal) y
  refine congrArg (V c main_v1 : S1024x3072.Idx → EReal) (funext fun a => Fin.ext ?_)
  match a with
  | ⟨0, _⟩ => show win0_1.index t (0 : Fin 2) * 1024 + 1 * (y 0).val = (y 0).val; omega
  | ⟨1, _⟩ => show win0_1.index t (1 : Fin 2) * 3072 + 1 * (y 1).val = (y 1).val; omega

/-- The bias' block at every point is the whole vector. -/
theorem blkB (c : Dev nD) (t : Fin cfg0.N) (y : S3072.Idx) :
    (iblk0 V c 2 t : FVec Ideal S3072 .f32) y = (V c main_v2 : S3072.Idx → EReal) y := by
  obtain ⟨-, -, -, -, c0, -⟩ := idx_facts t
  show (V c main_v2 : S3072.Idx → EReal) (((cfg0.win 2).blk t).view.emb y) = (V c main_v2 : S3072.Idx → EReal) y
  refine congrArg (V c main_v2 : S3072.Idx → EReal) (funext fun a => Fin.ext ?_)
  match a with
  | ⟨0, _⟩ => show win0_2.index t (0 : Fin 1) * 3072 + 1 * (y 0).val = (y 0).val; omega

/-! ## The first result -/

/-- WHAT POINT `t` WRITES BACK to the first result is block `t` of `proj3` of the whole arrays: the store's payload at `y` is the
    body's matrix at the third's column, whose row block is rows `t * 512 …` of the input, and the result's block sits at the same rows. -/
theorem flushed_q (c : Dev nD) (t : Fin cfg0.N) :
    (dat0 V c).flushed 3 t = ((cfg0.win 3).blk t).view.read (Elt Ideal)
      (proj3 colq (V c main_v3 : S8192x1024.Idx → EReal) (V c main_v1 : S1024x3072.Idx → EReal) (V c main_v2 : S3072.Idx → EReal)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x3072) hz2, View.ld_unit_zero (S := S3072) hz1]
  obtain ⟨-, -, -, -, -, q0, q1, -⟩ := idx_facts t
  refine funext fun (y : S512x1024.Idx) => ?_
  refine point_eq colq _ _ _ _ _ _ t.val (blkX V c t) (blkW V c t) (blkB V c t) _ (pay2_apply _ _ _) y _ ?_ ?_
  · show win0_3.index t (0 : Fin 2) * 512 + 1 * (y 0).val = t.val * 512 + (y 0).val; omega
  · show win0_3.index t (1 : Fin 2) * 1024 + 1 * (y 1).val = (y 1).val; omega

/-- An entry of the first result is in point `t`'s block iff each coordinate is in the block's range on its axis. -/
theorem mem_blk_q (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4_0).slice (win0_3.rect t)).set ↔ _
  rw [View.set_slice_whole, Rect.mem_set_unit]
  exact Iff.rfl

/-- Every entry is in some point's block: row `R` is in the block of point `R / 512`, and every point writes its block back. -/
theorem cover_q (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, q0, q1, -⟩ := idx_facts t
  refine ⟨t, flush0_3 t, ?_⟩
  rw [mem_blk_q]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE FIRST RESULT after the sixteen points is `proj3` of the whole arrays. -/
theorem final_q (c : Dev nD) : (dat0 V c).arrAt 3 cfg0.N
    = proj3 colq (V c main_v3 : S8192x1024.Idx → EReal) (V c main_v1 : S1024x3072.Idx → EReal) (V c main_v2 : S3072.Idx → EReal) :=
  (dat0 V c).arrAt_eq_of_cover 3 _ (fun t _ => flushed_q V c t) cover_q

/-- … entry by entry: row `R` of the input against column `e` of the weights, plus the bias there. -/
theorem reg0_q (c : Dev nD) (R : Fin 8192) (e : Fin 1024) :
    (dat0 V c).arrAt 3 cfg0.N (ix2 R e) = rowProj (V c main_v3) (V c main_v1) (V c main_v2) R ⟨e.val, by omega⟩ := by
  rw [final_q]; rfl
/-! ## The second result -/

/-- WHAT POINT `t` WRITES BACK to the second result is block `t` of `proj3` of the whole arrays: the store's payload at `y` is the
    body's matrix at the third's column, whose row block is rows `t * 512 …` of the input, and the result's block sits at the same rows. -/
theorem flushed_k (c : Dev nD) (t : Fin cfg0.N) :
    (dat0 V c).flushed 4 t = ((cfg0.win 4).blk t).view.read (Elt Ideal)
      (proj3 colk (V c main_v3 : S8192x1024.Idx → EReal) (V c main_v1 : S1024x3072.Idx → EReal) (V c main_v2 : S3072.Idx → EReal)) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S1024x3072) hz2, View.ld_unit_zero (S := S3072) hz1]
  obtain ⟨-, -, -, -, -, -, -, q0, q1, -⟩ := idx_facts t
  refine funext fun (y : S512x1024.Idx) => ?_
  refine point_eq colk _ _ _ _ _ _ t.val (blkX V c t) (blkW V c t) (blkB V c t) _ (pay3_apply _ _ _) y _ ?_ ?_
  · show win0_4.index t (0 : Fin 2) * 512 + 1 * (y 0).val = t.val * 512 + (y 0).val; omega
  · show win0_4.index t (1 : Fin 2) * 1024 + 1 * (y 1).val = (y 1).val; omega

/-- An entry of the second result is in point `t`'s block iff each coordinate is in the block's range on its axis. -/
theorem mem_blk_k (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_1).slice (win0_4.rect t)).set ↔ _
  rw [View.set_slice_whole, Rect.mem_set_unit]
  exact Iff.rfl

/-- Every entry is in some point's block: row `R` is in the block of point `R / 512`, and every point writes its block back. -/
theorem cover_k (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, q0, q1, -⟩ := idx_facts t
  refine ⟨t, flush0_4 t, ?_⟩
  rw [mem_blk_k]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- THE SECOND RESULT after the sixteen points is `proj3` of the whole arrays. -/
theorem final_k (c : Dev nD) : (dat0 V c).arrAt 4 cfg0.N
    = proj3 colk (V c main_v3 : S8192x1024.Idx → EReal) (V c main_v1 : S1024x3072.Idx → EReal) (V c main_v2 : S3072.Idx → EReal) :=
  (dat0 V c).arrAt_eq_of_cover 4 _ (fun t _ => flushed_k V c t) cover_k

/-- … entry by entry: row `R` of the input against column `1024 + e` of the weights, plus the bias there. -/
theorem reg0_k (c : Dev nD) (R : Fin 8192) (e : Fin 1024) :
    (dat0 V c).arrAt 4 cfg0.N (ix2 R e) = rowProj (V c main_v3) (V c main_v1) (V c main_v2) R ⟨1024 + e.val, by omega⟩ := by
  rw [final_k]; rfl
/-! ## The third result -/

/-- WHAT POINT `t` WRITES BACK to the third result is block `t` of `proj3` of the whole arrays: the store's payload at `y` is the
    body's matrix at the third's column, whose row block is rows `t * 512 …` of the input, and the result's block sits at the same rows. -/
theorem flushed_v (c : Dev nD) (t : Fin cfg0.N) :
    (dat0 V c).flushed 5 t = ((cfg0.win 5).blk t).view.read (Elt Ideal)
      (proj3 colv (V c main_v3 : S8192x1024.Idx → EReal) (V c main_v1 : S1024x3072.Idx → EReal) (V c main_v2 : S3072.Idx → EReal)) := by
  show (cfg0.win 5).cut (grid0.coords t) ((dat0 V c).after 5 t) = _
  rw [after0_5]
  unfold out0_5
  rw [View.canon_unit_zero hz2]
  simp only [View.ld_unit_zero (S := S512x1024) hz2, View.ld_unit_zero (S := S1024x3072) hz2, View.ld_unit_zero (S := S3072) hz1]
  obtain ⟨-, -, -, -, -, -, -, -, -, q0, q1⟩ := idx_facts t
  refine funext fun (y : S512x1024.Idx) => ?_
  refine point_eq colv _ _ _ _ _ _ t.val (blkX V c t) (blkW V c t) (blkB V c t) _ (pay4_apply _ _ _) y _ ?_ ?_
  · show win0_5.index t (0 : Fin 2) * 512 + 1 * (y 0).val = t.val * 512 + (y 0).val; omega
  · show win0_5.index t (1 : Fin 2) * 1024 + 1 * (y 1).val = (y 1).val; omega

/-- An entry of the third result is in point `t`'s block iff each coordinate is in the block's range on its axis. -/
theorem mem_blk_v (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_2).slice (win0_5.rect t)).set ↔ _
  rw [View.set_slice_whole, Rect.mem_set_unit]
  exact Iff.rfl

/-- Every entry is in some point's block: row `R` is in the block of point `R / 512`, and every point writes its block back. -/
theorem cover_v (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, -, -, -, q0, q1⟩ := idx_facts t
  refine ⟨t, flush0_5 t, ?_⟩
  rw [mem_blk_v]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE THIRD RESULT after the sixteen points is `proj3` of the whole arrays. -/
theorem final_v (c : Dev nD) : (dat0 V c).arrAt 5 cfg0.N
    = proj3 colv (V c main_v3 : S8192x1024.Idx → EReal) (V c main_v1 : S1024x3072.Idx → EReal) (V c main_v2 : S3072.Idx → EReal) :=
  (dat0 V c).arrAt_eq_of_cover 5 _ (fun t _ => flushed_v V c t) cover_v

/-- … entry by entry: row `R` of the input against column `2048 + e` of the weights, plus the bias there. -/
theorem reg0_v (c : Dev nD) (R : Fin 8192) (e : Fin 1024) :
    (dat0 V c).arrAt 5 cfg0.N (ix2 R e) = rowProj (V c main_v3) (V c main_v1) (V c main_v2) R ⟨2048 + e.val, by omega⟩ := by
  rw [final_v]; rfl

end Cert.KernelIdeal.Val0

end
-- ==== Proof.KIHost.lean ====
/-
  The host operations around the two kernels, read one entry at a time.

  Before the first kernel the program lays the three weight matrices side by side along the columns (and
  changes the format of the result, which at the extended reals is the identity), lays the three bias
  vectors end to end, and flattens the input's batch and row axes into one axis of 4 · 2048 rows. After
  the first kernel it unflattens each of the kernel's three results back into batches of rows.

  Flattening keeps the row-major position: entry `(2048 · b + s, d)` of the flattened array is entry
  `(b, s, d)` of the original. A concatenation of three pieces of extent 1024 along an axis reads, at
  coordinate `e`, `1024 + e`, `2048 + e` of that axis, the first, second, third piece at `e`.

  Everything is stated for an arbitrary assignment `W` of contents to the buffers.
-/
import proofs.«165952_j73890617361023_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostRead

open Cert.KernelIdeal Cert.KernelIdeal.Gen Idealize.ShloMosaic Idealize.ShloMosaic.ValueIdx

variable [Facts]
variable (W : Valuation τ sig (Elt Ideal))

/-! ## Flattening and unflattening -/

/-- The flattened array at `(2048 · b + s, d)` is the original at `(b, s, d)`: the two entries have the same
    row-major position. -/
theorem flatten_apply (x : S4x2048x1024.Idx → EReal) (b : Fin 4) (s : Fin 2048) (d : Fin 1024) :
    shapeCast S8192x1024 x shapeCasts_S4x2048x1024_S8192x1024 (ix2 (⟨2048 * b.val + s.val, by omega⟩ : Fin 8192) d)
      = x (ix3 b s d) :=
  shapeCast_apply _ _ _ (ix3 b s d) (by
    rw [Shape.rowMajor_val_two, Shape.rowMajor_val_three]
    show (b.val * 2048 + s.val) * 1024 + d.val = (2048 * b.val + s.val) * 1024 + d.val
    omega)

/-- The unflattened array at `(b, s, e)` is the flat one at `(2048 · b + s, e)`. -/
theorem unflatten_apply (x : S8192x1024.Idx → EReal) (b : Fin 4) (s : Fin 2048) (e : Fin 1024) :
    shapeCast S4x2048x1024 x shapeCasts_S8192x1024_S4x2048x1024 (ix3 b s e)
      = x (ix2 (⟨2048 * b.val + s.val, by omega⟩ : Fin 8192) e) :=
  shapeCast_apply _ _ _ (ix2 (⟨2048 * b.val + s.val, by omega⟩ : Fin 8192) e) (by
    rw [Shape.rowMajor_val_two, Shape.rowMajor_val_three]
    show (2048 * b.val + s.val) * 1024 + e.val = (b.val * 2048 + s.val) * 1024 + e.val
    omega)

/-! ## Before the first kernel -/

/-- A concatenation of three pieces of one shape depends only on the pieces. -/
theorem concat3_congr {α : Type} (t : Shape) (a : Fin t.rank) (s : Shape) (x0 x1 x2 y0 y1 y2 : s.Idx → α)
    (h : Shape.Concatenates [s, s, s] t a) (e0 : x0 = y0) (e1 : x1 = y1) (e2 : x2 = y2) :
    concatenate t a [⟨s, x0⟩, ⟨s, x1⟩, ⟨s, x2⟩] h = concatenate t a [⟨s, y0⟩, ⟨s, y1⟩, ⟨s, y2⟩] h := by
  subst e0 e1 e2; rfl

/-- The flattened input. -/
theorem after0_v3 (b : Fin 4) (s : Fin 2048) (d : Fin 1024) :
    ((StableHlo.after hostOps0 W (Proc.devRef .tc main_v3)) : S8192x1024.Idx → EReal) (ix2 (⟨2048 * b.val + s.val, by omega⟩ : Fin 8192) d)
      = ((W (Proc.devRef .tc main_arg0)) : S4x2048x1024.Idx → EReal) (ix3 b s d) := by
  have h : ((StableHlo.after hostOps0 W (Proc.devRef .tc main_v3)) : S8192x1024.Idx → EReal)
      = shapeCast S8192x1024 ((W (Proc.devRef .tc main_arg0)) : S4x2048x1024.Idx → EReal) shapeCasts_S4x2048x1024_S8192x1024 := by
    after_results; rfl
  rw [h]
  exact flatten_apply _ b s d

/-- The stacked weights are the three weight matrices side by side (the change of format is the identity). -/
theorem after0_v1_eq :
    ((StableHlo.after hostOps0 W (Proc.devRef .tc main_v1)) : S1024x3072.Idx → EReal)
      = concatenate S1024x3072 1 [⟨S1024x1024, ((W (Proc.devRef .tc main_arg1)) : S1024x1024.Idx → EReal)⟩, ⟨S1024x1024, ((W (Proc.devRef .tc main_arg3)) : S1024x1024.Idx → EReal)⟩, ⟨S1024x1024, ((W (Proc.devRef .tc main_arg5)) : S1024x1024.Idx → EReal)⟩] concatenates_S1024x1024_S1024x1024_S1024x1024_S1024x3072_d1 := by
  after_results; rfl

/-- Columns `0 … 1023` of the stacked weights are the first matrix. -/
theorem after0_v1_q (d e : Fin 1024) :
    ((StableHlo.after hostOps0 W (Proc.devRef .tc main_v1)) : S1024x3072.Idx → EReal) (ix2 d (⟨e.val, by omega⟩ : Fin 3072))
      = ((W (Proc.devRef .tc main_arg1)) : S1024x1024.Idx → EReal) (ix2 d e) := by
  rw [after0_v1_eq]
  refine concatenate_apply_piece (t := S1024x3072) 1 _ _ _ 0 ?_ S1024x1024 _ ?_ ?_ 0 ?_ (ix2 d e) ?_ ?_
  · show (0 : ℕ) < 3; omega
  · rfl
  · rfl
  · rfl
  · intro b hb; match b with | ⟨0, _⟩ => rfl | ⟨1, _⟩ => exact absurd rfl hb
  · exact Nat.zero_add _

/-- Columns `1024 … 2047` are the second matrix. -/
theorem after0_v1_k (d e : Fin 1024) :
    ((StableHlo.after hostOps0 W (Proc.devRef .tc main_v1)) : S1024x3072.Idx → EReal) (ix2 d (⟨1024 + e.val, by omega⟩ : Fin 3072))
      = ((W (Proc.devRef .tc main_arg3)) : S1024x1024.Idx → EReal) (ix2 d e) := by
  rw [after0_v1_eq]
  refine concatenate_apply_piece (t := S1024x3072) 1 _ _ _ 1 ?_ S1024x1024 _ ?_ ?_ 1024 ?_ (ix2 d e) ?_ ?_
  · show (1 : ℕ) < 3; omega
  · rfl
  · rfl
  · rfl
  · intro b hb; match b with | ⟨0, _⟩ => rfl | ⟨1, _⟩ => exact absurd rfl hb
  · exact rfl

/-- Columns `2048 … 3071` are the third matrix. -/
theorem after0_v1_v (d e : Fin 1024) :
    ((StableHlo.after hostOps0 W (Proc.devRef .tc main_v1)) : S1024x3072.Idx → EReal) (ix2 d (⟨2048 + e.val, by omega⟩ : Fin 3072))
      = ((W (Proc.devRef .tc main_arg5)) : S1024x1024.Idx → EReal) (ix2 d e) := by
  rw [after0_v1_eq]
  refine concatenate_apply_piece (t := S1024x3072) 1 _ _ _ 2 ?_ S1024x1024 _ ?_ ?_ 2048 ?_ (ix2 d e) ?_ ?_
  · show (2 : ℕ) < 3; omega
  · rfl
  · rfl
  · rfl
  · intro b hb; match b with | ⟨0, _⟩ => rfl | ⟨1, _⟩ => exact absurd rfl hb
  · exact rfl

/-- The stacked biases are the three bias vectors end to end. -/
theorem after0_v2_eq :
    ((StableHlo.after hostOps0 W (Proc.devRef .tc main_v2)) : S3072.Idx → EReal)
      = concatenate S3072 0 [⟨S1024, ((W (Proc.devRef .tc main_arg2)) : S1024.Idx → EReal)⟩, ⟨S1024, ((W (Proc.devRef .tc main_arg4)) : S1024.Idx → EReal)⟩, ⟨S1024, ((W (Proc.devRef .tc main_arg6)) : S1024.Idx → EReal)⟩] concatenates_S1024_S1024_S1024_S3072_d0 := by
  after_results
  refine concat3_congr _ _ _ _ _ _ _ _ _ _ ?_ ?_ ?_
  · exact (StableHlo.unary_result_ne (τ := τ) _ _ _ _ _ _ (r := main_arg2) (by decide)).trans
      (StableHlo.nary_result_ne (τ := τ) _ _ _ _ _ _ (r := main_arg2) (by decide))
  · exact (StableHlo.unary_result_ne (τ := τ) _ _ _ _ _ _ (r := main_arg4) (by decide)).trans
      (StableHlo.nary_result_ne (τ := τ) _ _ _ _ _ _ (r := main_arg4) (by decide))
  · exact (StableHlo.unary_result_ne (τ := τ) _ _ _ _ _ _ (r := main_arg6) (by decide)).trans
      (StableHlo.nary_result_ne (τ := τ) _ _ _ _ _ _ (r := main_arg6) (by decide))

/-- Entries `0 … 1023` of the stacked biases are the first vector. -/
theorem after0_v2_q (e : Fin 1024) :
    ((StableHlo.after hostOps0 W (Proc.devRef .tc main_v2)) : S3072.Idx → EReal) (ix1 (⟨e.val, by omega⟩ : Fin 3072))
      = ((W (Proc.devRef .tc main_arg2)) : S1024.Idx → EReal) (ix1 e) := by
  rw [after0_v2_eq]
  refine concatenate_apply_piece (t := S3072) 0 _ _ _ 0 ?_ S1024 _ ?_ ?_ 0 ?_ (ix1 e) ?_ ?_
  · show (0 : ℕ) < 3; omega
  · rfl
  · rfl
  · rfl
  · intro b hb; match b with | ⟨0, _⟩ => exact absurd rfl hb
  · exact Nat.zero_add _

/-- Entries `1024 … 2047` are the second vector. -/
theorem after0_v2_k (e : Fin 1024) :
    ((StableHlo.after hostOps0 W (Proc.devRef .tc main_v2)) : S3072.Idx → EReal) (ix1 (⟨1024 + e.val, by omega⟩ : Fin 3072))
      = ((W (Proc.devRef .tc main_arg4)) : S1024.Idx → EReal) (ix1 e) := by
  rw [after0_v2_eq]
  refine concatenate_apply_piece (t := S3072) 0 _ _ _ 1 ?_ S1024 _ ?_ ?_ 1024 ?_ (ix1 e) ?_ ?_
  · show (1 : ℕ) < 3; omega
  · rfl
  · rfl
  · rfl
  · intro b hb; match b with | ⟨0, _⟩ => exact absurd rfl hb
  · exact rfl

/-- Entries `2048 … 3071` are the third vector. -/
theorem after0_v2_v (e : Fin 1024) :
    ((StableHlo.after hostOps0 W (Proc.devRef .tc main_v2)) : S3072.Idx → EReal) (ix1 (⟨2048 + e.val, by omega⟩ : Fin 3072))
      = ((W (Proc.devRef .tc main_arg6)) : S1024.Idx → EReal) (ix1 e) := by
  rw [after0_v2_eq]
  refine concatenate_apply_piece (t := S3072) 0 _ _ _ 2 ?_ S1024 _ ?_ ?_ 2048 ?_ (ix1 e) ?_ ?_
  · show (2 : ℕ) < 3; omega
  · rfl
  · rfl
  · rfl
  · intro b hb; match b with | ⟨0, _⟩ => exact absurd rfl hb
  · exact rfl

/-! ## After the first kernel -/

theorem after1_v5 (b : Fin 4) (s : Fin 2048) (e : Fin 1024) :
    ((StableHlo.after hostOps1 W (Proc.devRef .tc main_v5)) : S4x2048x1024.Idx → EReal) (ix3 b s e)
      = ((W (Proc.devRef .tc main_v4_0)) : S8192x1024.Idx → EReal) (ix2 (⟨2048 * b.val + s.val, by omega⟩ : Fin 8192) e) := by
  have h : ((StableHlo.after hostOps1 W (Proc.devRef .tc main_v5)) : S4x2048x1024.Idx → EReal)
      = shapeCast S4x2048x1024 ((W (Proc.devRef .tc main_v4_0)) : S8192x1024.Idx → EReal) shapeCasts_S8192x1024_S4x2048x1024 := by
    after_results; rfl
  rw [h]
  exact unflatten_apply _ b s e

theorem after1_v6 (b : Fin 4) (s : Fin 2048) (e : Fin 1024) :
    ((StableHlo.after hostOps1 W (Proc.devRef .tc main_v6)) : S4x2048x1024.Idx → EReal) (ix3 b s e)
      = ((W (Proc.devRef .tc main_v4_1)) : S8192x1024.Idx → EReal) (ix2 (⟨2048 * b.val + s.val, by omega⟩ : Fin 8192) e) := by
  have h : ((StableHlo.after hostOps1 W (Proc.devRef .tc main_v6)) : S4x2048x1024.Idx → EReal)
      = shapeCast S4x2048x1024 ((W (Proc.devRef .tc main_v4_1)) : S8192x1024.Idx → EReal) shapeCasts_S8192x1024_S4x2048x1024 := by
    after_results; rfl
  rw [h]
  exact unflatten_apply _ b s e

theorem after1_v7 (b : Fin 4) (s : Fin 2048) (e : Fin 1024) :
    ((StableHlo.after hostOps1 W (Proc.devRef .tc main_v7)) : S4x2048x1024.Idx → EReal) (ix3 b s e)
      = ((W (Proc.devRef .tc main_v4_2)) : S8192x1024.Idx → EReal) (ix2 (⟨2048 * b.val + s.val, by omega⟩ : Fin 8192) e) := by
  have h : ((StableHlo.after hostOps1 W (Proc.devRef .tc main_v7)) : S4x2048x1024.Idx → EReal)
      = shapeCast S4x2048x1024 ((W (Proc.devRef .tc main_v4_2)) : S8192x1024.Idx → EReal) shapeCasts_S8192x1024_S4x2048x1024 := by
    after_results; rfl
  rw [h]
  exact unflatten_apply _ b s e

end Cert.KernelIdeal.HostRead

end
-- ==== Proof.KIMid.lean ====
/-
  The middle links: the three arrays the attention region reads are the projections of the launch arguments.

  Before the projection region the program flattens the input's batch and row axes, lays the three weight matrices
  side by side and the three biases end to end. The region leaves, in each of its three results, at row `R` and column
  `e`, row `R` of the flattened input against column `off + e` of the stacked weights plus the stacked bias at `off + e`
  (`off = 0, 1024, 2048`). After the region each result is unflattened. Read at `(b, s, e)`, with `R = 2048 · b + s`, the
  flattened row is row `(b, s)` of the input and the stacked column is column `e` of the first, second or third weight
  matrix and bias: the entry is the sum over `d` of `x (b, s, d) · W (d, e)` plus `bias e`.

  A projection of arrays of real numbers is an array of real numbers: a finite sum of products of reals plus a real.
-/
import proofs.«165952_j73890617361023_2_alg».proof.Proof.KIRun
import proofs.«165952_j73890617361023_2_alg».proof.Proof.KIVal0
import proofs.«165952_j73890617361023_2_alg».proof.Proof.KIHost
import proofs.«165952_j73890617361023_2_alg».proof.Proof.Spec

set_option maxRecDepth 16384

noncomputable section

namespace Cert.KernelIdeal.Mid

open Cert.KernelIdeal Cert.KernelIdeal.Gen Cert.KernelIdeal.Hand
open Idealize.ShloMosaic Idealize.ShloMosaic.ValueIdx Idealize.ShloMosaic.TcCoe Idealize.SL.Sem
open scoped BigOperators

/-! ## A projection of real arrays is real -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals plus a real is a real. -/
theorem proj_real (x : (⟨3, ![4, 2048, 1024]⟩ : Shape).Idx → EReal) (W : (⟨2, ![1024, 1024]⟩ : Shape).Idx → EReal)
    (bias : (⟨1, ![1024]⟩ : Shape).Idx → EReal)
    (hx : ∀ i, ∃ r : ℝ, x i = (r : EReal)) (hW : ∀ i, ∃ r : ℝ, W i = (r : EReal)) (hb : ∀ i, ∃ r : ℝ, bias i = (r : EReal)) :
    ∀ (b : Fin 4) (s : Fin 2048) (e : Fin 1024), ∃ r : ℝ, Cert.Attn.proj x W bias b s e = (r : EReal) := by
  choose fx hfx using hx
  choose fW hfW using hW
  choose fb hfb using hb
  intro b s e
  refine ⟨(∑ d : Fin 1024, fx (ix3 b s d) * fW (ix2 d e)) + fb (ix1 e), ?_⟩
  unfold Cert.Attn.proj
  rw [EReal.coe_add, coe_sum, hfb]
  refine congrArg (· + (fb (ix1 e) : EReal)) (Finset.sum_congr rfl fun d _ => ?_)
  rw [hfx, hfW, EReal.coe_mul]

/-! ## The three arrays the attention region reads -/

variable (m : (ℓ : Loc nD τ sig) → Buf (Elt Ideal) ℓ) (ρ : Dev nD → PrngReg)

/-- The first array the attention region reads, at `(b, s, e)`: unflattening reads the projection region's first result at row
    `2048 · b + s`; that entry is the flattened input's row against column `e` of the stacked weights plus the stacked bias
    there; the flattened row is row `(b, s)` of the input, and that column of the stacked weights and bias is column `e` of
    the first weight matrix and bias. -/
theorem mid_q (c : Dev nD) (b : Fin 4) (s : Fin 2048) (e : Fin 1024) :
    (V3 m ρ c main_v5 : S4x2048x1024.Idx → EReal) (ix3 b s e)
      = Cert.Attn.proj (m ((c : Thread nD τ).loc main_arg0)) (m ((c : Thread nD τ).loc main_arg1)) (m ((c : Thread nD τ).loc main_arg2)) b s e := by
  -- the unflattened array at (b, s, e) is the region's result at (2048 b + s, e)
  have h1 := HostRead.after1_v5 (W2 m ρ c) b s e
  -- the region's result array is what its write-backs leave
  have h2 : (W2 m ρ c (Proc.devRef .tc main_v4_0) : S8192x1024.Idx → EReal) = (dat0 (V1 m ρ) c).arrAt 3 cfg0.N := W2_arr m ρ c 3
  -- which at that entry is the row against the column, plus the bias
  have h3 := Val0.reg0_q (V1 m ρ) c ⟨2048 * b.val + s.val, by omega⟩ e
  refine h1.trans ((congrFun h2 _).trans (h3.trans ?_))
  unfold Val0.rowProj Cert.Attn.proj
  -- term by term: the flattened input, the stacked weights and the stacked bias are the arguments
  refine congrArg₂ (· + ·) (Finset.sum_congr rfl fun d _ => ?_) (HostRead.after0_v2_q (W0 m ρ c) e)
  exact congrArg₂ (· * ·) (HostRead.after0_v3 (W0 m ρ c) b s d) (HostRead.after0_v1_q (W0 m ρ c) d e)

/-- The second array the attention region reads, at `(b, s, e)`: unflattening reads the projection region's second result at row
    `2048 · b + s`; that entry is the flattened input's row against column `1024 + e` of the stacked weights plus the stacked bias
    there; the flattened row is row `(b, s)` of the input, and that column of the stacked weights and bias is column `e` of
    the second weight matrix and bias. -/
theorem mid_k (c : Dev nD) (b : Fin 4) (s : Fin 2048) (e : Fin 1024) :
    (V3 m ρ c main_v6 : S4x2048x1024.Idx → EReal) (ix3 b s e)
      = Cert.Attn.proj (m ((c : Thread nD τ).loc main_arg0)) (m ((c : Thread nD τ).loc main_arg3)) (m ((c : Thread nD τ).loc main_arg4)) b s e := by
  -- the unflattened array at (b, s, e) is the region's result at (2048 b + s, e)
  have h1 := HostRead.after1_v6 (W2 m ρ c) b s e
  -- the region's result array is what its write-backs leave
  have h2 : (W2 m ρ c (Proc.devRef .tc main_v4_1) : S8192x1024.Idx → EReal) = (dat0 (V1 m ρ) c).arrAt 4 cfg0.N := W2_arr m ρ c 4
  -- which at that entry is the row against the column, plus the bias
  have h3 := Val0.reg0_k (V1 m ρ) c ⟨2048 * b.val + s.val, by omega⟩ e
  refine h1.trans ((congrFun h2 _).trans (h3.trans ?_))
  unfold Val0.rowProj Cert.Attn.proj
  -- term by term: the flattened input, the stacked weights and the stacked bias are the arguments
  refine congrArg₂ (· + ·) (Finset.sum_congr rfl fun d _ => ?_) (HostRead.after0_v2_k (W0 m ρ c) e)
  exact congrArg₂ (· * ·) (HostRead.after0_v3 (W0 m ρ c) b s d) (HostRead.after0_v1_k (W0 m ρ c) d e)

/-- The third array the attention region reads, at `(b, s, e)`: unflattening reads the projection region's third result at row
    `2048 · b + s`; that entry is the flattened input's row against column `2048 + e` of the stacked weights plus the stacked bias
    there; the flattened row is row `(b, s)` of the input, and that column of the stacked weights and bias is column `e` of
    the third weight matrix and bias. -/
theorem mid_v (c : Dev nD) (b : Fin 4) (s : Fin 2048) (e : Fin 1024) :
    (V3 m ρ c main_v7 : S4x2048x1024.Idx → EReal) (ix3 b s e)
      = Cert.Attn.proj (m ((c : Thread nD τ).loc main_arg0)) (m ((c : Thread nD τ).loc main_arg5)) (m ((c : Thread nD τ).loc main_arg6)) b s e := by
  -- the unflattened array at (b, s, e) is the region's result at (2048 b + s, e)
  have h1 := HostRead.after1_v7 (W2 m ρ c) b s e
  -- the region's result array is what its write-backs leave
  have h2 : (W2 m ρ c (Proc.devRef .tc main_v4_2) : S8192x1024.Idx → EReal) = (dat0 (V1 m ρ) c).arrAt 5 cfg0.N := W2_arr m ρ c 5
  -- which at that entry is the row against the column, plus the bias
  have h3 := Val0.reg0_v (V1 m ρ) c ⟨2048 * b.val + s.val, by omega⟩ e
  refine h1.trans ((congrFun h2 _).trans (h3.trans ?_))
  unfold Val0.rowProj Cert.Attn.proj
  -- term by term: the flattened input, the stacked weights and the stacked bias are the arguments
  refine congrArg₂ (· + ·) (Finset.sum_congr rfl fun d _ => ?_) (HostRead.after0_v2_v (W0 m ρ c) e)
  exact congrArg₂ (· * ·) (HostRead.after0_v3 (W0 m ρ c) b s d) (HostRead.after0_v1_v (W0 m ρ c) d e)

end Cert.KernelIdeal.Mid

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.Softmax.lean ====
/-
  The tiled softmax row equals the plain softmax row, with real inputs.

  With real inputs every scaled score is a real number s t. Walking the keys in tiles of 256 and carrying a
  maximum M, a normaliser and a weighted sum, after n ≥ 1 tiles the normaliser is Σ exp (s t − M) and the
  weighted sum is Σ exp (s t − M) · v t, both over the keys of the first n tiles: a step to a new maximum M'
  multiplies what was carried by exp (M − M'), and exp (M − M') · exp (s t − M) = exp (s t − M'). Before the first
  tile the carried maximum is ⊥, the factor is exp ⊥ = 0, and the carried sums are 0.

  The quotient (Σ exp (s t − c) · v t) / (Σ exp (s t − c)) does not depend on the real c. The tiled row ends
  with c its carried maximum, the plain row uses c the largest of all the scores and divides each weight before
  summing; both references are real, so the two rows agree.
-/
import proofs.«165952_j73890617361023_2_alg».proof.Proof.Spec
import proofs.«165952_j73890617361023_2_alg».proof.Proof.LibSumSplit

noncomputable section

namespace Cert.Attn

open Idealize.ShloMosaic

/-! ## Coercions -/

/-- The coercion of a finite real sum is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The quotient of two reals with a nonzero divisor is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The exponential of a difference of two reals. -/
theorem exp_coe_sub (a b : ℝ) : Ideal.exp ((a : EReal) - (b : EReal)) = ((Real.exp (a - b) : ℝ) : EReal) := by
  rw [← EReal.coe_sub]; rfl

/-- Dividing by 32 and multiplying by its reciprocal give the same score. -/
theorem refScore_eq_kScore (qrow : Fin 1024 → EReal) (K : Fin 2048 → Fin 1024 → EReal) (t : Fin 2048) :
    refScore qrow K t = kScore qrow K t :=
  Ideal.div_coe (by norm_num) _

/-- With real inputs every scaled score is real. -/
theorem kScore_real (qrow : Fin 1024 → EReal) (K : Fin 2048 → Fin 1024 → EReal)
    (hq : ∀ d, ∃ r : ℝ, qrow d = (r : EReal)) (hK : ∀ t d, ∃ r : ℝ, K t d = (r : EReal)) :
    ∃ s : Fin 2048 → ℝ, ∀ t, kScore qrow K t = (s t : EReal) := by
  choose q hq using hq
  choose k hk using hK
  refine ⟨fun t => (∑ d, q d * k t d) * (1 / 32), fun t => ?_⟩
  unfold kScore dotq
  rw [EReal.coe_mul, coe_sum]
  congr 1
  refine Finset.sum_congr rfl fun d _ => ?_
  rw [hq, hk, EReal.coe_mul]

/-! ## The carried maximum is real after the first tile -/

section Real

variable (qrow : Fin 1024 → EReal) (K V : Fin 2048 → Fin 1024 → EReal) (e : Fin 1024)
  (s v : Fin 2048 → ℝ)

theorem kM_zero : kM qrow K 0 = ⊥ := rfl

theorem kM_succ (n : ℕ) : kM qrow K (n + 1) =
    max (kM qrow K n) (Finset.univ.sup fun c : Fin 256 => kScore qrow K (tileIx n c)) := rfl

/-- The largest score of a tile is one of its scores, so it is real. -/
theorem tileSup_real (hs : ∀ t, kScore qrow K t = (s t : EReal)) (n : ℕ) :
    ∃ r : ℝ, (Finset.univ.sup fun c : Fin 256 => kScore qrow K (tileIx n c)) = (r : EReal) := by
  obtain ⟨c, -, hc⟩ := Finset.exists_mem_eq_sup Finset.univ Finset.univ_nonempty
    (fun c : Fin 256 => kScore qrow K (tileIx n c))
  exact ⟨s (tileIx n c), hc.trans (hs _)⟩

theorem kM_succ_real (hs : ∀ t, kScore qrow K t = (s t : EReal)) :
    ∀ n : ℕ, ∃ M : ℝ, kM qrow K (n + 1) = (M : EReal)
  | 0 => by
      obtain ⟨r, hr⟩ := tileSup_real qrow K s hs 0
      exact ⟨r, by rw [kM_succ, kM_zero, hr]; exact max_eq_right bot_le⟩
  | n + 1 => by
      obtain ⟨r, hr⟩ := tileSup_real qrow K s hs (n + 1)
      obtain ⟨M, hM⟩ := kM_succ_real hs n
      rcases max_choice (M : EReal) (r : EReal) with h | h
      · exact ⟨M, by rw [kM_succ, hM, hr, h]⟩
      · exact ⟨r, by rw [kM_succ, hM, hr, h]⟩

/-! ## The carried sums -/

/-- The weighted sum over the keys of the first n tiles, relative to the real M. -/
def G (w : Fin 2048 → ℝ) (n : ℕ) (M : ℝ) : ℝ :=
  ∑ i ∈ Finset.range n, ∑ c : Fin 256, Real.exp (s (tileIx i c) - M) * w (tileIx i c)

/-- Changing the reference from M to M' multiplies every weight by exp (M − M'). -/
theorem G_rescale (w : Fin 2048 → ℝ) (n : ℕ) (M M' : ℝ) :
    Real.exp (M - M') * G s w n M = G s w n M' := by
  unfold G
  rw [Finset.mul_sum]
  refine Finset.sum_congr rfl fun i _ => ?_
  rw [Finset.mul_sum]
  refine Finset.sum_congr rfl fun c _ => ?_
  rw [← mul_assoc, ← Real.exp_add]
  congr 2
  ring

/-- The weights one tile gives its keys, summed against the values. -/
theorem tile_sum (hs : ∀ t, kScore qrow K t = (s t : EReal)) (hv : ∀ t, V t e = (v t : EReal))
    (n : ℕ) (M : ℝ) (hM : kM qrow K (n + 1) = (M : EReal)) :
    ∑ c : Fin 256, kP qrow K n c * V (tileIx n c) e =
      ((∑ c : Fin 256, Real.exp (s (tileIx n c) - M) * v (tileIx n c) : ℝ) : EReal) := by
  rw [coe_sum]
  refine Finset.sum_congr rfl fun c _ => ?_
  unfold kP
  rw [hM, hs, hv, exp_coe_sub, EReal.coe_mul]

/-- After n + 1 tiles, with carried maximum the real M, the carried weighted sum is the real weighted sum
    of the first n + 1 tiles relative to M. -/
theorem kAcc_succ_real (hs : ∀ t, kScore qrow K t = (s t : EReal)) (hv : ∀ t, V t e = (v t : EReal)) :
    ∀ (n : ℕ) (M : ℝ), kM qrow K (n + 1) = (M : EReal) →
      kAcc qrow K V e (n + 1) = ((G s v (n + 1) M : ℝ) : EReal)
  | 0, M, hM => by
      have hA : kA qrow K 0 = 0 := by
        unfold kA
        rw [kM_zero, EReal.bot_sub]
        rfl
      show kA qrow K 0 * kAcc qrow K V e 0 + _ = _
      rw [hA, zero_mul, zero_add, tile_sum qrow K V e s v hs hv 0 M hM]
      unfold G
      rw [Finset.sum_range_one]
  | n + 1, M, hM => by
      obtain ⟨M0, hM0⟩ := kM_succ_real qrow K s hs n
      have ih := kAcc_succ_real hs hv n M0 hM0
      have hA : kA qrow K (n + 1) = ((Real.exp (M0 - M) : ℝ) : EReal) := by
        unfold kA
        rw [hM0, hM, exp_coe_sub]
      show kA qrow K (n + 1) * kAcc qrow K V e (n + 1) + _ = _
      rw [hA, ih, tile_sum qrow K V e s v hs hv (n + 1) M hM, ← EReal.coe_mul, G_rescale, ← EReal.coe_add]
      congr 1
      unfold G
      rw [Finset.sum_range_succ _ (n + 1)]

/-- The normaliser is the weighted sum against the constant value one. -/
theorem kL_eq_kAcc_one (n : ℕ) : kL qrow K n = kAcc qrow K (fun _ _ => 1) e n := by
  induction n with
  | zero => rfl
  | succ n ih =>
      show kA qrow K n * kL qrow K n + _ = kA qrow K n * kAcc qrow K (fun _ _ => 1) e n + _
      rw [ih]
      congr 1
      refine Finset.sum_congr rfl fun c _ => (mul_one _).symm

/-! ## The two ends -/

/-- The keys of the eight tiles are all the keys. -/
theorem G_eight (w : Fin 2048 → ℝ) (M : ℝ) : G s w 8 M = ∑ t : Fin 2048, Real.exp (s t - M) * w t := by
  unfold G
  rw [Cert.PointDist.sum_tiles (a := 8) (b := 256) (by norm_num)
    (fun t : Fin 2048 => Real.exp (s t - M) * w t), Finset.sum_range]
  refine Finset.sum_congr rfl fun i _ => Finset.sum_congr rfl fun c _ => ?_
  have h : tileIx i.val c = Cert.PointDist.tileIdx (by norm_num : 8 * 256 = 2048) i c := by
    apply Fin.ext
    show (256 * i.val + c.val) % 2048 = i.val * 256 + c.val
    have := i.isLt; have := c.isLt
    omega
  rw [h]

theorem sumExp_pos (c : ℝ) : 0 < ∑ t : Fin 2048, Real.exp (s t - c) :=
  Finset.sum_pos (fun t _ => Real.exp_pos _) Finset.univ_nonempty

/-- The normalised weighted sum does not depend on the reference subtracted from the scores. -/
theorem quot_shift (w : Fin 2048 → ℝ) (c : ℝ) :
    (∑ t, Real.exp (s t - c) * w t) / (∑ t, Real.exp (s t - c)) =
      (∑ t, Real.exp (s t) * w t) / (∑ t, Real.exp (s t)) := by
  have h1 : ∀ t, Real.exp (s t - c) = Real.exp (s t) * Real.exp (-c) := fun t => by
    rw [← Real.exp_add, sub_eq_add_neg]
  have hn : (∑ t, Real.exp (s t - c) * w t) = (∑ t, Real.exp (s t) * w t) * Real.exp (-c) := by
    rw [Finset.sum_mul]
    exact Finset.sum_congr rfl fun t _ => by rw [h1]; ring
  have hd : (∑ t, Real.exp (s t - c)) = (∑ t, Real.exp (s t)) * Real.exp (-c) := by
    rw [Finset.sum_mul]
    exact Finset.sum_congr rfl fun t _ => h1 t
  rw [hn, hd, mul_div_mul_right _ _ (Real.exp_pos _).ne']

/-- The tiled row: the real quotient relative to the last carried maximum. -/
theorem kOut_real (hs : ∀ t, kScore qrow K t = (s t : EReal)) (hv : ∀ t, V t e = (v t : EReal)) :
    ∃ c : ℝ, kOut qrow K V e =
      (((∑ t, Real.exp (s t - c) * v t) / (∑ t, Real.exp (s t - c)) : ℝ) : EReal) := by
  obtain ⟨M, hM⟩ := kM_succ_real qrow K s hs 7
  refine ⟨M, ?_⟩
  have hL : G s (fun _ => 1) 8 M = ∑ t, Real.exp (s t - M) := by
    rw [G_eight]
    exact Finset.sum_congr rfl fun t _ => mul_one _
  show Ideal.div (kAcc qrow K V e (7 + 1)) (kL qrow K (7 + 1)) = _
  rw [kL_eq_kAcc_one qrow K e (7 + 1), kAcc_succ_real qrow K V e s v hs hv 7 M hM,
    kAcc_succ_real qrow K (fun _ _ => 1) e s (fun _ => 1) hs (fun _ => EReal.coe_one.symm) 7 M hM]
  show Ideal.div ((G s v 8 M : ℝ) : EReal) ((G s (fun _ => 1) 8 M : ℝ) : EReal) = _
  rw [hL, G_eight, div_coe_coe _ (sumExp_pos s M).ne']

/-- The plain row: the real quotient relative to the largest score. -/
theorem refOut_real (hs : ∀ t, kScore qrow K t = (s t : EReal)) (hv : ∀ t, V t e = (v t : EReal)) :
    ∃ c : ℝ, refOut qrow K V e =
      (((∑ t, Real.exp (s t - c) * v t) / (∑ t, Real.exp (s t - c)) : ℝ) : EReal) := by
  obtain ⟨t0, -, ht0⟩ := Finset.exists_mem_eq_sup Finset.univ Finset.univ_nonempty (refScore qrow K)
  have hmax : refMax qrow K = (s t0 : EReal) := by
    unfold refMax
    rw [ht0, refScore_eq_kScore, hs]
  refine ⟨s t0, ?_⟩
  have hexp : ∀ t, refExp qrow K t = ((Real.exp (s t - s t0) : ℝ) : EReal) := fun t => by
    unfold refExp
    rw [hmax, refScore_eq_kScore, hs, exp_coe_sub]
  have hden : (∑ t', refExp qrow K t') = ((∑ t', Real.exp (s t' - s t0) : ℝ) : EReal) := by
    rw [coe_sum]
    exact Finset.sum_congr rfl fun t _ => hexp t
  unfold refOut
  rw [Finset.sum_div Finset.univ (fun t => Real.exp (s t - s t0) * v t), coe_sum, hden]
  refine Finset.sum_congr rfl fun t _ => ?_
  rw [hexp, hv, div_coe_coe _ (sumExp_pos s (s t0)).ne', ← EReal.coe_mul, div_mul_eq_mul_div]

end Real

/-- With real inputs the tiled row and the plain row are the same number. -/
theorem kOut_eq_refOut (qrow : Fin 1024 → EReal) (K V : Fin 2048 → Fin 1024 → EReal)
    (hq : ∀ d, ∃ r : ℝ, qrow d = (r : EReal)) (hK : ∀ t d, ∃ r : ℝ, K t d = (r : EReal))
    (hV : ∀ t e, ∃ r : ℝ, V t e = (r : EReal)) (e : Fin 1024) :
    kOut qrow K V e = refOut qrow K V e := by
  obtain ⟨s, hs⟩ := kScore_real qrow K hq hK
  choose v hv using fun t => hV t e
  obtain ⟨c, hc⟩ := kOut_real qrow K V e s v hs hv
  obtain ⟨c', hc'⟩ := refOut_real qrow K V e s v hs hv
  rw [hc, hc', quot_shift s v c, quot_shift s v c']

end Cert.Attn

end
-- ==== Proof.Finite.lean ====
/-
  The precondition "every float input is finite", read back.

  The printed predicate takes, for each of the seven argument arrays, the absolute value of every entry, compares
  it strictly against the single-precision pattern of +∞, folds the resulting one-bit array by `and` over all of
  its axes starting from 1, and finally takes the `and` of the seven one-bit results. The hypothesis says that
  this last bit is 1.

  A conjunction of bits is 1 exactly when each bit is 1, so each of the seven folds is 1. A fold by `and` into a
  result with a single index is 1 only if every entry folded is 1, so at every index `i` of every array `x` the
  comparison bit is 1, i.e. `max (x i) (-(x i)) < ⊤` over the extended reals (the pattern 0x7F800000 has an
  all-ones exponent, a zero fraction and a clear sign bit, hence denotes `⊤`). An extended real is `⊥`, `⊤` or a
  real number; for `⊥` and for `⊤` the maximum of the value and its negation is `⊤`, which is not below `⊤`.
  Hence every entry is a real number.
-/
import proofs.«165952_j73890617361023_2_alg».proof.Pre_finite_inputs
import proofs.«165952_j73890617361023_2_alg».proof.Proof.Gen.Pre_finite_inputs
import Idealize.ShloMosaic.PureOps.Ideal
import Idealize.ShloMosaic.Lib.ReduceAll
import Idealize.ShloMosaic.Lib.ValueIdx

noncomputable section

namespace Cert.Attn.Finite

open Idealize.ShloMosaic Idealize.ShloMosaic.ValueIdx
open Cert.Pre_finite_inputs (S_ S4x2048x1024 S1024x1024 S1024)

/-- The shape with no axes has exactly one index: a function out of the empty set of axes. -/
instance : Subsingleton S_.Idx := ⟨fun a b => funext fun d => d.elim0⟩

/-- The single-precision pattern with all-ones exponent, zero fraction and clear sign denotes `⊤`. -/
theorem ofBits_inf : Ideal.ofBits .f32 0x7F800000#32 = (⊤ : EReal) := by simp [Ideal.ofBits, Ideal.ieee]

/-- The one-bit word of a truth value is 1 exactly when the truth value is true. -/
theorem ofBool_eq_one (b : Bool) : BitVec.ofBool b = 1#1 ↔ b = true := by cases b <;> decide

/-- An extended real whose absolute value `max x (-x)` is below `⊤` is a real number: at `⊥` the negation is `⊤`,
    at `⊤` the value itself is, and in both cases the maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- ONE ARRAY, any shape. If the fold by `and`, over all axes and starting from 1, of the bits
    `|x i| < +∞` is 1, then every entry of `x` is a real number: the fold has one result index, so every bit
    folded is 1; the bit at `i` is the truth value of `max (x i) (-(x i)) < ⊤`. -/
theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) :
    ∀ i, ∃ r : ℝ, x i = (r : EReal) := by
  intro i
  -- every bit folded is 1
  have h1 := Host.reduce_andi_all _ _ hr hu ix0 e i
  -- the bit at `i`: the comparison of the absolute value of `x i` with what the pattern denotes
  have h2 : BitVec.ofBool (decide (max (x i) (-(x i)) < Ideal.ofBits .f32 0x7F800000#32)) = 1#1 := h1
  rw [ofBool_eq_one, decide_eq_true_eq, ofBits_inf] at h2
  exact real_of_abs_lt_top _ h2

/-- THE PRECONDITION DECODED. If the printed predicate of the seven argument arrays is all ones, every entry of
    every array is a real number. The predicate's one result bit is the `and` of the seven folds, nested to the
    left in argument order; it is 1, so each fold is 1, and `finite_of_all` reads each array's fold. -/
theorem finite_of_pre [Cert.Pre_finite_inputs.Facts]
    (a0 : FVec Ideal Cert.Pre_finite_inputs.S4x2048x1024 .f32) (a1 : FVec Ideal Cert.Pre_finite_inputs.S1024x1024 .f32) (a2 : FVec Ideal Cert.Pre_finite_inputs.S1024 .f32)
    (a3 : FVec Ideal Cert.Pre_finite_inputs.S1024x1024 .f32) (a4 : FVec Ideal Cert.Pre_finite_inputs.S1024 .f32) (a5 : FVec Ideal Cert.Pre_finite_inputs.S1024x1024 .f32) (a6 : FVec Ideal Cert.Pre_finite_inputs.S1024 .f32)
    (h : Cert.Pre_finite_inputs.fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal)) := by
  -- the predicate's value at its one index
  have e := congrFun h ix0
  dsimp only [Cert.Pre_finite_inputs.fn, Cert.Pre_finite_inputs.fn_part1] at e
  -- a conjunction of bits is 1 exactly when each bit is
  simp only [andi, IntOp.andi_eq_one] at e
  obtain ⟨⟨⟨⟨⟨⟨e0, e1⟩, e2⟩, e3⟩, e4⟩, e5⟩, e6⟩ := e
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6⟩

end Cert.Attn.Finite

end
-- ==== Proof.BridgeKernel.lean ====
/-
  The idealized kernel's half, and the two programs joined.

  The final result array is what the attention region's write-backs leave: block by block, the tiled
  attention row of the three arrays the region reads. Those are the three results of the projection region
  reshaped, that is, the projections of the launch arguments. With finite arguments every projected entry is a
  real number, and on real inputs the tiled attention row is the plain one: the array the reference computes.
-/
import proofs.«165952_j73890617361023_2_alg».proof.Proof.KIRun
import proofs.«165952_j73890617361023_2_alg».proof.Proof.KIVal1a
import proofs.«165952_j73890617361023_2_alg».proof.Proof.KIVal1b
import proofs.«165952_j73890617361023_2_alg».proof.Proof.KIMid
import proofs.«165952_j73890617361023_2_alg».proof.Proof.KIFlash
import proofs.«165952_j73890617361023_2_alg».proof.Proof.Softmax
import proofs.«165952_j73890617361023_2_alg».proof.Proof.Finite
import proofs.«165952_j73890617361023_2_alg».proof.Proof.BridgeRef
import proofs.«165952_j73890617361023_2_alg».proof.Defs

noncomputable section

namespace Cert.Proof.Bridge

open Cert.KernelIdeal Cert.KernelIdeal.Gen Cert.KernelIdeal.Hand
open Idealize.ShloMosaic Idealize.ShloMosaic.TcCoe Idealize.SL.Sem Idealize.ShloMosaic.ValueIdx Cert.Attn

variable (m : (ℓ : Loc nD τ sig) → Buf (Elt Ideal) ℓ) (ρ : Dev nD → PrngReg)

/-- With real arguments, the final result array of core `c` is the common result function of its launch arguments. -/
theorem kernel_value (c : Dev nD)
    (h0 : ∀ i, ∃ r : ℝ, ((m ((c : Thread nD τ).loc main_arg0)) : S3.Idx → EReal) i = (r : EReal)) (h1 : ∀ i, ∃ r : ℝ, ((m ((c : Thread nD τ).loc main_arg1)) : S2.Idx → EReal) i = (r : EReal))
    (h2 : ∀ i, ∃ r : ℝ, ((m ((c : Thread nD τ).loc main_arg2)) : S1.Idx → EReal) i = (r : EReal)) (h3 : ∀ i, ∃ r : ℝ, ((m ((c : Thread nD τ).loc main_arg3)) : S2.Idx → EReal) i = (r : EReal))
    (h4 : ∀ i, ∃ r : ℝ, ((m ((c : Thread nD τ).loc main_arg4)) : S1.Idx → EReal) i = (r : EReal)) (h5 : ∀ i, ∃ r : ℝ, ((m ((c : Thread nD τ).loc main_arg5)) : S2.Idx → EReal) i = (r : EReal))
    (h6 : ∀ i, ∃ r : ℝ, ((m ((c : Thread nD τ).loc main_arg6)) : S1.Idx → EReal) i = (r : EReal)) :
    (W4 m ρ c (Proc.devRef .tc main_v8) : S3.Idx → EReal) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e1 : (W4 m ρ c (Proc.devRef .tc main_v8) : S3.Idx → EReal) = (dat1 (V3 m ρ) c).arrAt 3 cfg1.N := W4_arr m ρ c 3
  refine e1.trans (Cert.KernelIdeal.Val1.final1 (V3 m ρ) c _ fun t ht b r e => ?_)
  rw [Cert.KernelIdeal.Val1.last_tile_out (V3 m ρ) c t ht b r e, out_apply]
  unfold outAt
  have hqf : Cert.KernelIdeal.Flash.qrow (V3 m ρ c main_v5 : S3.Idx → EReal) ⟨t.val / 8, by have := Cert.KernelIdeal.Val1.point_lt t; omega⟩ b r
      = fun d : Fin 1024 => proj (m ((c : Thread nD τ).loc main_arg0)) (m ((c : Thread nD τ).loc main_arg1)) (m ((c : Thread nD τ).loc main_arg2)) b (⟨256 * (t.val / 8) + r.val, by have := Cert.KernelIdeal.Val1.point_lt t; omega⟩ : Fin 2048) d :=
    funext fun d => Cert.KernelIdeal.Mid.mid_q m ρ c b _ d
  have hkf : Cert.KernelIdeal.Flash.Kmat (V3 m ρ c main_v6 : S3.Idx → EReal) b
      = fun (s : Fin 2048) (d : Fin 1024) => proj (m ((c : Thread nD τ).loc main_arg0)) (m ((c : Thread nD τ).loc main_arg3)) (m ((c : Thread nD τ).loc main_arg4)) b s d :=
    funext fun s => funext fun d => Cert.KernelIdeal.Mid.mid_k m ρ c b s d
  have hvf : Cert.KernelIdeal.Flash.Vmat (V3 m ρ c main_v7 : S3.Idx → EReal) b
      = fun (s : Fin 2048) (d : Fin 1024) => proj (m ((c : Thread nD τ).loc main_arg0)) (m ((c : Thread nD τ).loc main_arg5)) (m ((c : Thread nD τ).loc main_arg6)) b s d :=
    funext fun s => funext fun d => Cert.KernelIdeal.Mid.mid_v m ρ c b s d
  rw [hqf, hkf, hvf]
  exact kOut_eq_refOut _ _ _ (fun d => Cert.KernelIdeal.Mid.proj_real _ _ _ h0 h1 h2 b _ d) (fun s d => Cert.KernelIdeal.Mid.proj_real _ _ _ h0 h3 h4 b s d)
    (fun s d => Cert.KernelIdeal.Mid.proj_real _ _ _ h0 h5 h6 b s d) e

/-- The idealized kernel's run with its result named: under the precondition the final result array is the common
    result function of the launch arguments, and the arguments end as launched. -/
theorem kernel_run (hpre : Cert.Pre_KernelIdeal (hPre_finite_inputs := Cert.Pre_finite_inputs.Gen.facts) m) :
    θ_run (defs (F := Ideal)) (onTc (τ := τ) (main (F := Ideal))) ⟨m, fun _ => 0, ρ⟩ (fun r => ∀ c : Dev nD,
      r.2.mem ((c.tc : Thread nD τ).loc main_v8) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ h c => ?_) (run_all (F := Ideal) m ρ)
  obtain ⟨f0, f1, f2, f3, f4, f5, f6⟩ := Cert.Attn.Finite.finite_of_pre _ _ _ _ _ _ _ (hpre c)
  exact ⟨(h c _ (mem_uc main_v8 (by decide))).trans (kernel_value m ρ c f0 f1 f2 f3 f4 f5 f6),
     (h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide))⟩

end Cert.Proof.Bridge

end
-- ==== Proof.lean ====
/-
  The certificate's five claims.

  Both kernel programs run to the end and leave their arguments unchanged: each is two host stretches and two
  regions, every region's body run case by case over its grid. The reference's frame is its run with the result
  dropped. The idealization rewrote nothing. And at the extended reals, from memories agreeing on the arguments
  and with every argument finite, the idealized kernel and the idealized reference end with the same result array:
  the tiled attention of the projected inputs is the plain one.
-/
import proofs.«165952_j73890617361023_2_alg».proof.Defs
import proofs.«165952_j73890617361023_2_alg».proof.Proof.Gen.Kernel
import proofs.«165952_j73890617361023_2_alg».proof.Proof.Gen.KernelIdeal
import proofs.«165952_j73890617361023_2_alg».proof.Proof.Gen.ReferenceIdeal
import proofs.«165952_j73890617361023_2_alg».proof.Proof.Gen.ReferenceIdeal.Run
import proofs.«165952_j73890617361023_2_alg».proof.Proof.Gen.ReferenceIdeal.Read
import proofs.«165952_j73890617361023_2_alg».proof.Proof.Gen.Pre_finite_inputs
import proofs.«165952_j73890617361023_2_alg».proof.Proof.KRun
import proofs.«165952_j73890617361023_2_alg».proof.Proof.KIRun
import proofs.«165952_j73890617361023_2_alg».proof.Proof.BridgeRef
import proofs.«165952_j73890617361023_2_alg».proof.Proof.BridgeKernel
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨_, Cert.Proof.Bridge.kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.Proof.Bridge.ref_value m' c, (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
